-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x512 : Shape := ⟨2, ![1024, 512]⟩
abbrev S1024x1 : Shape := ⟨2, ![1024, 1]⟩
abbrev S1024x8 : Shape := ⟨2, ![1024, 8]⟩
abbrev S64x512x128 : Shape := ⟨3, ![64, 512, 128]⟩
abbrev S64x128x128 : Shape := ⟨3, ![64, 128, 128]⟩
abbrev S64x128x1 : Shape := ⟨3, ![64, 128, 1]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x512x128 : S_.BroadcastsInDim S64x512x128 (![] : Fin 0 → Fin S64x512x128.rank)
  reducesTo_S64x512x128_S_d0_1_2 : S64x512x128.ReducesTo [0, 1, 2] S_
  bcast_S_S64x128x128 : S_.BroadcastsInDim S64x128x128 (![] : Fin 0 → Fin S64x128x128.rank)
  reducesTo_S64x128x128_S_d0_1_2 : S64x128x128.ReducesTo [0, 1, 2] S_
  bcast_S_S64x128x1 : S_.BroadcastsInDim S64x128x1 (![] : Fin 0 → Fin S64x128x1.rank)
  reducesTo_S64x128x1_S_d0_1_2 : S64x128x1.ReducesTo [0, 1, 2] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_arg1 : IVec S1024x1 32) (main_arg5 : FVec F S64x128x1 .f32) (main_v13 : IVec S_ 1) (main_v16 : IVec S64x128x128 1) : IVec S_ 1 :=
  let main_c_5 : IVec S_ 1 := constantI S_ 1 1#1
  let main_v17 : IVec S_ 1 := (fun x v => Host.reduce IntOp.andi x v reducesTo_S64x128x128_S_d0_1_2 h_S_) main_v16 main_c_5
  let main_v18 : IVec S_ 1 := andi main_v13 main_v17
  let main_v19 : FVec F S64x128x1 .f32 := Host.absf main_arg5
  let main_cst_6 : FVec F S_ .f32 := constant S_ .f32 0x7F800000#32
  let main_v20 : FVec F S64x128x1 .f32 := broadcastInDim S64x128x1 ![] bcast_S_S64x128x1 main_cst_6
  let main_v21 : IVec S64x128x1 1 := cmpf .olt main_v19 main_v20
  let main_c_7 : IVec S_ 1 := constantI S_ 1 1#1
  let main_v22 : IVec S_ 1 := (fun x v => Host.reduce IntOp.andi x v reducesTo_S64x128x1_S_d0_1_2 h_S_) main_v21 main_c_7
  let main_v23 : IVec S_ 1 := andi main_v18 main_v22
  let main_c_8 : IVec S_ 32 := constantI S_ 32 0#32
  let main_v24 : IVec S1024x1 32 := broadcastInDim S1024x1 ![] bcast_S_S1024x1 main_c_8
  let main_v25 : IVec S1024x1 1 := cmpi .sge main_arg1 main_v24
  let main_c_9 : IVec S_ 32 := constantI S_ 32 63#32
  let main_v26 : IVec S1024x1 32 := broadcastInDim S1024x1 ![] bcast_S_S1024x1 main_c_9
  let main_v27 : IVec S1024x1 1 := cmpi .sle main_arg1 main_v26
  let main_v28 : IVec S1024x1 1 := andi main_v25 main_v27
  let main_c_10 : IVec S_ 1 := constantI S_ 1 1#1
  let main_v29 : IVec S_ 1 := (fun x v => Host.reduce IntOp.andi x v reducesTo_S1024x1_S_d0_1 h_S_) main_v28 main_c_10
  let main_v30 : IVec S_ 1 := andi main_v23 main_v29
  main_v30

def fn {F : FTy → Type} [FloatOps F] (main_arg0 : FVec F S1024x512 .f32) (main_arg1 : IVec S1024x1 32) (main_arg2 : FVec F S1024x8 .f32) (main_arg3 : FVec F S64x512x128 .f32) (main_arg4 : FVec F S64x128x128 .f32) (main_arg5 : FVec F S64x128x1 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x512x128 .f32 := Host.absf main_arg3
  let main_cst_2 : FVec F S_ .f32 := constant S_ .f32 0x7F800000#32
  let main_v10 : FVec F S64x512x128 .f32 := broadcastInDim S64x512x128 ![] bcast_S_S64x512x128 main_cst_2
  let main_v11 : IVec S64x512x128 1 := cmpf .olt main_v9 main_v10
  let main_c_3 : IVec S_ 1 := constantI S_ 1 1#1
  let main_v12 : IVec S_ 1 := (fun x v => Host.reduce IntOp.andi x v reducesTo_S64x512x128_S_d0_1_2 h_S_) main_v11 main_c_3
  let main_v13 : IVec S_ 1 := andi main_v8 main_v12
  let main_v14 : FVec F S64x128x128 .f32 := Host.absf main_arg4
  let main_cst_4 : FVec F S_ .f32 := constant S_ .f32 0x7F800000#32
  let main_v15 : FVec F S64x128x128 .f32 := broadcastInDim S64x128x128 ![] bcast_S_S64x128x128 main_cst_4
  let main_v16 : IVec S64x128x128 1 := cmpf .olt main_v14 main_v15
  fn_part1 (F := F) main_arg1 main_arg5 main_v13 main_v16
-- ==== Kernel.lean ====
abbrev S1024x512 : Shape := ⟨2, ![1024, 512]⟩
abbrev S1024x1 : Shape := ⟨2, ![1024, 1]⟩
abbrev S1024x8 : Shape := ⟨2, ![1024, 8]⟩
abbrev S64x512x128 : Shape := ⟨3, ![64, 512, 128]⟩
abbrev S64x128x128 : Shape := ⟨3, ![64, 128, 128]⟩
abbrev S64x128x1 : Shape := ⟨3, ![64, 128, 1]⟩
abbrev S1024x64 : Shape := ⟨2, ![1024, 64]⟩
abbrev S32x512x128 : Shape := ⟨3, ![32, 512, 128]⟩
abbrev S32x128x128 : Shape := ⟨3, ![32, 128, 128]⟩
abbrev S32x128x1 : Shape := ⟨3, ![32, 128, 1]⟩
abbrev S64x512 : Shape := ⟨2, ![64, 512]⟩
abbrev S32x1x128 : Shape := ⟨3, ![32, 1, 128]⟩
abbrev S32x1x512 : Shape := ⟨3, ![32, 1, 512]⟩
abbrev S32x512 : Shape := ⟨2, ![32, 512]⟩
abbrev S1024 : Shape := ⟨1, ![1024]⟩
abbrev S65536 : Shape := ⟨1, ![65536]⟩
abbrev S32 : Shape := ⟨1, ![32]⟩
abbrev S2048 : Shape := ⟨1, ![2048]⟩
abbrev S_ : Shape := ⟨0, ![]⟩
abbrev S16 : Shape := ⟨1, ![16]⟩

abbrev nBuf : Table → Nat
  | .hbm => 11
  | .local .tc .vmem => 9
  | .local .scVector .vmem => 3
  | _ => 0

abbrev bufTy : (tb : Table) → Fin (nBuf tb) → BufTy
  | .hbm, ⟨0, _⟩ => ⟨S1024x512, .f32⟩
  | .hbm, ⟨1, _⟩ => ⟨S1024x1, .i32⟩
  | .hbm, ⟨2, _⟩ => ⟨S1024x8, .f32⟩
  | .hbm, ⟨3, _⟩ => ⟨S64x512x128, .f32⟩
  | .hbm, ⟨4, _⟩ => ⟨S64x128x128, .f32⟩
  | .hbm, ⟨5, _⟩ => ⟨S64x128x1, .f32⟩
  | .hbm, ⟨6, _⟩ => ⟨S1024x64, .f32⟩
  | .hbm, ⟨7, _⟩ => ⟨S1024, .i32⟩
  | .hbm, ⟨8, _⟩ => ⟨S65536, .f32⟩
  | .hbm, ⟨9, _⟩ => ⟨S1024, .f32⟩
  | .hbm, ⟨10, _⟩ => ⟨S1024x1, .f32⟩
  | .local .tc .vmem, ⟨0, _⟩ => ⟨S32x512x128, .f32⟩
  | .local .tc .vmem, ⟨1, _⟩ => ⟨S32x512x128, .f32⟩
  | .local .tc .vmem, ⟨2, _⟩ => ⟨S32x128x128, .f32⟩
  | .local .tc .vmem, ⟨3, _⟩ => ⟨S32x128x128, .f32⟩
  | .local .tc .vmem, ⟨4, _⟩ => ⟨S32x128x1, .f32⟩
  | .local .tc .vmem, ⟨5, _⟩ => ⟨S32x128x1, .f32⟩
  | .local .tc .vmem, ⟨6, _⟩ => ⟨S1024x512, .f32⟩
  | .local .tc .vmem, ⟨7, _⟩ => ⟨S1024x64, .f32⟩
  | .local .tc .vmem, ⟨8, _⟩ => ⟨S64x512, .f32⟩
  | .local .scVector .vmem, ⟨0, _⟩ => ⟨S32, .i32⟩
  | .local .scVector .vmem, ⟨1, _⟩ => ⟨S2048, .f32⟩
  | .local .scVector .vmem, ⟨2, _⟩ => ⟨S32, .f32⟩
  | _, _ => ⟨S1024x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v2_scv : Ref sig .scVector := ⟨.hbm, 8, rfl⟩
abbrev main_v1_scv : Ref sig .scVector := ⟨.hbm, 7, rfl⟩
abbrev main_v3_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c32_i32 : BitVec 32 := 32#32
  let v12 : BitVec 32 := Scalar.muli arg0 c32_i32
  let v13 : Index := Scalar.indexCast v12
  let c0_11 : Index := 0#32
  ![v13.toNat, 0]
def k0_cond2 (i : grid0.Coords) : BitVec 1 :=
  let arg0 : BitVec 32 := BitVec.ofNat 32 (i 0).val
  let c2_i32_0 : BitVec 32 := 2#32
  let v3 : BitVec 1 := Scalar.cmpi .eq arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c64_i32 : BitVec 32 := 64#32
  let v3 : BitVec 32 := Scalar.muli v2 c64_i32
  ![v3.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]

def k1_chk1 (v10 : IVec S16 32) : Prop :=
  (∀ a x, ((![v10] : Fin 1 → IVec S16 32) a x).toNat < S2048.size a)
instance k1_chk1.dec : ∀ (v10 : IVec S16 32), Decidable (k1_chk1 v10) := fun v10 => decidable_of_iff' _ (Iff.of_eq (k1_chk1.eq_1 v10))
theorem k1_idx1_inb : ∀ (v10 : IVec S16 32) (k1_hw1 : k1_chk1 v10), ∀ a x, ((![v10] : Fin 1 → IVec S16 32) a x).toNat < S2048.size a := fun v10 k1_hw1 => k1_hw1

def k1_chk2 (v19 : IVec S16 32) : Prop :=
  (∀ a x, ((![v19] : Fin 1 → IVec S16 32) a x).toNat < S2048.size a)
instance k1_chk2.dec : ∀ (v19 : IVec S16 32), Decidable (k1_chk2 v19) := fun v19 => decidable_of_iff' _ (Iff.of_eq (k1_chk2.eq_1 v19))
theorem k1_idx2_inb : ∀ (v19 : IVec S16 32) (k1_hw2 : k1_chk2 v19), ∀ a x, ((![v19] : Fin 1 → IVec S16 32) a x).toNat < S2048.size a := fun v19 k1_hw2 => k1_hw2
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S32x512x128_S32x512x128_0_0_0 : ∀ a, (![0, 0, 0] : Fin 3 → Nat) a + S32x512x128.size a ≤ S32x512x128.size a
  h_S32x512x128 : 0 < S32x512x128.numel
  inb_S32x128x128_S32x128x128_0_0_0 : ∀ a, (![0, 0, 0] : Fin 3 → Nat) a + S32x128x128.size a ≤ S32x128x128.size a
  h_S32x128x128 : 0 < S32x128x128.numel
  inb_S32x128x1_S32x128x1_0_0_0 : ∀ a, (![0, 0, 0] : Fin 3 → Nat) a + S32x128x1.size a ≤ S32x128x1.size a
  h_S32x128x1 : 0 < S32x128x1.numel
  shapeCasts_S32x1x512_S32x512 : S32x1x512.ShapeCasts S32x512
  h_S32x512 : 0 < S32x512.numel
  shapeCasts_S32x512_S32x512 : S32x512.ShapeCasts S32x512
  inb_S1024x512_S1024x512_0_0 : ∀ a, (![0, 0] : Fin 2 → Nat) a + S1024x512.size a ≤ S1024x512.size a
  h_S1024x512 : 0 < S1024x512.numel
  inb_S64x512_S64x512_0_0 : ∀ a, (![0, 0] : Fin 2 → Nat) a + S64x512.size a ≤ S64x512.size a
  h_S64x512 : 0 < S64x512.numel
  inb_S1024x64_S1024x64_0_0 : ∀ a, (![0, 0] : Fin 2 → Nat) a + S1024x64.size a ≤ S1024x64.size a
  h_S1024x64 : 0 < S1024x64.numel
  shapeCasts_S1024x1_S1024 : S1024x1.ShapeCasts S1024
  shapeCasts_S1024x64_S65536 : S1024x64.ShapeCasts S65536
  iota_S16_d0_w32_scVector : S16.Iotas .scVector 32 [0]
  inb_S32_S16_0 : ∀ a, (![0] : Fin 1 → Nat) a + S16.size a ≤ S32.size a
  h_S16 : 0 < S16.numel
  h_S2048 : 0 < S2048.numel
  inb_S32_S16_16 : ∀ a, (![16] : Fin 1 → Nat) a + S16.size a ≤ S32.size a
  shapeCasts_S1024_S1024x1 : S1024.ShapeCasts S1024x1
  dot_S32x128x1_S32x128x128_S32x1x128_1_2_2_1_0_0_wf : DotDims.WF S32x128x1 S32x128x128 S32x1x128 [1] [2] [2] [1] [0] [0]
  dot_S32x1x128_S32x512x128_S32x1x512_2_2_1_1_0_0_wf : DotDims.WF S32x1x128 S32x512x128 S32x1x512 [2] [2] [1] [1] [0] [0]
  dot_S1024x512_S64x512_S1024x64_1_1_0_0_n_n_wf : DotDims.WF S1024x512 S64x512 S1024x64 [1] [1] [0] [0] [] []
  hcc1_scoped0 : 8 + S_.numel ≤ 11
  hcc1_scoped1 : 9 + S_.numel ≤ 11
  hcc1_scoped2 : 10 + S_.numel ≤ 11
  hscKind : ∀ q, scKind q ≠ .tc
  hscCore : ∀ q, scNCore q ≤ τ.nSC
  hscSub : ∀ q, scNSub q ≤ τ.nSub
  hrank0 : 0 < grid0.rank
  k0_off1_inb : ∀ i : grid0.Coords, ∀ (k0_h1 : k0_cond1 i = 1#1), ∀ a, (k0_off1 i) a + S32x512.size a ≤ S64x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x128.size a ≤ S64x512x128.size a
  hwx0_0 : ∀ i : grid0.Coords, EltTy.bits .f32 = 32 ∨ (Rect.block (s := S64x512x128) S32x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S64x128x128.size a
  hwx0_1 : ∀ i : grid0.Coords, EltTy.bits .f32 = 32 ∨ (Rect.block (s := S64x128x128) S32x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x1.size a ≤ S64x128x1.size a
  hwx0_2 : ∀ i : grid0.Coords, EltTy.bits .f32 = 32 ∨ (Rect.block (s := S64x128x1) S32x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hcore1 : grid1.bound 0 ≤ τ.nSC
  hsub1 : grid1.bound 1 ≤ τ.nSub
  k1_off1_inb : ∀ i : grid1.Coords, ∀ a, (k1_off1 i) a + S2048.size a ≤ S65536.size a
  k1_off2_inb : ∀ i : grid1.Coords, ∀ a, (k1_off2 i) a + S32.size a ≤ S1024.size a
  k1_off3_inb : ∀ i : grid1.Coords, ∀ a, (k1_off3 i) a + S32.size a ≤ S1024.size a

variable [Facts₀]

abbrev cc1_scoped0 : DmaSems sig S_ := SemArray.consecutive 8 S_ hcc1_scoped0
abbrev cc1_scoped1 : DmaSems sig S_ := SemArray.consecutive 9 S_ hcc1_scoped1
abbrev cc1_scoped2 : DmaSems sig S_ := SemArray.consecutive 10 S_ hcc1_scoped2
def dot_S32x128x1_S32x128x128_S32x1x128_1_2_2_1_0_0 : DotDims S32x128x1 S32x128x128 S32x1x128 where
  lhsContracting := [1]
  rhsContracting := [2]
  lhsNonContracting := [2]
  rhsNonContracting := [1]
  lhsBatch := [0]
  rhsBatch := [0]
  wf := dot_S32x128x1_S32x128x128_S32x1x128_1_2_2_1_0_0_wf
def dot_S32x1x128_S32x512x128_S32x1x512_2_2_1_1_0_0 : DotDims S32x1x128 S32x512x128 S32x1x512 where
  lhsContracting := [2]
  rhsContracting := [2]
  lhsNonContracting := [1]
  rhsNonContracting := [1]
  lhsBatch := [0]
  rhsBatch := [0]
  wf := dot_S32x1x128_S32x512x128_S32x1x512_2_2_1_1_0_0_wf
def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf

abbrev win0_0 : Pipeline.Window sig grid0 :=
  Pipeline.Window.ofSpec (Memref.whole main_arg3) S32x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x512 : Shape := ⟨2, ![1024, 512]⟩
abbrev S1024x1 : Shape := ⟨2, ![1024, 1]⟩
abbrev S1024x8 : Shape := ⟨2, ![1024, 8]⟩
abbrev S64x512x128 : Shape := ⟨3, ![64, 512, 128]⟩
abbrev S64x128x128 : Shape := ⟨3, ![64, 128, 128]⟩
abbrev S64x128x1 : Shape := ⟨3, ![64, 128, 1]⟩
abbrev S1024 : Shape := ⟨1, ![1024]⟩
abbrev S_ : Shape := ⟨0, ![]⟩
abbrev S1 : Shape := ⟨1, ![1]⟩
abbrev S1x1 : Shape := ⟨2, ![1, 1]⟩
abbrev S1024x512x128 : Shape := ⟨3, ![1024, 512, 128]⟩
abbrev S1024x1x512 : Shape := ⟨3, ![1024, 1, 512]⟩
abbrev S1024x1x128 : Shape := ⟨3, ![1024, 1, 128]⟩
abbrev S1024x128x128 : Shape := ⟨3, ![1024, 128, 128]⟩
abbrev S1024x128x1 : Shape := ⟨3, ![1024, 128, 1]⟩
abbrev S1024x1x1 : Shape := ⟨3, ![1024, 1, 1]⟩

abbrev nBuf : Space → Nat
  | .hbm => 81
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1, .i32⟩
  | .hbm, ⟨2, _⟩ => ⟨S1024x8, .f32⟩
  | .hbm, ⟨3, _⟩ => ⟨S64x512x128, .f32⟩
  | .hbm, ⟨4, _⟩ => ⟨S64x128x128, .f32⟩
  | .hbm, ⟨5, _⟩ => ⟨S64x128x1, .f32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1x1, .i32⟩
  | .hbm, ⟨20, _⟩ => ⟨S1024x1, .i32⟩
  | .hbm, ⟨21, _⟩ => ⟨S1024x1, .i1⟩
  | .hbm, ⟨22, _⟩ => ⟨S1024x1, .i1⟩
  | .hbm, ⟨23, _⟩ => ⟨S_, .i1⟩
  | .hbm, ⟨24, _⟩ => ⟨S1024, .i1⟩
  | .hbm, ⟨25, _⟩ => ⟨S1024x512x128, .f32⟩
  | .hbm, ⟨26, _⟩ => ⟨S1024x512x128, .i1⟩
  | .hbm, ⟨27, _⟩ => ⟨S_, .f32⟩
  | .hbm, ⟨28, _⟩ => ⟨S1024x512x128, .f32⟩
  | .hbm, ⟨29, _⟩ => ⟨S1024x512x128, .f32⟩
  | .hbm, ⟨30, _⟩ => ⟨S1024x1x512, .f32⟩
  | .hbm, ⟨31, _⟩ => ⟨S1024x1x128, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1, .i32⟩
  | .hbm, ⟨41, _⟩ => ⟨S_, .i32⟩
  | .hbm, ⟨42, _⟩ => ⟨S1024x1, .i32⟩
  | .hbm, ⟨43, _⟩ => ⟨S1024x1, .i1⟩
  | .hbm, ⟨44, _⟩ => ⟨S1x1, .i32⟩
  | .hbm, ⟨45, _⟩ => ⟨S1024x1, .i32⟩
  | .hbm, ⟨46, _⟩ => ⟨S1024x1, .i1⟩
  | .hbm, ⟨47, _⟩ => ⟨S1024x1, .i1⟩
  | .hbm, ⟨48, _⟩ => ⟨S_, .i1⟩
  | .hbm, ⟨49, _⟩ => ⟨S1024, .i1⟩
  | .hbm, ⟨50, _⟩ => ⟨S1024x128x128, .f32⟩
  | .hbm, ⟨51, _⟩ => ⟨S1024x128x128, .i1⟩
  | .hbm, ⟨52, _⟩ => ⟨S_, .f32⟩
  | .hbm, ⟨53, _⟩ => ⟨S1024x128x128, .f32⟩
  | .hbm, ⟨54, _⟩ => ⟨S1024x128x128, .f32⟩
  | .hbm, ⟨55, _⟩ => ⟨S1024x1x128, .f32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1, .i32⟩
  | .hbm, ⟨65, _⟩ => ⟨S_, .i32⟩
  | .hbm, ⟨66, _⟩ => ⟨S1024x1, .i32⟩
  | .hbm, ⟨67, _⟩ => ⟨S1024x1, .i1⟩
  | .hbm, ⟨68, _⟩ => ⟨S1x1, .i32⟩
  | .hbm, ⟨69, _⟩ => ⟨S1024x1, .i32⟩
  | .hbm, ⟨70, _⟩ => ⟨S1024x1, .i1⟩
  | .hbm, ⟨71, _⟩ => ⟨S1024x1, .i1⟩
  | .hbm, ⟨72, _⟩ => ⟨S_, .i1⟩
  | .hbm, ⟨73, _⟩ => ⟨S1024, .i1⟩
  | .hbm, ⟨74, _⟩ => ⟨S1024x128x1, .f32⟩
  | .hbm, ⟨75, _⟩ => ⟨S1024x128x1, .i1⟩
  | .hbm, ⟨76, _⟩ => ⟨S_, .f32⟩
  | .hbm, ⟨77, _⟩ => ⟨S1024x128x1, .f32⟩
  | .hbm, ⟨78, _⟩ => ⟨S1024x128x1, .f32⟩
  | .hbm, ⟨79, _⟩ => ⟨S1024x1x1, .f32⟩
  | .hbm, ⟨80, _⟩ => ⟨S1024x1, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩

abbrev nD : Nat := 1
abbrev τ : Topo := Topo.v7x

variable {F : FTy → Type} [FloatOps F]

class Facts₀ : Prop where
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x512x128_0 : S1024.BroadcastsInDim S1024x512x128 (![0] : Fin 1 → Fin S1024x512x128.rank)
  bcast_S_S1024x512x128 : S_.BroadcastsInDim S1024x512x128 (![] : Fin 0 → Fin S1024x512x128.rank)
  bcast_S1024x512_S1024x1x512_0_2 : S1024x512.BroadcastsInDim S1024x1x512 (![0, 2] : Fin 2 → Fin S1024x1x512.rank)
  bcast_S1024_S1024x128x128_0 : S1024.BroadcastsInDim S1024x128x128 (![0] : Fin 1 → Fin S1024x128x128.rank)
  bcast_S_S1024x128x128 : S_.BroadcastsInDim S1024x128x128 (![] : Fin 0 → Fin S1024x128x128.rank)
  bcast_S1024_S1024x128x1_0 : S1024.BroadcastsInDim S1024x128x1 (![0] : Fin 1 → Fin S1024x128x1.rank)
  bcast_S_S1024x128x1 : S_.BroadcastsInDim S1024x128x1 (![] : Fin 0 → Fin S1024x128x1.rank)
  shapeCasts_S1024x1x1_S1024x1 : S1024x1x1.ShapeCasts S1024x1
  gather_S64x512x128_S1024x1_S1024x512x128_12_0_n_n_0_1_1512128_wf : GatherDims.WF S64x512x128 S1024x1 S1024x512x128 [1, 2] [0] [] [0] [] 1 ![1, 512, 128]
  dot_S1024x1x512_S1024x512x128_S1024x1x128_2_1_1_2_0_0_wf : DotDims.WF S1024x1x512 S1024x512x128 S1024x1x128 [2] [1] [1] [2] [0] [0]
  gather_S64x128x128_S1024x1_S1024x128x128_12_0_n_n_0_1_1128128_wf : GatherDims.WF S64x128x128 S1024x1 S1024x128x128 [1, 2] [0] [] [0] [] 1 ![1, 128, 128]
  dot_S1024x1x128_S1024x128x128_S1024x1x128_2_1_1_2_0_0_wf : DotDims.WF S1024x1x128 S1024x128x128 S1024x1x128 [2] [1] [1] [2] [0] [0]
  gather_S64x128x1_S1024x1_S1024x128x1_12_0_n_n_0_1_11281_wf : GatherDims.WF S64x128x1 S1024x1 S1024x128x1 [1, 2] [0] [] [0] [] 1 ![1, 128, 1]
  dot_S1024x1x128_S1024x128x1_S1024x1x1_2_1_1_2_0_0_wf : DotDims.WF S1024x1x128 S1024x128x1 S1024x1x1 [2] [1] [1] [2] [0] [0]

variable [Facts₀]

def gather_S64x512x128_S1024x1_S1024x512x128_12_0_n_n_0_1_1512128 : GatherDims S64x512x128 S1024x1 S1024x512x128 where
  offsetDims := [1, 2]
  collapsedSliceDims := [0]
  operandBatchingDims := []
  startIndicesBatchingDims := []
  startIndexMap := [0]
  indexVectorDim := 1
  sliceSizes := ![1, 512, 128]
  wf := gather_S64x512x128_S1024x1_S1024x512x128_12_0_n_n_0_1_1512128_wf
def dot_S1024x1x512_S1024x512x128_S1024x1x128_2_1_1_2_0_0 : DotDims S1024x1x512 S1024x512x128 S1024x1x128 where
  lhsContracting := [2]
  rhsContracting := [1]
  lhsNonContracting := [1]
  rhsNonContracting := [2]
  lhsBatch := [0]
  rhsBatch := [0]
  wf := dot_S1024x1x512_S1024x512x128_S1024x1x128_2_1_1_2_0_0_wf
def gather_S64x128x128_S1024x1_S1024x128x128_12_0_n_n_0_1_1128128 : GatherDims S64x128x128 S1024x1 S1024x128x128 where
  offsetDims := [1, 2]
  collapsedSliceDims := [0]
  operandBatchingDims := []
  startIndicesBatchingDims := []
  startIndexMap := [0]
  indexVectorDim := 1
  sliceSizes := ![1, 128, 128]
  wf := gather_S64x128x128_S1024x1_S1024x128x128_12_0_n_n_0_1_1128128_wf
def dot_S1024x1x128_S1024x128x128_S1024x1x128_2_1_1_2_0_0 : DotDims S1024x1x128 S1024x128x128 S1024x1x128 where
  lhsContracting := [2]
  rhsContracting := [1]
  lhsNonContracting := [1]
  rhsNonContracting := [2]
  lhsBatch := [0]
  rhsBatch := [0]
  wf := dot_S1024x1x128_S1024x128x128_S1024x1x128_2_1_1_2_0_0_wf
def gather_S64x128x1_S1024x1_S1024x128x1_12_0_n_n_0_1_11281 : GatherDims S64x128x1 S1024x1 S1024x128x1 where
  offsetDims := [1, 2]
  collapsedSliceDims := [0]
  operandBatchingDims := []
  startIndicesBatchingDims := []
  startIndexMap := [0]
  indexVectorDim := 1
  sliceSizes := ![1, 128, 1]
  wf := gather_S64x128x1_S1024x1_S1024x128x1_12_0_n_n_0_1_11281_wf
def dot_S1024x1x128_S1024x128x1_S1024x1x1_2_1_1_2_0_0 : DotDims S1024x1x128 S1024x128x1 S1024x1x1 where
  lhsContracting := [2]
  rhsContracting := [1]
  lhsNonContracting := [1]
  rhsNonContracting := [2]
  lhsBatch := [0]
  rhsBatch := [0]
  wf := dot_S1024x1x128_S1024x128x1_S1024x1x1_2_1_1_2_0_0_wf

class Facts : Prop extends Facts₀ where

variable [Facts]
-- ==== Proof.KICommon.lean ====
/-
  The kernel's program as the SparseCore launch theorem sees it, and what each vector subcore is handed.

  The device computes in two steps. A TensorCore region leaves in `main_v0` the matrix of scores
  `scores[b, o] = Σ_i state[b, i] · v[o, i]`; @main flattens it into `main_v2` (65536 words) and flattens the
  option column into `main_v1` (1024 words). Then thirty-two vector subcores, numbered `w = 2·s + c` (subcore
  `s` of SparseCore `c`), each copy words `[2048·w, 2048·w + 2048)` of the flat scores and words
  `[32·w, 32·w + 32)` of the options into their own memory, pick for each of their 32 rows `r` the word
  `64·r + option`, and copy the 32 picked words to `main_v3[32·w + r]`. So, with every option in `[0, 64)`,
  `main_v3[j] = main_v2[64·j + main_v1[j]]`: one function `sel` of the two flat arrays, of which each subcore
  writes the restriction to its own 32 words.
-/
import proofs.«205531_g87737591923446_cont_sun_m_531_28_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«205531_g87737591923446_cont_sun_m_531_28_alg».proof.Proof.Gen.KernelIdeal
import proofs.«205531_g87737591923446_cont_sun_m_531_28_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the region's staging cells' rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The three flat arrays and a subcore's slices of them -/

abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The flat scores, the flat options and the result as a vector subcore's kernel names them. -/
abbrev xV : Memref sig .scVector .hbm S65536 .f32 := Memref.whole main_v2_scv
abbrev iV : Memref sig .scVector .hbm S1024 .i32 := Memref.whole main_v1_scv
abbrev oV : Memref sig .scVector .hbm S1024 .f32 := Memref.whole main_v3_scv

/-- The slices the task at grid coordinates `L` (SparseCore `L 0`, subcore `L 1`) copies from and to, spelt as the
    kernel slices them. -/
abbrev xBlk (L : grid1.Coords) : Memref sig .scVector .hbm S2048 .f32 :=
  (xV).slice (Rect.unit (s := S65536) (k1_off1 L) S2048.size (k1_off1_inb L)) (fun _ => rfl)
abbrev iBlk (L : grid1.Coords) : Memref sig .scVector .hbm S32 .i32 :=
  (iV).slice (Rect.unit (s := S1024) (k1_off2 L) S32.size (k1_off2_inb L)) (fun _ => rfl)
abbrev oBlk (L : grid1.Coords) : Memref sig .scVector .hbm S32 .f32 :=
  (oV).slice (Rect.unit (s := S1024) (k1_off3 L) S32.size (k1_off3_inb L)) (fun _ => rfl)

/-- The sets of words of the three arrays those slices cover. -/
abbrev xSet (L : grid1.Coords) : Finset S65536.Idx := (xBlk L).view.set
abbrev iSet (L : grid1.Coords) : Finset S1024.Idx := (iBlk L).view.set
abbrev oSet (L : grid1.Coords) : Finset S1024.Idx := (oBlk L).view.set

/-- Word `64·j + (opt j mod 64)` of the flat scores: in range for every `j < 1024`. -/
def selIdx (opt : S1024.Idx → BitVec 32) (j : S1024.Idx) : S65536.Idx :=
  ValueIdx.ix1 ⟨64 * (j 0).val + (opt j).toNat % 64, by have := (j 0).isLt; show _ < 65536; have h : (j 0).val < 1024 := this; omega⟩

/-! ## What a vector subcore is handed and what it hands back -/

section Res

variable (X : (d : Dev nD) → Buf (Elt F) (v2Loc d)) (I : (d : Dev nD) → Buf (Elt F) (v1Loc d))

/-- The selected scores: word `j` of the result is word `64·j + option j` of the flat scores. -/
def sel (d : Dev nD) : Buf (Elt F) (v3Loc d) := fun j => X d (selIdx (I d) j)

/-- The task at `L` is handed its slice of the flat scores and of the flat options, at the contents `X`, `I` the
    TensorCore left, and its slice of the result at whatever it holds; -/
def goRes (d : Dev nD) (L : grid1.Coords) : sProp 𝕄 :=
  iprop((v2Loc d ↦[xSet L]{fullShare} X d) ∗ (v1Loc d ↦[iSet L]{fullShare} I d) ∗ ∃ f : Buf (Elt F) (v3Loc d), v3Loc d ↦[oSet L]{fullShare} f)
/-- and hands them back, its slice of the result holding the selected scores. -/
def tdRes (d : Dev nD) (L : grid1.Coords) : sProp 𝕄 :=
  iprop((v2Loc d ↦[xSet L]{fullShare} X d) ∗ (v1Loc d ↦[iSet L]{fullShare} I d) ∗ (v3Loc d ↦[oSet L]{fullShare} sel X I d))

/-- Grid coordinates from a SparseCore and a subcore of the call's grid. -/
def coordsOf (c : Fin ((K (F := F)).nCore 0)) (i : Fin ((K (F := F)).nSub 0)) : grid1.Coords :=
  fun | 0 => Fin.cast nCore_zero c | 1 => Fin.cast nSub_zero i | ⟨_ + 2, h⟩ => absurd h (Nat.not_lt.2 (Nat.le_add_left _ _))

/-- The one call's payloads: a SparseCore's share is its sixteen subcores' shares, so the split is the identity. -/
def P : (K (F := F)).Pay (nD := nD) (Val := Elt F) (Name := ℕ) (U := UU) where
  st := fun q d c => match q with | 0 => bigSep Finset.univ fun i : Fin ((K (F := F)).nSub 0) => goRes X I d (coordsOf c i)
  dn := fun q d c => match q with | 0 => bigSep Finset.univ fun i : Fin ((K (F := F)).nSub 0) => tdRes X I d (coordsOf c i)
  go := fun q d c i => match q with | 0 => goRes X I d (coordsOf c i)
  td := fun q d c i => match q with | 0 => tdRes X I d (coordsOf c i)
  x := fun _ _ => iprop(emp)

instance goRes_storable (d : Dev nD) (L : grid1.Coords) : BI.Storable (upEmb : UEmb _ 𝕄) (goRes X I d L) := by unfold goRes; infer_instance
instance tdRes_storable (d : Dev nD) (L : grid1.Coords) : BI.Storable (upEmb : UEmb _ 𝕄) (tdRes X I d L) := by unfold tdRes; infer_instance

instance P_storable : (P (F := F) X I).IsStorable where
  st q d c := match q with | 0 => (inferInstance : BI.Storable (upEmb : UEmb _ 𝕄) (bigSep Finset.univ fun i : Fin ((K (F := F)).nSub 0) => goRes X I d (coordsOf c i)))
  dn q d c := match q with | 0 => (inferInstance : BI.Storable (upEmb : UEmb _ 𝕄) (bigSep Finset.univ fun i : Fin ((K (F := F)).nSub 0) => tdRes X I d (coordsOf c i)))
  go q d c i := match q with | 0 => (inferInstance : BI.Storable (upEmb : UEmb _ 𝕄) (goRes X I d (coordsOf c i)))
  td q d c i := match q with | 0 => (inferInstance : BI.Storable (upEmb : UEmb _ 𝕄) (tdRes X I d (coordsOf c i)))

end Res

end Cert.KernelIdeal.Hand

end
-- ==== Proof.KIRegion.lean ====
/-
  The TensorCore region of the kernel: a grid of three points over one scratch matrix.

  Points 0 and 1 each read one half (32 options) of the three weight arrays and store into rows `[32·t, 32·t + 32)`
  of the scratch the rows `v[o, ·] = Σ_{h1} (Σ_{h2} l3[o, h2] · l2[o, h1, h2]) · l1[o, ·, h1]` of those options;
  point 2 reads the whole state and the whole scratch and stores `state · vᵀ` into the output block, which is the
  whole output array and is written back after that point only. So the scratch after `n` points agrees with one
  fixed matrix `Vmat` on its first `32·min n 2` rows, and the array the region leaves is the second product at `Vmat`.
-/
import proofs.«205531_g87737591923446_cont_sun_m_531_28_alg».proof.Proof.KICommon
import proofs.«205531_g87737591923446_cont_sun_m_531_28_alg».proof.Proof.Gen.KernelIdeal.Launch
import proofs.«205531_g87737591923446_cont_sun_m_531_28_alg».proof.Proof.Gen.KernelIdeal.Points
import Idealize.ShloMosaic.Lib.Pipeline.FrameBody
import Idealize.ShloMosaic.Lib.Pipeline.Regions
import Idealize.ShloMosaic.Lib.Pipeline.RegionsLoop

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The TensorCore's buffers when the region is entered: as launched (the region is @main's first line). -/
abbrev V0 (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- The grid point that fills scratch row `r`: point `r / 32`. -/
def ptOf (r : Fin 64) : Fin cfg0.N := ⟨r.val / 32, by have := r.isLt; rw [show cfg0.N = 3 from N_0]; omega⟩

/-- The matrix the scratch holds once points 0 and 1 have run. -/
def Vmat (c : Dev nD) : Vec F S64x512 .f32 := fun y =>
  k0_pay1 (iblk m c 0 (ptOf (y 0))) (iblk m c 1 (ptOf (y 0))) (iblk m c 2 (ptOf (y 0)))
    (ValueIdx.ix2 (⟨(y 0).val % 32, Nat.mod_lt _ (by decide)⟩ : Fin 32) (y 1))

/-- What the region leaves in the output block (the whole of `main_v0`). -/
def scoresOut (c : Dev nD) : Vec F S1024x64 .f32 := k0_pay2 (iblk m c 3 t0_2) (Vmat m c)

/-! ## The proof data -/

/-- The scratch matrix as a location of core `c`. -/
abbrev scrLoc (c : Dev nD) : Loc nD τ sig := (c : Thread nD τ).loc cc0_scratch0

/-- After `n` points the scratch's first `32·min n 2` rows are `Vmat`'s. -/
def ScrInv (c : Dev nD) (n : ℕ) (f : Buf (Elt F) (scrLoc c)) : Prop :=
  ∀ (r : Fin 64) (k : Fin 512), r.val < 32 * min n 2 → f (ValueIdx.ix2 r k) = Vmat m c (ValueIdx.ix2 r k)

/-- The region's invariant between points: the scratch whole, at contents that agree with `Vmat` so far. -/
def ΦS (c : Dev nD) (n : Fin (cfg0.N + 1)) : sProp 𝕄 :=
  iprop(∃ f : Buf (Elt F) (scrLoc c), ⌜ScrInv m c n.val f⌝ ∗ scrLoc c ↦{fullShare} f)

/-- The proof data of the one pipeline on core `c`, the core owing `O` throughout: the arrays as launched; each input's
    buffer at its block; the output's at the scores; the scratch tracked by `ΦS`. -/
def dats (O : Dev nD → CellTallies nD τ sig (HIx 1)) (_ : Fin 1) (c : Dev nD) : Dat τ (Elt F) (HIx 1) ℕ UU ℕ cfg0 c where
  A w := V0 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scoresOut m c
  Φ n := ΦS m c n
  q _ := fullShare
  owed _ := O c
  recorded _ := {p | p.2 = none}

variable (O : Dev nD → CellTallies nD τ sig (HIx 1))

theorem A_eq (c : Dev nD) (w : Fin cfg0.W) : (dats m O 0 c).A w = V0 m c (Pipeline.arrRef spec0 w) := by dsimp only [dats]
theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = scoresOut m c := by dsimp only [dats]

/-- Each input's current staging buffer holds its block at every point, fetched there or not. -/
theorem before0_0 (c : Dev nD) (t : Fin cfg0.N) (d) : (dats m O 0 c).before 0 t d = iblk m c 0 t :=
  ((dats m O 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)

theorem before0_1 (c : Dev nD) (t : Fin cfg0.N) (d) : (dats m O 0 c).before 1 t d = iblk m c 1 t :=
  ((dats m O 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin cfg0.N) (d) : (dats m O 0 c).before 2 t d = iblk m c 2 t :=
  ((dats m O 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin cfg0.N) (d) : (dats m O 0 c).before 3 t d = iblk m c 3 t :=
  ((dats m O 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)

/-! ## The region as a segment of @main -/

abbrev pcs0 : Fin 1 → Pipeline.PCfg sig Λ₀ (Elt F) := fun p => (cfgs p).toPCfg
abbrev adm0 : (p : Fin 1) → (pcs0 (F := F) p).Adm := fun p => (cfgs p).toPCfg_adm

/-- What the core owes through the region, with its recorded waits all at the kernels' own index. -/
def owesN (c : Dev nD) : sProp 𝕄 := iprop(∃ W : Waits sig (HIx 1), ⌜∀ p ∈ W, p.2 = none⌝ ∗ owes (c : Thread nD τ) (O c) W)

/-- The array the region leaves in `main_v0`. -/
def scoresArr (c : Dev nD) : Buf (Elt F) ((c : Thread nD τ).loc main_v0) := (dats m O 0 c).arrAt 4 cfg0.N

end Cert.KernelIdeal.Hand

end
-- ==== Proof.KIRegionSeg.lean ====
/-
  The TensorCore region as a segment of @main: what it is entered from and what it leaves.

  The region is entered from the TensorCore's unscoped buffers as launched and the debts the launch protocol has the
  core owe; the pipeline's own waits sit at the kernels' own index, below all of those debts. It leaves `main_v0` at
  the array the proof data computes from the three grid points, every other unscoped buffer as it was, and the same debts.
-/
import proofs.«205531_g87737591923446_cont_sun_m_531_28_alg».proof.Proof.KIRegion

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (O : Dev nD → CellTallies nD τ sig (HIx 1))

/-- The pipeline's own waits, at the kernels' index, sit below everything the core owes the launch protocol. -/
theorem hwaits0 (hO : ∀ c g, O c g none = 0) (c : Dev nD) :
    (levAts (K (F := F)).L (K (F := F)).lev : sProp 𝕄) ⊢ Pipeline.cellsWaits (Pipeline.pin (pcs0 (F := F)) adm0) (dats m O) (none : HIx 1) 0 c :=
  Pipeline.cellsWaits_of_cut (Pipeline.pin (pcs0 (F := F)) adm0) (dats m O) (none : HIx 1) 0 c (0 : ℕ) (O c) (fun _ => rfl)
    (fun _ _ => Finset.mem_univ _) (fun _ _ => le_rfl)
    (fun g i h => ⟨Finset.mem_univ _, by
      cases i with
      | none => rw [hO c g] at h; exact absurd h (Nat.lt_irrefl 0)
      | some q => exact (K (F := F)).lev_some_pos g q⟩)

variable (Vp : (c : Dev nD) → (b : Ref sig .tc) → Buf (Elt F) ((c : Thread nD τ).loc b))

set_option backward.isDefEq.respectTransparency.types false in
/-- The region's record: entered from the unscoped buffers as launched and the core's debts; left with `main_v0` at the
    array the proof data computes, every other unscoped buffer untouched (`Vp`), the same debts. -/
def reg (hbody : ∀ c, Pipeline.BodyObligation (dats m O 0 c) (defs₀ (F := F)) 𝒱₀ (none : HIx 1) Set.univ) (hO : ∀ c g, O c g none = 0) (hVp_out : ∀ c, Vp c main_v0 = scoresArr m O c)
    (hVp_ne : ∀ c (b : Ref sig .tc), b ≠ main_v0 → Vp c b = V0 m c b) :
    Pipeline.RegionSeg (pcs0 (F := F)) adm0 (dats m O) (none : HIx 1) (defs₀ (F := F)) 𝒱₀ (K (F := F)).L (K (F := F)).lev (0 : Fin 1) where
  win := launch0.win.to₀
  block_pos := launch0.block_pos
  stage_whole := launch0.stage_whole
  K := PEmpty
  osem := fun k => k.elim
  ho := Pipeline.OwnSemFacts.none _
  hbody := fun c => (hbody c).loose
  hwaits := hwaits0 m O hO
  pre := fun c => iprop(unscopedBufs c (V0 m c) ∗ owesN O c)
  post := fun c => iprop(unscopedBufs c (Vp c) ∗ owesN O c)
  X := fun _ => BI.emp
  Y := fun _ => BI.emp
  Z := fun c => Pipeline.unscopedRest (Ix := HIx 1) (Name := ℕ) (U := UU) (Lvl := ℕ) spec0 c (V0 m c)
  hentry := fun c => by
    rw [Pipeline.ownSems0_none]
    have hsplit := Pipeline.arrays_of_unscopedBufs (p := 0) (pcs0 (F := F)) adm0 (dats m O) launch0.win launch0.arr_whole c
      ((dats m O 0 c).share_full fun _ => rfl) (V0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesN
      icases HO with ⟨%W, %hW, HO⟩; iexists W; isplitr; · ipureintro; exact fun p hp => Or.inl (hW p (Finset.mem_coe.mp hp))
      iexact HO
    isplitr; · iempintro
    iexact Hrest
  hin := fun c => by
    rw [show (dats m O 0 c).Φ 0 = ΦS m c 0 from rfl, scopedRest0_eq]
    unfold ΦS
    iintro ⟨-, -, ⟨%f, Hf⟩⟩
    iexists f; isplitr
    · ipureintro; intro r k h; exact absurd h (by simp)
    · iexact Hf
  hout := fun c => by
    rw [Pipeline.ownSems0_none, show (dats m O 0 c).Φ (Fin.last _) = ΦS m c (Fin.last _) from rfl, scopedRest0_eq]
    unfold ΦS
    iintro ⟨%f, -, Hf⟩
    isplitr; · iempintro
    isplitr; · iempintro
    iexists f; iexact Hf
  hexit := fun c => by
    have hjoin := Pipeline.unscopedBufs_of_arrays (p := 0) (pcs0 (F := F)) adm0 (Ix := HIx 1) (Name := ℕ) (U := UU) (Lvl := ℕ) launch0.win launch0.arr_whole c
      (dats m O) ((dats m O 0 c).share_full fun _ => rfl) (V0 m c) (Vp c) ((dats m O 0 c).arrAt · cfg0.N)
      (fun w => by
        fin_cases w
        · exact ((dats m O 0 c).arrAt_in 0 rfl _).trans (hVp_ne c main_arg3 (by decide)).symm
        · exact ((dats m O 0 c).arrAt_in 1 rfl _).trans (hVp_ne c main_arg4 (by decide)).symm
        · exact ((dats m O 0 c).arrAt_in 2 rfl _).trans (hVp_ne c main_arg5 (by decide)).symm
        · exact ((dats m O 0 c).arrAt_in 3 rfl _).trans (hVp_ne c main_arg0 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin owesN
    icases HO with ⟨%W, %hW, HO⟩; iexists W; isplitr
    · ipureintro; intro p hp
      rcases hW (Finset.mem_coe.mpr hp) with h | ⟨w, s, rfl⟩
      · exact h
      · rfl
    iexact HO

end Cert.KernelIdeal.Hand

end
-- ==== Proof.KIBody.lean ====
import proofs.«205531_g87737591923446_cont_sun_m_531_28_alg».proof.Proof.KICommon
import proofs.«205531_g87737591923446_cont_sun_m_531_28_alg».proof.Proof.Gen.KernelIdeal
import proofs.«205531_g87737591923446_cont_sun_m_531_28_alg».proof.Proof.Gen.KernelIdeal.Skeleton
import Idealize.ShloMosaic.Lib.Exec
import Idealize.ShloMosaic.Lib.Pipeline.Value

/-!
# The dense body in its two control cases

The body at grid point `i ∈ {0, 1, 2}` does one of two things.

* At `i < 2` (first phase) it reads three blocks whole — a 32 × 512 × 128 block, a 32 × 128 × 128 block and a
  32 × 128 × 1 block of the three layers — and overwrites rows `[32·i, 32·i + 32)` of the 64 × 512 scratch with
  the first payload computed from them.  The second branch is not taken.
* At `i = 2` (second phase) the first branch is not taken; it reads the 1024 × 512 state block and the whole
  scratch, and overwrites the whole 1024 × 64 output block with the second payload computed from those two.

Each case is stated as a weakest-precondition triple over ARBITRARY whole staging buffers, for any interpretation
of the real-valued operations: the buffers are held at given contents, and the continuation receives them back,
the untouched ones unchanged and the written one at an explicit function of the inputs.

For the first phase that function is `scrA`: the old scratch with one band of 32 rows replaced.  A single store
through a rectangle, read back through any view of the buffer, is the payload inside the rectangle and the old
contents outside; the rectangle here is `32` full rows starting at row `32·i`, so membership is the condition
`32·i ≤ row < 32·i + 32` and the position inside the band is `row − 32·i`.

For the second phase the one store covers the whole block, so what is read back is the payload itself,
whatever the block held before.
-/
set_option maxRecDepth 16384

noncomputable section

namespace Cert.KernelIdeal.Hand

open Cert.KernelIdeal Cert.KernelIdeal.Gen

open Idealize.ShloMosaic
open Idealize.ShloMosaic.Tactic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.ValueIdx

/-- What the scratch holds after the first-phase body at grid point `i`: rows `[32·i, 32·i + 32)` are the
first payload, every other row is as before. -/
def scrA (i : grid0.Coords) (x1 : Vec F S32x512x128 .f32) (x2 : Vec F S32x128x128 .f32) (x3 : Vec F S32x128x1 .f32)
    (s : Vec F S64x512 .f32) : Vec F S64x512 .f32 := fun y =>
  if h : 32 * (i 0).val ≤ (y 0).val ∧ (y 0).val < 32 * (i 0).val + 32 then
    k0_pay1 x1 x2 x3 (ix2 (⟨(y 0).val - 32 * (i 0).val, by omega⟩ : Fin 32) (⟨(y 1).val, idx2_lt1 y⟩ : Fin 512))
  else s y

/-- The same at explicit coordinates. -/
theorem scrA_apply (i : grid0.Coords) (hc1 : k0_cond1 i = 1#1) (x1 : Vec F S32x512x128 .f32) (x2 : Vec F S32x128x128 .f32)
    (x3 : Vec F S32x128x1 .f32) (s : Vec F S64x512 .f32) (r : Fin 64) (k : Fin 512) :
    scrA i x1 x2 x3 s (ValueIdx.ix2 r k)
      = if h : 32 * (i 0).val ≤ r.val ∧ r.val < 32 * (i 0).val + 32 then
          k0_pay1 x1 x2 x3 (ValueIdx.ix2 ⟨r.val - 32 * (i 0).val, by omega⟩ k)
        else s (ValueIdx.ix2 r k) := rfl

/-- The row offset of the rows written at grid point `i` is `32·i`, -/
theorem off1_0 (i : grid0.Coords) : k0_off1 i 0 = 32 * (i 0).val := by rw [k0_off1_eq]; rfl
/-- and the column offset is 0. -/
theorem off1_1 (i : grid0.Coords) : k0_off1 i 1 = 0 := by rw [k0_off1_eq]; rfl

/-- One store of the first payload over 32 full rows, read back through any view of the scratch: inside the
rows it is the payload (at the row's position within the block), outside it is what was there. -/
theorem read_rows {κ : Kind} {sp : Space} (v : View sig κ sp S64x512 .f32) (f : v.ty.Contents (Elt F)) (i : grid0.Coords)
    (inb : ∀ a, (k0_off1 i) a + S32x512.size a ≤ S64x512.size a)
    (x1 : Vec F S32x512x128 .f32) (x2 : Vec F S32x128x128 .f32) (x3 : Vec F S32x128x1 .f32) :
    v.read (Elt F) (v.writes (Elt F) f [⟨Rect.unit (s := S64x512) (k0_off1 i) S32x512.size inb, k0_pay1 x1 x2 x3⟩])
      = scrA i x1 x2 x3 (v.read (Elt F) f) := by
  funext y
  by_cases hy : y ∈ (Rect.unit (s := S64x512) (k0_off1 i) S32x512.size inb).set
  · obtain ⟨x, rfl⟩ : ∃ x, (Rect.unit (s := S64x512) (k0_off1 i) S32x512.size inb).emb x = y :=
      (Rect.unit (s := S64x512) (k0_off1 i) S32x512.size inb).exists_idx_of_mem hy
    rw [View.read_writes_cons_emb]
    have e0 : ((Rect.unit (s := S64x512) (k0_off1 i) S32x512.size inb).emb x 0).val = 32 * (i 0).val + (x 0).val := by
      rw [Rect.emb_apply]; simp only [Rect.off_unit, Rect.stride_unit, off1_0]; omega
    have e1 : ((Rect.unit (s := S64x512) (k0_off1 i) S32x512.size inb).emb x 1).val = (x 1).val := by
      rw [Rect.emb_apply]; simp only [Rect.off_unit, Rect.stride_unit, off1_1]; omega
    have hx0 : (x 0).val < 32 := (x 0).isLt
    have hx1 : (x 1).val < 512 := (x 1).isLt
    unfold scrA
    rw [dif_pos ⟨by omega, by omega⟩]
    refine congrArg (k0_pay1 x1 x2 x3) (funext fun a => ?_)
    match a with
    | ⟨0, _⟩ => exact Fin.ext (by
        show (x 0).val = ((Rect.unit (s := S64x512) (k0_off1 i) S32x512.size inb).emb x 0).val - 32 * (i 0).val
        omega)
    | ⟨1, _⟩ => exact Fin.ext (by
        show (x 1).val = ((Rect.unit (s := S64x512) (k0_off1 i) S32x512.size inb).emb x 1).val
        omega)
  · rw [View.read_writes_apply_of_forall_not_mem v f y _ (by intro p hp; rw [List.mem_singleton] at hp; subst hp; exact hy)]
    unfold scrA
    rw [dif_neg]
    rintro ⟨hlo, hhi⟩
    apply hy
    rw [Rect.mem_set_unit]
    intro a
    have h1 := idx2_lt1 y
    have o0 := off1_0 i
    have o1 := off1_1 i
    match a with
    | ⟨0, _⟩ => exact ⟨by show k0_off1 i 0 ≤ (y 0).val; omega, by show (y 0).val < k0_off1 i 0 + 32; omega⟩
    | ⟨1, _⟩ => exact ⟨by show k0_off1 i 1 ≤ (y 1).val; omega, by show (y 1).val < k0_off1 i 1 + 512; omega⟩

/-- The all-zero offsets, as the printed loads and stores spell them. -/
theorem zeros3 : (![0, 0, 0] : Fin 3 → ℕ) = fun _ => 0 := by funext a; fin_cases a <;> rfl
theorem zeros2 : (![0, 0] : Fin 2 → ℕ) = fun _ => 0 := by funext a; fin_cases a <;> rfl

/-- One store through the whole-shape rectangle, read back through any view, is its payload. -/
theorem read_whole_store {κ : Kind} {sp : Space} {S : Shape} {e : EltTy} {Val : EltTy → Type} (v : View sig κ sp S e)
    (f : v.ty.Contents Val) {off : Fin S.rank → Nat} (h : off = fun _ => 0) (inb : ∀ a, off a + S.size a ≤ S.size a)
    (w : S.Idx → Val e) : v.read Val (v.writes Val f [⟨Rect.unit off S.size inb, w⟩]) = w := by
  subst h
  funext y
  have e := View.read_writes_cons_emb v f (Rect.whole S) w [] y
  rw [Rect.emb_whole_apply] at e
  exact e

set_option maxHeartbeats 1000000 in
/-- THE FIRST-PHASE BODY (grid points 0 and 1): on whole staging buffers holding the three layer blocks and the
scratch, the body runs to its continuation with the three blocks unchanged and the scratch's 32 rows of this
grid point replaced by the first payload. -/
theorem bodyA (c : Dev nD) (i : grid0.Coords) (arg1 : Memref sig .tc .vmem S32x512x128 .f32) (harg1 : arg1.IsWhole) (arg2 : Memref sig .tc .vmem S32x128x128 .f32) (harg2 : arg2.IsWhole) (arg3 : Memref sig .tc .vmem S32x128x1 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S64x512 .f32) (harg6 : arg6.IsWhole)
    (hc1 : k0_cond1 i = 1#1) (hc2 : ¬ k0_cond2 i = 1#1)
    (x1 : Vec F S32x512x128 .f32) (x2 : Vec F S32x128x128 .f32) (x3 : Vec F S32x128x1 .f32) (s : Vec F S64x512 .f32)
    (E : Set ℕ) (Kt : PUnit → sProp 𝕄) :
    iprop(owns (c : Thread nD τ) arg1 fullShare x1 ∗ owns (c : Thread nD τ) arg2 fullShare x2 ∗ owns (c : Thread nD τ) arg3 fullShare x3 ∗ owns (c : Thread nD τ) arg6 fullShare s
        ∗ (iprop(owns (c : Thread nD τ) arg1 fullShare x1 ∗ owns (c : Thread nD τ) arg2 fullShare x2 ∗ owns (c : Thread nD τ) arg3 fullShare x3 ∗ owns (c : Thread nD τ) arg6 fullShare (scrA i x1 x2 x3 s)) -∗ Kt ⟨⟩))
      ⊢ wp frame (wpE (defs₀ (F := F)) 𝒱₀ c none) E (cc0__scores_body i arg1 harg1 arg2 harg2 arg3 harg3 arg4 harg4 arg5 harg5 arg6 harg6) Kt := by
  simp only [cc0__scores_body_eq_skeleton]; unfold cc0__scores_body_skel
  unfold owns
  iintro ⟨⟨%f1, %hf1, H1⟩, ⟨%f2, %hf2, H2⟩, ⟨%f3, %hf3, H3⟩, ⟨%f6, %hf6, H6⟩, Hk⟩
  obtain rfl := harg1.eq_unread hf1; obtain rfl := harg2.eq_unread hf2; obtain rfl := harg3.eq_unread hf3; obtain rfl := harg6.eq_unread hf6
  sl_exec (disch := first | exact hc1 | exact hc2)
  sl_step
  simp only [View.readAt_eq_ld, harg1.read_unread, harg2.read_unread, harg3.read_unread,
    View.ld_unit_zero (S := S32x512x128) zeros3, View.ld_unit_zero (S := S32x128x128) zeros3, View.ld_unit_zero (S := S32x128x1) zeros3]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  · ipureintro
    exact (read_rows arg6.view (harg6.unread s) i (k0_off1_inb i hc1) x1 x2 x3).trans (congrArg (scrA i x1 x2 x3) (harg6.read_unread s))
  iexact H6

set_option maxHeartbeats 1000000 in
/-- THE SECOND-PHASE BODY (grid point 2): on whole staging buffers holding the state block, the scratch and the
output block (at whatever it holds), the body runs to its continuation with the state and the scratch unchanged and
the output block holding the second payload. -/
theorem bodyB (c : Dev nD) (i : grid0.Coords) (arg1 : Memref sig .tc .vmem S32x512x128 .f32) (harg1 : arg1.IsWhole) (arg2 : Memref sig .tc .vmem S32x128x128 .f32) (harg2 : arg2.IsWhole) (arg3 : Memref sig .tc .vmem S32x128x1 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S64x512 .f32) (harg6 : arg6.IsWhole)
    (hc1 : ¬ k0_cond1 i = 1#1) (hc2 : k0_cond2 i = 1#1)
    (x4 : Vec F S1024x512 .f32) (s : Vec F S64x512 .f32)
    (E : Set ℕ) (Kt : PUnit → sProp 𝕄) :
    iprop(owns (c : Thread nD τ) arg4 fullShare x4 ∗ owns (c : Thread nD τ) arg6 fullShare s ∗ (∃ o, owns (c : Thread nD τ) arg5 fullShare o)
        ∗ (iprop(owns (c : Thread nD τ) arg4 fullShare x4 ∗ owns (c : Thread nD τ) arg6 fullShare s ∗ owns (c : Thread nD τ) arg5 fullShare (k0_pay2 x4 s)) -∗ Kt ⟨⟩))
      ⊢ wp frame (wpE (defs₀ (F := F)) 𝒱₀ c none) E (cc0__scores_body i arg1 harg1 arg2 harg2 arg3 harg3 arg4 harg4 arg5 harg5 arg6 harg6) Kt := by
  simp only [cc0__scores_body_eq_skeleton]; unfold cc0__scores_body_skel
  unfold owns
  iintro ⟨⟨%f4, %hf4, H4⟩, ⟨%f6, %hf6, H6⟩, ⟨%o, %f5, %hf5, H5⟩, Hk⟩
  obtain rfl := harg4.eq_unread hf4; obtain rfl := harg6.eq_unread hf6; obtain rfl := harg5.eq_unread hf5
  sl_exec (disch := first | exact hc1 | exact hc2)
  sl_step
  simp only [View.readAt_eq_ld, harg4.read_unread, harg6.read_unread,
    View.ld_unit_zero (S := S1024x512) zeros2, View.ld_unit_zero (S := S64x512) zeros2]
  iapply Hk
  isplitl [H4]
  · iexists _; isplitr; · ipureintro; exact harg4.read_unread _
    iexact H4
  isplitl [H6]
  · iexists _; isplitr; · ipureintro; exact harg6.read_unread _
    iexact H6
  iexists _; isplitr
  · ipureintro
    exact read_whole_store arg5.view (harg5.unread o) zeros2 inb_S1024x64_S1024x64_0_0 (k0_pay2 x4 s)
  iexact H5

end Cert.KernelIdeal.Hand

end
-- ==== Proof.KIRegionBody.lean ====
import proofs.«205531_g87737591923446_cont_sun_m_531_28_alg».proof.Proof.KIRegion
import proofs.«205531_g87737591923446_cont_sun_m_531_28_alg».proof.Proof.KIBody

/-!
# The dense region's body, point by point

The region runs its body at three grid points over one 64 × 512 scratch matrix.  Between points the scratch is
held whole at contents that agree with a fixed target matrix on the first `32 · min n 2` rows after `n` points.

* At points 0 and 1 the body reads the point's blocks of the three layers and overwrites rows
  `[32·t, 32·t + 32)` of the scratch with the first payload of those blocks.  By definition the target matrix's
  row `r` is the first payload of the blocks at point `r / 32`, at row `r mod 32`; for `r` in the band,
  `r / 32 = t` and `r mod 32 = r − 32·t`, so the band now agrees with the target, and the rows below it still do.
  The state block is not touched, and the output block — idle at these points and not written back — is handed
  back exactly as it was handed in.
* At point 2 the scratch agrees with the target matrix on all 64 rows, so it IS the target matrix; the body
  overwrites the whole output block with the second payload of the state block and the scratch, which is by
  definition the array the region leaves.  The layer blocks are not touched; the scratch is unchanged
  (`min 3 2 = min 2 2`).

What the core owes is the same before and after every point.
-/
set_option maxRecDepth 16384

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig (HIx 1) (Elt F) ℕ UU ℕ

variable (m : (ℓ : Loc nD τ sig) → Buf (Elt F) ℓ) (O : Dev nD → CellTallies nD τ sig (HIx 1))

/-- The five staging buffers the body is called on at point `t`, and that each is a whole buffer. -/
abbrev mS0 (t : Fin cfg0.N) : Memref sig .tc .vmem S32x512x128 .f32 := win0_0.stage (cfg0.slots t 0)
abbrev hS0 (t : Fin cfg0.N) : (mS0 t).IsWhole := hstage0_0 ((cfg0.slots t 0).cast nbuf0_0)
abbrev mS1 (t : Fin cfg0.N) : Memref sig .tc .vmem S32x128x128 .f32 := win0_1.stage (cfg0.slots t 1)
abbrev hS1 (t : Fin cfg0.N) : (mS1 t).IsWhole := hstage0_1 ((cfg0.slots t 1).cast nbuf0_1)
abbrev mS2 (t : Fin cfg0.N) : Memref sig .tc .vmem S32x128x1 .f32 := win0_2.stage (cfg0.slots t 2)
abbrev hS2 (t : Fin cfg0.N) : (mS2 t).IsWhole := hstage0_2 ((cfg0.slots t 2).cast nbuf0_2)
abbrev mS3 (t : Fin cfg0.N) : Memref sig .tc .vmem S1024x512 .f32 := win0_3.stage (cfg0.slots t 3)
abbrev hS3 (t : Fin cfg0.N) : (mS3 t).IsWhole := hstage0_3 ((cfg0.slots t 3).cast nbuf0_3)
abbrev mS4 (t : Fin cfg0.N) : Memref sig .tc .vmem S1024x64 .f32 := win0_4.stage (cfg0.slots t 4)
abbrev hS4 (t : Fin cfg0.N) : (mS4 t).IsWhole := hstage0_4 ((cfg0.slots t 4).cast nbuf0_4)

/-- What the body is handed at point `t`: the invariant, what the core owes, and each window's current buffer. -/
def bodyPre (c : Dev nD) (t : Fin cfg0.N) : sProp 𝕄 :=
  iprop((dats m O 0 c).Φ t.castSucc ∗ (dats m O 0 c).owesAt (none : HIx 1) t.castSucc
    ∗ (∃ d, owns (c : Thread nD τ) (mS0 t) fullShare ((dats m O 0 c).before 0 t d))
    ∗ (∃ d, owns (c : Thread nD τ) (mS1 t) fullShare ((dats m O 0 c).before 1 t d))
    ∗ (∃ d, owns (c : Thread nD τ) (mS2 t) fullShare ((dats m O 0 c).before 2 t d))
    ∗ (∃ d, owns (c : Thread nD τ) (mS3 t) fullShare ((dats m O 0 c).before 3 t d))
    ∗ (∃ d, owns (c : Thread nD τ) (mS4 t) fullShare ((dats m O 0 c).before 4 t d)))

/-- What it hands back: the four inputs at their blocks; the output at the scores where the body wrote it, and as it
was handed where the output window is idle and not written back. -/
def bodyPost (c : Dev nD) (t : Fin cfg0.N) : sProp 𝕄 :=
  iprop((dats m O 0 c).Φ t.succ ∗ (dats m O 0 c).owesAt (none : HIx 1) t.succ
    ∗ owns (c : Thread nD τ) (mS0 t) fullShare ((dats m O 0 c).after 0 t)
    ∗ owns (c : Thread nD τ) (mS1 t) fullShare ((dats m O 0 c).after 1 t)
    ∗ owns (c : Thread nD τ) (mS2 t) fullShare ((dats m O 0 c).after 2 t)
    ∗ owns (c : Thread nD τ) (mS3 t) fullShare ((dats m O 0 c).after 3 t)
    ∗ (dats m O 0 c).leavesExact 4 t)

/-! ## The grid's three points, decided -/

/-- The first branch is taken exactly at points 0 and 1, -/
theorem hcond1 : ∀ t : Fin cfg0.N, k0_cond1 (grid0.coords t) = 1#1 ↔ t.val < 2 :=
  (by decide +kernel : ∀ t : Fin grid0.N, k0_cond1 (grid0.coords t) = 1#1 ↔ t.val < 2)
/-- the second exactly at point 2, -/
theorem hcond2 : ∀ t : Fin cfg0.N, k0_cond2 (grid0.coords t) = 1#1 ↔ t.val = 2 :=
  (by decide +kernel : ∀ t : Fin grid0.N, k0_cond2 (grid0.coords t) = 1#1 ↔ t.val = 2)
/-- the output window is idle exactly at points 0 and 1, -/
theorem idle4 : ∀ t : Fin cfg0.N, cfg0.idle 4 (cfg0.grid.coords t) = true ↔ t.val < 2 :=
  (by decide +kernel : ∀ t : Fin grid0.N, idle0 4 (grid0.coords t) = true ↔ t.val < 2)
/-- and a point's one coordinate is its number. -/
theorem coords_val : ∀ t : Fin cfg0.N, ((grid0.coords t) 0).val = t.val :=
  (by decide +kernel : ∀ t : Fin grid0.N, ((grid0.coords t) 0).val = t.val)

/-! ## The scratch invariant along the points -/

/-- Inside the band of rows that point `t` fills, the target matrix is the first payload of the blocks at `t`, at the
row's position within the band. -/
theorem Vmat_band (c : Dev nD) (t : Fin cfg0.N) (r : Fin 64) (k : Fin 512)
    (h : 32 * t.val ≤ r.val ∧ r.val < 32 * t.val + 32) :
    Vmat m c (ix2 r k)
      = k0_pay1 (iblk m c 0 t) (iblk m c 1 t) (iblk m c 2 t) (ix2 (⟨r.val - 32 * t.val, by omega⟩ : Fin 32) k) := by
  have hp : ptOf r = t := Fin.ext (by show r.val / 32 = t.val; omega)
  subst hp
  show k0_pay1 (iblk m c 0 (ptOf r)) (iblk m c 1 (ptOf r)) (iblk m c 2 (ptOf r)) (ix2 (⟨r.val % 32, _⟩ : Fin 32) k) = _
  refine congrArg (k0_pay1 (iblk m c 0 (ptOf r)) (iblk m c 1 (ptOf r)) (iblk m c 2 (ptOf r))) ?_
  refine congrArg (fun a : Fin 32 => ix2 a k) (Fin.ext ?_)
  show r.val % 32 = r.val - 32 * (r.val / 32)
  omega

/-- One first-phase point extends the invariant by its band of rows. -/
theorem scrInv_step (c : Dev nD) (t : Fin cfg0.N) (ht : t.val < 2) (f : Buf (Elt F) (scrLoc c)) (hf : ScrInv m c t.val f) :
    ScrInv m c (t.val + 1) (scrA (grid0.coords t) (iblk m c 0 t) (iblk m c 1 t) (iblk m c 2 t) f) := by
  intro r k hr
  have hc := coords_val t
  have hr' : r.val < 32 * (t.val + 1) := by rw [Nat.min_eq_left (by omega)] at hr; exact hr
  rw [scrA_apply (grid0.coords t) ((hcond1 t).mpr ht)]
  by_cases hb : 32 * ((grid0.coords t) 0).val ≤ r.val ∧ r.val < 32 * ((grid0.coords t) 0).val + 32
  · rw [dif_pos hb, Vmat_band m c t r k (by omega)]
    refine congrArg (k0_pay1 (iblk m c 0 t) (iblk m c 1 t) (iblk m c 2 t)) ?_
    refine congrArg (fun a : Fin 32 => ix2 a k) (Fin.ext ?_)
    show r.val - 32 * ((grid0.coords t) 0).val = r.val - 32 * t.val
    rw [hc]
  · rw [dif_neg hb]
    exact hf r k (by rw [Nat.min_eq_left (by omega)]; omega)

/-- After both first-phase points the scratch IS the target matrix. -/
theorem scrInv_full (c : Dev nD) (f : Buf (Elt F) (scrLoc c)) (hf : ScrInv m c 2 f) : f = Vmat m c := by
  funext y
  obtain ⟨r, k, rfl⟩ : ∃ (r : Fin 64) (k : Fin 512), y = ix2 r k := ⟨y 0, y 1, eq_ix2 y⟩
  exact hf r k (by have := r.isLt; rw [Nat.min_self]; omega)

/-! ## The body at a point -/

/-- The scratch held whole as a buffer is the scratch held as a whole memref, in both directions. -/
theorem scr_to_owns (c : Dev nD) (f : Buf (Elt F) (scrLoc c)) :
    (scrLoc c ↦{fullShare} f : sProp 𝕄) ⊢ owns (c : Thread nD τ) (Memref.whole cc0_scratch0) fullShare f := by
  rw [owns_whole]
theorem owns_to_scr (c : Dev nD) (f : Buf (Elt F) (scrLoc c)) :
    owns (c : Thread nD τ) (Memref.whole cc0_scratch0) fullShare f ⊢ (scrLoc c ↦{fullShare} f : sProp 𝕄) := by
  rw [owns_whole]

set_option maxHeartbeats 1000000 in
/-- The body at any point.  At points 0 and 1 the three layer blocks and the scratch go through the first-phase run; the
state block and the idle output block are handed back untouched; the scratch invariant gains the point's band.  At point
2 the scratch is the target matrix; the state block, the scratch and the output block go through the second-phase run,
which leaves the scores in the output block; the layer blocks are handed back untouched. -/
theorem sound_body (c : Dev nD) (t : Fin cfg0.N) :
    bodyPre m O c t ⊢ wp frame (wpE (defs₀ (F := F)) 𝒱₀ c none) Set.univ (bodyAt0 t) (fun _ => bodyPost m O c t) := by
  unfold bodyPre bodyPost bodyAt0
  simp only [before0_0, before0_1, before0_2, before0_3]
  rw [show (dats m O 0 c).Φ t.succ = ΦS m c t.succ from rfl, show (dats m O 0 c).Φ t.castSucc = ΦS m c t.castSucc from rfl,
    show (dats m O 0 c).owesAt (none : HIx 1) t.succ = (dats m O 0 c).owesAt (none : HIx 1) t.castSucc from rfl,
    after0_0, after0_1, after0_2, after0_3]
  have hN : t.val < 3 := lt_of_lt_of_eq t.isLt (show cfg0.N = 3 from N_0)
  unfold ΦS
  by_cases h2 : t.val < 2
  · have hi : cfg0.idle 4 (cfg0.grid.coords t) = true := (idle4 t).mpr h2
    have hfl : (cfg0.win 4).flush t = false := Bool.eq_false_iff.mpr fun h => by have := (flush0_4 t).mp h; omega
    rw [Dat.leavesExact_idle _ 4 t hi hfl]
    iintro ⟨⟨%f, %hf, HS⟩, Ho, ⟨%d0, H0⟩, ⟨%d1, H1⟩, ⟨%d2, H2⟩, ⟨%d3, H3⟩, H4⟩
    iapply (bodyA c (grid0.coords t) (mS0 t) (hS0 t) (mS1 t) (hS1 t) (mS2 t) (hS2 t) (mS3 t) (hS3 t) (mS4 t) (hS4 t)
      (Memref.whole cc0_scratch0) (Memref.isWhole_whole _) ((hcond1 t).mpr h2) (fun h => by have := (hcond2 t).mp h; omega)
      (iblk m c 0 t) (iblk m c 1 t) (iblk m c 2 t) f Set.univ _)
    isplitl [H0]; · iexact H0
    isplitl [H1]; · iexact H1
    isplitl [H2]; · iexact H2
    isplitl [HS]; · iapply scr_to_owns; iexact HS
    iintro ⟨H0, H1, H2, HS⟩
    isplitl [HS]
    · iexists (scrA (grid0.coords t) (iblk m c 0 t) (iblk m c 1 t) (iblk m c 2 t) f)
      isplitr
      · ipureintro; exact scrInv_step m c t h2 f hf
      · iapply owns_to_scr; iexact HS
    isplitl [Ho]; · iexact Ho
    isplitl [H0]; · iexact H0
    isplitl [H1]; · iexact H1
    isplitl [H2]; · iexact H2
    isplitl [H3]; · iexact H3
    iexact H4
  · obtain rfl : t = t0_2 := Fin.ext (by show t.val = 2; omega)
    have hi : cfg0.idle 4 (cfg0.grid.coords t0_2) = false := Bool.eq_false_iff.mpr fun h => h2 ((idle4 t0_2).mp h)
    have hl : (dats m O 0 c).leavesExact 4 t0_2
        = owns (c : Thread nD τ) ((cfg0.win 4).stage (cfg0.slots t0_2 4)) fullShare ((dats m O 0 c).after 4 t0_2) := by
      unfold Dat.leavesExact; rw [hi]
    rw [hl, after0_4]
    iintro ⟨⟨%f, %hf, HS⟩, Ho, ⟨%d0, H0⟩, ⟨%d1, H1⟩, ⟨%d2, H2⟩, ⟨%d3, H3⟩, ⟨%d4, H4⟩⟩
    obtain rfl : f = Vmat m c := scrInv_full m c f hf
    iapply (bodyB c (grid0.coords t0_2) (mS0 t0_2) (hS0 t0_2) (mS1 t0_2) (hS1 t0_2) (mS2 t0_2) (hS2 t0_2) (mS3 t0_2) (hS3 t0_2) (mS4 t0_2) (hS4 t0_2)
      (Memref.whole cc0_scratch0) (Memref.isWhole_whole _) (fun h => h2 ((hcond1 t0_2).mp h)) ((hcond2 t0_2).mpr rfl)
      (iblk m c 3 t0_2) (Vmat m c) Set.univ _)
    isplitl [H3]; · iexact H3
    isplitl [HS]; · iapply scr_to_owns; iexact HS
    isplitl [H4]; · iexists _; iexact H4
    iintro ⟨H3, HS, H4⟩
    isplitl [HS]
    · iexists (Vmat m c)
      isplitr
      · ipureintro; exact fun r k _ => rfl
      · iapply owns_to_scr; iexact HS
    isplitl [Ho]; · iexact Ho
    isplitl [H0]; · iexact H0
    isplitl [H1]; · iexact H1
    isplitl [H2]; · iexact H2
    isplitl [H3]; · iexact H3
    unfold scoresOut; iexact H4

/-- The region's body obligation, at every point. -/
theorem body_obligation (m : (ℓ : Loc nD τ sig) → Buf (Elt F) ℓ) (O : Dev nD → CellTallies nD τ sig (HIx 1)) (c : Dev nD) :
    Pipeline.BodyObligation (dats m O 0 c) (defs₀ (F := F)) 𝒱₀ (none : HIx 1) Set.univ := fun t => by
  rw [bigSep_W0, bigSep_W0]
  exact sound_body m O c t

end Cert.KernelIdeal.Hand

end
-- ==== Proof.KIArrays.lean ====
/-
  The contents of the kernel's arrays along @main, as the host operations compute them.

  The flat options are the reshape of the option column; the flat scores the reshape of the matrix the region
  leaves; the result the reshape of the selected scores. Each is named here as its operation's result.
-/
import proofs.«205531_g87737591923446_cont_sun_m_531_28_alg».proof.Proof.KICommon
import proofs.«205531_g87737591923446_cont_sun_m_531_28_alg».proof.Proof.KIRegion

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the TensorCore owes through the region -/

/-- The TensorCore's debts before the one call: its start signals. -/
def Otc0 (d : Dev nD) : CellTallies nD τ sig (HIx 1) := (K (F := F)).Otc d 0

theorem Otc0_none (c : Dev nD) (g : GSem nD τ sig) : Otc0 (F := F) c g none = 0 := by
  by_contra h
  have := (K (F := F)).lev_of_Otc_pos (d := c) (n := 0) (g := g) (ι := none) (Nat.pos_of_ne_zero h)
  rw [SparseCore.Cfg.lev_none] at this; omega

/-! ## The arrays' contents along @main -/

abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev op1 : HloOp τ sig (Elt F) := StableHlo.reshape main_arg1 main_v1 rfl shapeCasts_S1024x1_S1024
abbrev op2 : HloOp τ sig (Elt F) := StableHlo.reshape main_v0 main_v2 rfl shapeCasts_S1024x64_S65536
abbrev op3 : HloOp τ sig (Elt F) := StableHlo.reshape main_v3 main_v4 rfl shapeCasts_S1024_S1024x1

/-- The launch valuation. -/
def W0 (d : Dev nD) : Valuation τ sig (Elt F) := fun b => m (d, b)

/-- The flat options: the first reshape's result. -/
def Iarr (d : Dev nD) : Buf (Elt F) (v1Loc d) := (op1 (F := F)).result (W0 m d) v1'
/-- The flat scores: the second reshape's result, of the array the region left. -/
def Xarr (d : Dev nD) : Buf (Elt F) (v2Loc d) := (op2 (F := F)).result (Function.update (W0 m d) v0' (scoresArr m (Otc0 (F := F)) d)) v2'
/-- The result: the last reshape's, of the selected scores. -/
abbrev v4Loc (d : Dev nD) : Loc nD τ sig := (SparseCore.T d).loc main_v4
def outArr (d : Dev nD) : Buf (Elt F) (v4Loc d) :=
  (op3 (F := F)).result (Function.update (W0 m d) v3' (sel (Xarr m) (Iarr m) d)) v4'

end Cert.KernelIdeal.Hand

end
-- ==== Proof.KISplit.lean ====
/-
  Cutting three flat arrays into the thirty-two subcores' slices, and gluing them back.

  Subcore `s` of SparseCore `c` has number `w = 2·s + c`. Of the 65536 words of the flat scores it is handed the
  2048 words `[2048·w, 2048·w + 2048)`, of the 1024 words of the flat options and of the result the 32 words
  `[32·w, 32·w + 32)`. Since `(c, s) ↦ w` is a bijection of `Fin 2 × Fin 16` with `Fin 32`, the thirty-two slices
  of an array are pairwise disjoint (two different pairs give two different numbers `w`, and intervals
  `[n·w, n·w + n)` of different `w` do not meet) and cover it (word `j` lies in the slice of `w = j / n`, that is
  `s = j / (2n)`, `c = (j / n) mod 2`). A points-to assertion of a whole array at one valuation is therefore equal to
  the separating conjunction, over the pairs `(c, s)`, of the points-to assertions of the slices at that valuation.
  Read left to right this hands every subcore its slices; read right to left it gives the arrays back whole: the
  result, whose slices each hold the restriction of one function, holds that function.
-/
import proofs.«205531_g87737591923446_cont_sun_m_531_28_alg».proof.Proof.KICommon

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A SparseCore and one of its subcores, of the call's grid. -/
abbrev CI (F : FTy → Type) : Type := Fin ((K (F := F)).nCore 0) × Fin ((K (F := F)).nSub 0)

theorem coordsOf_zero_val (c : Fin ((K (F := F)).nCore 0)) (i : Fin ((K (F := F)).nSub 0)) :
    ((coordsOf c i) 0).val = c.val := rfl
theorem coordsOf_one_val (c : Fin ((K (F := F)).nCore 0)) (i : Fin ((K (F := F)).nSub 0)) :
    ((coordsOf c i) 1).val = i.val := rfl

/-! ## Which words a slice covers: an interval of the one coordinate -/

theorem mem_xSet (L : grid1.Coords) (j : S65536.Idx) :
    j ∈ xSet L ↔ 4096 * (L 1).val + 2048 * (L 0).val ≤ (j 0).val ∧ (j 0).val < 4096 * (L 1).val + 2048 * (L 0).val + 2048 := by
  show j ∈ ((View.whole main_v2_scv).slice (Rect.unit (s := S65536) (k1_off1 L) S2048.size (k1_off1_inb L))).set ↔ _
  rw [View.set_slice_whole, Rect.mem_set_unit, k1_off1_eq]
  exact Fin.forall_fin_one

theorem mem_iSet (L : grid1.Coords) (j : S1024.Idx) :
    j ∈ iSet L ↔ 64 * (L 1).val + 32 * (L 0).val ≤ (j 0).val ∧ (j 0).val < 64 * (L 1).val + 32 * (L 0).val + 32 := by
  show j ∈ ((View.whole main_v1_scv).slice (Rect.unit (s := S1024) (k1_off2 L) S32.size (k1_off2_inb L))).set ↔ _
  rw [View.set_slice_whole, Rect.mem_set_unit, k1_off2_eq]
  exact Fin.forall_fin_one

theorem mem_oSet (L : grid1.Coords) (j : S1024.Idx) :
    j ∈ oSet L ↔ 64 * (L 1).val + 32 * (L 0).val ≤ (j 0).val ∧ (j 0).val < 64 * (L 1).val + 32 * (L 0).val + 32 := by
  show j ∈ ((View.whole main_v3_scv).slice (Rect.unit (s := S1024) (k1_off3 L) S32.size (k1_off3_inb L))).set ↔ _
  rw [View.set_slice_whole, Rect.mem_set_unit, k1_off3_eq]
  exact Fin.forall_fin_one

/-! ## The slices of different subcores do not meet, and together they are the whole array -/

theorem xSet_disjoint (p p' : CI F) (h : p ≠ p') : Disjoint (xSet (coordsOf p.1 p.2)) (xSet (coordsOf p'.1 p'.2)) := by
  refine Finset.disjoint_left.mpr fun j hj hj' => h ?_
  rw [mem_xSet, coordsOf_zero_val, coordsOf_one_val] at hj hj'
  have h1 : p.1.val < 2 := p.1.isLt
  have h2 : p'.1.val < 2 := p'.1.isLt
  exact Prod.ext (Fin.ext (by omega)) (Fin.ext (by omega))

theorem iSet_disjoint (p p' : CI F) (h : p ≠ p') : Disjoint (iSet (coordsOf p.1 p.2)) (iSet (coordsOf p'.1 p'.2)) := by
  refine Finset.disjoint_left.mpr fun j hj hj' => h ?_
  rw [mem_iSet, coordsOf_zero_val, coordsOf_one_val] at hj hj'
  have h1 : p.1.val < 2 := p.1.isLt
  have h2 : p'.1.val < 2 := p'.1.isLt
  exact Prod.ext (Fin.ext (by omega)) (Fin.ext (by omega))

theorem oSet_disjoint (p p' : CI F) (h : p ≠ p') : Disjoint (oSet (coordsOf p.1 p.2)) (oSet (coordsOf p'.1 p'.2)) := by
  refine Finset.disjoint_left.mpr fun j hj hj' => h ?_
  rw [mem_oSet, coordsOf_zero_val, coordsOf_one_val] at hj hj'
  have h1 : p.1.val < 2 := p.1.isLt
  have h2 : p'.1.val < 2 := p'.1.isLt
  exact Prod.ext (Fin.ext (by omega)) (Fin.ext (by omega))

theorem xSet_cover : (Finset.univ : Finset (CI F)).biUnion (fun p => xSet (coordsOf p.1 p.2)) = Finset.univ := by
  refine Finset.eq_univ_iff_forall.mpr fun j => Finset.mem_biUnion.mpr ?_
  have hj : (j 0).val < 65536 := (j 0).isLt
  refine ⟨(⟨(j 0).val / 2048 % 2, Nat.mod_lt _ (by decide)⟩, ⟨(j 0).val / 4096, ?_⟩), Finset.mem_univ _, ?_⟩
  · show _ < 16; omega
  · rw [mem_xSet, coordsOf_zero_val, coordsOf_one_val]
    show 4096 * ((j 0).val / 4096) + 2048 * ((j 0).val / 2048 % 2) ≤ (j 0).val
      ∧ (j 0).val < 4096 * ((j 0).val / 4096) + 2048 * ((j 0).val / 2048 % 2) + 2048
    omega

theorem iSet_cover : (Finset.univ : Finset (CI F)).biUnion (fun p => iSet (coordsOf p.1 p.2)) = Finset.univ := by
  refine Finset.eq_univ_iff_forall.mpr fun j => Finset.mem_biUnion.mpr ?_
  have hj : (j 0).val < 1024 := (j 0).isLt
  refine ⟨(⟨(j 0).val / 32 % 2, Nat.mod_lt _ (by decide)⟩, ⟨(j 0).val / 64, ?_⟩), Finset.mem_univ _, ?_⟩
  · show _ < 16; omega
  · rw [mem_iSet, coordsOf_zero_val, coordsOf_one_val]
    show 64 * ((j 0).val / 64) + 32 * ((j 0).val / 32 % 2) ≤ (j 0).val
      ∧ (j 0).val < 64 * ((j 0).val / 64) + 32 * ((j 0).val / 32 % 2) + 32
    omega

theorem oSet_cover : (Finset.univ : Finset (CI F)).biUnion (fun p => oSet (coordsOf p.1 p.2)) = Finset.univ := by
  refine Finset.eq_univ_iff_forall.mpr fun j => Finset.mem_biUnion.mpr ?_
  have hj : (j 0).val < 1024 := (j 0).isLt
  refine ⟨(⟨(j 0).val / 32 % 2, Nat.mod_lt _ (by decide)⟩, ⟨(j 0).val / 64, ?_⟩), Finset.mem_univ _, ?_⟩
  · show _ < 16; omega
  · rw [mem_oSet, coordsOf_zero_val, coordsOf_one_val]
    show 64 * ((j 0).val / 64) + 32 * ((j 0).val / 32 % 2) ≤ (j 0).val
      ∧ (j 0).val < 64 * ((j 0).val / 64) + 32 * ((j 0).val / 32 % 2) + 32
    omega

/-! ## A whole array's points-to is the thirty-two slices' points-tos -/

theorem xPts_split (d : Dev nD) (f : Buf (Elt F) (v2Loc d)) :
    (v2Loc d ↦{fullShare} f : sProp 𝕄)
      = bigSep Finset.univ fun p : CI F => v2Loc d ↦[xSet (coordsOf p.1 p.2)]{fullShare} f := by
  rw [← pointsTo_biUnion Finset.univ (ℓ := v2Loc d) (fun p : CI F => xSet (coordsOf p.1 p.2))
    (fun p _ p' _ h => xSet_disjoint p p' h), xSet_cover]

theorem iPts_split (d : Dev nD) (f : Buf (Elt F) (v1Loc d)) :
    (v1Loc d ↦{fullShare} f : sProp 𝕄)
      = bigSep Finset.univ fun p : CI F => v1Loc d ↦[iSet (coordsOf p.1 p.2)]{fullShare} f := by
  rw [← pointsTo_biUnion Finset.univ (ℓ := v1Loc d) (fun p : CI F => iSet (coordsOf p.1 p.2))
    (fun p _ p' _ h => iSet_disjoint p p' h), iSet_cover]

theorem oPts_split (d : Dev nD) (f : Buf (Elt F) (v3Loc d)) :
    (v3Loc d ↦{fullShare} f : sProp 𝕄)
      = bigSep Finset.univ fun p : CI F => v3Loc d ↦[oSet (coordsOf p.1 p.2)]{fullShare} f := by
  rw [← pointsTo_biUnion Finset.univ (ℓ := v3Loc d) (fun p : CI F => oSet (coordsOf p.1 p.2))
    (fun p _ p' _ h => oSet_disjoint p p' h), oSet_cover]

/-- The result at whatever it holds: every slice is handed the one valuation the whole array has. -/
theorem oPts_ex_split (d : Dev nD) :
    iprop(∃ f : Buf (Elt F) (v3Loc d), v3Loc d ↦{fullShare} f)
      ⊢ (bigSep Finset.univ fun p : CI F =>
          iprop(∃ f : Buf (Elt F) (v3Loc d), v3Loc d ↦[oSet (coordsOf p.1 p.2)]{fullShare} f) : sProp 𝕄) := by
  refine exists_elim fun f => ?_
  rw [oPts_split d f]
  exact bigSep_mono fun p _ =>
    exists_intro (Φ := fun f : Buf (Elt F) (v3Loc d) => (v3Loc d ↦[oSet (coordsOf p.1 p.2)]{fullShare} f : sProp 𝕄)) f

/-! ## Handing out and taking back -/

variable (X : (d : Dev nD) → Buf (Elt F) (v2Loc d)) (I : (d : Dev nD) → Buf (Elt F) (v1Loc d))

theorem split_go (d : Dev nD) :
    iprop((v2Loc d ↦{fullShare} X d) ∗ (v1Loc d ↦{fullShare} I d) ∗ ∃ f : Buf (Elt F) (v3Loc d), v3Loc d ↦{fullShare} f)
      ⊢ (bigSep Finset.univ fun c : Fin ((K (F := F)).nCore 0) =>
          bigSep Finset.univ fun i : Fin ((K (F := F)).nSub 0) => goRes X I d (coordsOf c i) : sProp 𝕄) := by
  rw [← bigSep_univ_prod (fun p : CI F => goRes X I d (coordsOf p.1 p.2))]
  unfold goRes
  rw [bigSep_sep', bigSep_sep', ← xPts_split, ← iPts_split]
  iintro ⟨HX, HI, HO⟩
  isplitl [HX]; · iexact HX
  isplitl [HI]; · iexact HI
  iapply (oPts_ex_split d); iexact HO

theorem join_td (d : Dev nD) :
    (bigSep Finset.univ fun c : Fin ((K (F := F)).nCore 0) =>
        bigSep Finset.univ fun i : Fin ((K (F := F)).nSub 0) => tdRes X I d (coordsOf c i) : sProp 𝕄)
      ⊢ iprop((v2Loc d ↦{fullShare} X d) ∗ (v1Loc d ↦{fullShare} I d) ∗ (v3Loc d ↦{fullShare} sel X I d)) := by
  rw [← bigSep_univ_prod (fun p : CI F => tdRes X I d (coordsOf p.1 p.2))]
  unfold tdRes
  rw [bigSep_sep', bigSep_sep', ← xPts_split, ← iPts_split, ← oPts_split]

end Cert.KernelIdeal.Hand

end
-- ==== Proof.KIPost.lean ====
/-
  What the kernel's run leaves: the result array at the selected scores' reshape, the six argument arrays unchanged.
-/
import proofs.«205531_g87737591923446_cont_sun_m_531_28_alg».proof.Proof.KIArrays

noncomputable section

namespace Cert.KernelIdeal.Hand

open Cert.KernelIdeal Cert.KernelIdeal.Gen
open Idealize.ShloMosaic Idealize.ShloMosaic.TcCoe
open Idealize.ShloMosaic.SparseCore (S V T)
open Idealize.SL Idealize.SL.Sem

variable {F : FTy → Type} [FloatOps F]

/-- The post of the kernel's run from the launch memory `m`: on every device the result holds `outArr m` and the
    arguments are as launched. -/
def QC (m : (ℓ : Loc nD τ sig) → Buf (Elt F) ℓ) : PUnit × MemSt nD τ sig (Elt F) → Prop := fun r => ∀ c : Dev nD,
  r.2.mem ((c.tc : Thread nD τ).loc main_v4) = outArr m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- Every option word the launch memory holds is below 64. -/
def OptOK (m : (ℓ : Loc nD τ sig) → Buf (Elt F) ℓ) : Prop :=
  ∀ (d : Dev nD) (j : S1024x1.Idx), (m ((d.tc : Thread nD τ).loc main_arg1) j).toNat < 64

end Cert.KernelIdeal.Hand

end
-- ==== Proof.KIFin.lean ====
import proofs.«205531_g87737591923446_cont_sun_m_531_28_alg».proof.Proof.KIPost
import Idealize.ShloMosaic.Lib.SparseCore.Launch

/-!
# Reading the final state

When the program has finished, each device holds, whole, its result array at the reshaped selected scores and
its six argument arrays at their launch contents.  Holding a whole array at given contents, together with the
interpretation of the physical state, pins the physical contents of that array element by element; an array
whose every element is pinned equals the given contents.  Doing this for the seven arrays gives the seven
equations of the post-condition on each device.
-/

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- An array of the dense core of device `d`, as a location. -/
abbrev aLoc (d : Dev nD) (b : Ref sig .tc) : Loc nD τ sig := (SparseCore.T d).loc b

/-- What @main leaves the claim: the result at the reshaped selected scores, the six arguments as launched. -/
def FIN (m : (ℓ : Loc nD τ sig) → Buf (Elt F) ℓ) (d : Dev nD) : sProp 𝕄 :=
  iprop((v4Loc d ↦{fullShare} outArr m d) ∗ (aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)) ∗ (aLoc d main_arg5 ↦{fullShare} m (aLoc d main_arg5)))

/-- The same seven facts about a physical state. -/
def fq (m : (ℓ : Loc nD τ sig) → Buf (Elt F) ℓ) (d : Dev nD) (s' : Phys nD τ sig (Elt F)) : Prop :=
  s'.mem.mem (v4Loc d) = outArr m d ∧ s'.mem.mem (aLoc d main_arg0) = m (aLoc d main_arg0)
    ∧ s'.mem.mem (aLoc d main_arg1) = m (aLoc d main_arg1) ∧ s'.mem.mem (aLoc d main_arg2) = m (aLoc d main_arg2)
    ∧ s'.mem.mem (aLoc d main_arg3) = m (aLoc d main_arg3) ∧ s'.mem.mem (aLoc d main_arg4) = m (aLoc d main_arg4)
    ∧ s'.mem.mem (aLoc d main_arg5) = m (aLoc d main_arg5)

/-- Holding the seven arrays against the state's interpretation pins the seven contents. -/
theorem hfin (m : (ℓ : Loc nD τ sig) → Buf (Elt F) ℓ) (d : Dev nD) (s' : Phys nD τ sig (Elt F)) :
    iprop(FIN m d ∗ SI s') ⊢ (⌜fq m d s'⌝ : sProp 𝕄) := by
  unfold FIN
  iintro ⟨⟨Hv, H0, H1, H2, H3, H4, H5⟩, HSI⟩
  icombine HSI Hv gives %hv
  icombine HSI H0 gives %h0
  icombine HSI H1 gives %h1
  icombine HSI H2 gives %h2
  icombine HSI H3 gives %h3
  icombine HSI H4 gives %h4
  icombine HSI H5 gives %h5
  ipureintro
  exact ⟨funext fun i => hv i (Finset.mem_univ i), funext fun i => h0 i (Finset.mem_univ i),
    funext fun i => h1 i (Finset.mem_univ i), funext fun i => h2 i (Finset.mem_univ i),
    funext fun i => h3 i (Finset.mem_univ i), funext fun i => h4 i (Finset.mem_univ i),
    funext fun i => h5 i (Finset.mem_univ i)⟩

/-- The seven facts on every device are the run's post-condition. -/
theorem hQ (m : (ℓ : Loc nD τ sig) → Buf (Elt F) ℓ) (s' : Phys nD τ sig (Elt F)) (h : ∀ d, fq m d s') : QC m (⟨⟩, s'.mem) :=
  fun c => h c

end Cert.KernelIdeal.Hand

end
-- ==== Proof.KITile.lean ====
/-
  One vector subcore's share of the selection.

  The subcore numbered `w = 2·s + c` copies words `[2048·w, 2048·w + 2048)` of the flat scores and words
  `[32·w, 32·w + 32)` of the flat options into its own memory. For each of its 32 rows `r` (two batches of
  sixteen lanes, `r = 16·g + lane`) it forms the number `64·r + option_r` in 32-bit arithmetic, reads its copy of
  the scores at that word, and stores the word read at place `r` of a 32-word scratch, which it finally copies onto
  words `[32·w, 32·w + 32)` of the result. With every option in `[0, 64)` the number `64·r + option_r` is below
  2048 — so the read is inside the copy and no 32-bit operation wraps — and word `r` of the scratch is word
  `2048·w + 64·r + option_r = 64·(32·w + r) + option_r` of the flat scores: the selection's value at word
  `32·w + r` of the result. The three copies run one at a time, each waited for at once on a semaphore of its own.
-/
import proofs.«205531_g87737591923446_cont_sun_m_531_28_alg».proof.Proof.KICommon

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The thread of the task at grid coordinates `L`: subcore `L 1` of SparseCore `L 0`. -/
abbrev cV (L : grid1.Coords) : Fin τ.nSC := (L 0).castLE hcore1
abbrev jV (L : grid1.Coords) : Fin τ.nSub := (L 1).castLE hsub1

/-- The subcore's three scratch buffers, whole: the options, the scores, the picked scores. -/
abbrev sI : Memref sig .scVector .vmem S32 .i32 := Memref.whole cc1_scratch0
abbrev sX : Memref sig .scVector .vmem S2048 .f32 := Memref.whole cc1_scratch1
abbrev sO : Memref sig .scVector .vmem S32 .f32 := Memref.whole cc1_scratch2

/-! ## The gather's indices -/

/-- Lane `x` of the first index vector: `(0 + x)·64 + option`, in 32-bit words. -/
theorem idxPay1_apply (v9 : Vec F S16 .i32) (x : S16.Idx) :
    k1_pay1 v9 x = (0#32 + BitVec.ofNat 32 (0 * S16.size 0 + (x 0).val)) * 64#32 + v9 x := rfl
/-- Lane `x` of the second index vector: `(16 + x)·64 + option`. -/
theorem idxPay2_apply (v18 : Vec F S16 .i32) (x : S16.Idx) :
    k1_pay2 v18 x = (16#32 + BitVec.ofNat 32 (0 * S16.size 0 + (x 0).val)) * 64#32 + v18 x := rfl

/-- With the option below 64 nothing wraps: the first index vector's lane `x` is the number `64·x + option`, -/
theorem pay1_toNat (v9 : Vec F S16 .i32) (x : S16.Idx) (h : (v9 x).toNat < 64) :
    (k1_pay1 v9 x).toNat = 64 * (x 0).val + (v9 x).toNat := by
  have hx : (x 0).val < 16 := (x 0).isLt
  rw [idxPay1_apply]
  simp only [BitVec.toNat_add, BitVec.toNat_mul, BitVec.toNat_ofNat, show S16.size 0 = 16 from rfl]
  omega
/-- and the second's is `64·(16 + x) + option`. -/
theorem pay2_toNat (v18 : Vec F S16 .i32) (x : S16.Idx) (h : (v18 x).toNat < 64) :
    (k1_pay2 v18 x).toNat = 64 * (16 + (x 0).val) + (v18 x).toNat := by
  have hx : (x 0).val < 16 := (x 0).isLt
  rw [idxPay2_apply]
  simp only [BitVec.toNat_add, BitVec.toNat_mul, BitVec.toNat_ofNat, show S16.size 0 = 16 from rfl]
  omega

/-- So both index vectors name words of the 2048-word scratch. -/
theorem chk1_of (v9 : Vec F S16 .i32) (h : ∀ x, (v9 x).toNat < 64) : k1_chk1 (k1_pay1 v9) := by
  intro a x
  obtain rfl : a = 0 := Subsingleton.elim _ _
  have hx : (x 0).val < 16 := (x 0).isLt
  show (k1_pay1 v9 x).toNat < 2048
  rw [pay1_toNat v9 x (h x)]; have := h x; omega
theorem chk2_of (v18 : Vec F S16 .i32) (h : ∀ x, (v18 x).toNat < 64) : k1_chk2 (k1_pay2 v18) := by
  intro a x
  obtain rfl : a = 0 := Subsingleton.elim _ _
  have hx : (x 0).val < 16 := (x 0).isLt
  show (k1_pay2 v18 x).toNat < 2048
  rw [pay2_toNat v18 x (h x)]; have := h x; omega

/-- A load after one write of the whole view reads that write's payload at the load's coordinates. -/
theorem readCov_whole_apply {sig' : RefSig} {κ : Kind} {sp : Space} {s : Shape} {e : EltTy} {Val : EltTy → Type} [∀ e, Nonempty (Val e)]
    (v : View sig' κ sp s e) (w : s.Idx → Val e) (B : LoadRect s) (j : B.shape.Idx) :
    v.readCov [⟨Rect.whole s, w⟩] B j = w (B.idx j) := by
  show v.read Val (v.writes Val v.junk [⟨Rect.whole s, w⟩]) (B.idx j) = _
  rw [View.read_writes_whole]

/-! ## The value: which word of the flat scores each picked word is -/

section Value

variable (X : (d : Dev nD) → Buf (Elt F) (v2Loc d)) (I : (d : Dev nD) → Buf (Elt F) (v1Loc d)) (d : Dev nD) (L : grid1.Coords)

/-- The two 16-word halves of a 32-word scratch. -/
abbrev B0 : Rect S32 := Rect.unit (s := S32) ![0] S16.size inb_S32_S16_0
abbrev B16 : Rect S32 := Rect.unit (s := S32) ![16] S16.size inb_S32_S16_16

omit [FloatOps F] in
/-- Word `y` of the subcore's slice of the options and word `y` of its slice of the result have one word number. -/
theorem emb_io (y : S32.Idx) : ((iBlk L).view.emb y : S1024.Idx) = ((oBlk L).view.emb y : S1024.Idx) := by
  refine funext fun (a : Fin 1) => ?_
  obtain rfl : a = 0 := Subsingleton.elim a 0
  apply Fin.ext
  show k1_off2 L 0 + 1 * (y 0).val = k1_off3 L 0 + 1 * (y 0).val
  rw [k1_off2_eq, k1_off3_eq]

omit [FloatOps F] in
/-- Word `64·y + option` of the subcore's slice of the scores is the word the selection names for word `y` of its
    slice of the result: `2048·w + 64·y + option = 64·(32·w + y) + option`. -/
theorem emb_sel (y : S32.Idx) (z : S2048.Idx) (hz : (z 0).val = 64 * (y 0).val + (I d ((oBlk L).view.emb y)).toNat)
    (hlt : (I d ((oBlk L).view.emb y)).toNat < 64) :
    ((xBlk L).view.emb z : S65536.Idx) = selIdx (I d) ((oBlk L).view.emb y) := by
  have h1 : k1_off1 L 0 = 4096 * (L 1).val + 2048 * (L 0).val := by rw [k1_off1_eq]; rfl
  have h3 : k1_off3 L 0 = 64 * (L 1).val + 32 * (L 0).val := by rw [k1_off3_eq]; rfl
  refine funext fun (a : Fin 1) => ?_
  obtain rfl : a = 0 := Subsingleton.elim a 0
  apply Fin.ext
  show k1_off1 L 0 + 1 * (z 0).val = 64 * (k1_off3 L 0 + 1 * (y 0).val) + (I d ((oBlk L).view.emb y)).toNat % 64
  rw [h1, h3, Nat.mod_eq_of_lt hlt, hz]
  omega

/-- Lane `x` of the first gather is the selected score of word `x` of the subcore's slice, -/
theorem piece_lo (f : Vec F S2048 .f32) (v9 : Vec F S16 .i32) (h1 : ∀ a x, ((![k1_pay1 v9] : Fin 1 → IVec S16 32) a x).toNat < S2048.size a)
    (hI : ∀ j : S1024.Idx, (I d j).toNat < 64)
    (hf : ∀ z, f z = X d ((xBlk L).view.emb z))
    (hv : ∀ x, v9 x = I d ((iBlk L).view.emb (B0.emb x))) (x : S16.Idx) :
    loadIdx f ![k1_pay1 v9] h1 x = sel X I d ((oBlk L).view.emb (B0.emb x)) := by
  show f (idxAt ![k1_pay1 v9] h1 x) = X d (selIdx (I d) ((oBlk L).view.emb (B0.emb x)))
  rw [hf]
  refine congrArg (X d) (emb_sel I d L (B0.emb x) _ ?_ (hI _))
  show (k1_pay1 v9 x).toNat = 64 * (0 + 1 * (x 0).val) + _
  rw [pay1_toNat v9 x (by rw [hv]; exact hI _), hv, emb_io]
  omega

/-- and lane `x` of the second that of word `16 + x`. -/
theorem piece_hi (f : Vec F S2048 .f32) (v18 : Vec F S16 .i32) (h2 : ∀ a x, ((![k1_pay2 v18] : Fin 1 → IVec S16 32) a x).toNat < S2048.size a)
    (hI : ∀ j : S1024.Idx, (I d j).toNat < 64)
    (hf : ∀ z, f z = X d ((xBlk L).view.emb z))
    (hv : ∀ x, v18 x = I d ((iBlk L).view.emb (B16.emb x))) (x : S16.Idx) :
    loadIdx f ![k1_pay2 v18] h2 x = sel X I d ((oBlk L).view.emb (B16.emb x)) := by
  show f (idxAt ![k1_pay2 v18] h2 x) = X d (selIdx (I d) ((oBlk L).view.emb (B16.emb x)))
  rw [hf]
  refine congrArg (X d) (emb_sel I d L (B16.emb x) _ ?_ (hI _))
  show (k1_pay2 v18 x).toNat = 64 * (16 + 1 * (x 0).val) + _
  rw [pay2_toNat v18 x (by rw [hv]; exact hI _), hv, emb_io]
  omega

/-- After the two stores the 32-word scratch holds, at every word, the selected score of that word of the subcore's slice. -/
theorem out_value (fo0 : Buf (Elt F) ((V d (cV L) (jV L)).loc cc1_scratch2)) (f f' : Vec F S2048 .f32) (v9 v18 : Vec F S16 .i32)
    (h1 : ∀ a x, ((![k1_pay1 v9] : Fin 1 → IVec S16 32) a x).toNat < S2048.size a)
    (h2 : ∀ a x, ((![k1_pay2 v18] : Fin 1 → IVec S16 32) a x).toNat < S2048.size a)
    (hI : ∀ j : S1024.Idx, (I d j).toNat < 64)
    (hf : ∀ z, f z = X d ((xBlk L).view.emb z)) (hf' : ∀ z, f' z = X d ((xBlk L).view.emb z))
    (hv9 : ∀ x, v9 x = I d ((iBlk L).view.emb (B0.emb x))) (hv18 : ∀ x, v18 x = I d ((iBlk L).view.emb (B16.emb x))) (y : S32.Idx) :
    (sO).view.read (Elt F) ((sO).view.writes (Elt F) fo0 [⟨B16, loadIdx f' ![k1_pay2 v18] h2⟩, ⟨B0, loadIdx f ![k1_pay1 v9] h1⟩]) y
      = sel X I d ((oBlk L).view.emb y) := by
  refine View.read_writes_apply_of_pieces (sO).view fo0 (fun y => sel X I d ((oBlk L).view.emb y)) _ ?_ y ?_
  · intro p hp x
    rcases List.mem_cons.mp hp with rfl | hp
    · exact piece_hi X I d L f' v18 h2 hI hf' hv18 x
    rcases List.mem_cons.mp hp with rfl | hp
    · exact piece_lo X I d L f v9 h1 hI hf hv9 x
    · exact absurd hp List.not_mem_nil
  · have hy : (y 0).val < 32 := (y 0).isLt
    by_cases h : (y 0).val < 16
    · refine ⟨⟨B0, loadIdx f ![k1_pay1 v9] h1⟩, List.mem_cons_of_mem _ List.mem_cons_self, (Rect.mem_set_unit (s := S32) (off := ![0]) (size := S16.size) (inb := inb_S32_S16_0)).mpr fun a => ?_⟩
      obtain rfl : a = 0 := Subsingleton.elim a 0
      show 0 ≤ (y 0).val ∧ (y 0).val < 0 + 16
      omega
    · refine ⟨⟨B16, loadIdx f' ![k1_pay2 v18] h2⟩, List.mem_cons_self, (Rect.mem_set_unit (s := S32) (off := ![16]) (size := S16.size) (inb := inb_S32_S16_16)).mpr fun a => ?_⟩
      obtain rfl : a = 0 := Subsingleton.elim a 0
      show 16 ≤ (y 0).val ∧ (y 0).val < 16 + 16
      omega

omit [FloatOps F] in
/-- So the subcore's slice of the result, overwritten whole by such words, holds the selected scores. -/
theorem out_congr (fo : Buf (Elt F) (v3Loc d)) (w : S32.Idx → Elt F .f32) (hw : ∀ y, w y = sel X I d ((oBlk L).view.emb y)) :
    (v3Loc d ↦[oSet L]{fullShare} (oBlk L).view.writes (Elt F) fo [⟨Rect.whole S32, w⟩] : sProp 𝕄) = v3Loc d ↦[oSet L]{fullShare} sel X I d := by
  refine pointsTo_congr fun j hj => ?_
  obtain ⟨y, -, rfl⟩ := Finset.mem_map.mp hj
  have h := congrFun (View.read_writes_whole (oBlk L).view fo w) y
  rw [View.read_apply] at h
  exact ((cast_eq _ _).symm.trans h).trans (hw y)

end Value

section Tile

variable (X : (d : Dev nD) → Buf (Elt F) (v2Loc d)) (I : (d : Dev nD) → Buf (Elt F) (v1Loc d)) (d : Dev nD) (L : grid1.Coords)

abbrev cAcell : GSem nD τ sig := (V d (cV L) (jV L), .dma cc1_scoped0.sem)
abbrev cBcell : GSem nD τ sig := (V d (cV L) (jV L), .dma cc1_scoped1.sem)
abbrev cCcell : GSem nD τ sig := (V d (cV L) (jV L), .dma cc1_scoped2.sem)

omit [FloatOps F] in
/-- The subcore's own semaphores at zero are its three scoped DMA semaphores at zero and the others. -/
theorem ownSems0_V :
    (ownSems0 (V d (cV L) (jV L)) : sProp 𝕄)
      = iprop(semVal (cAcell d L) 0 ∗ semVal (cBcell d L) 0 ∗ semVal (cCcell d L) 0
          ∗ bigSep ((((ownCells (V d (cV L) (jV L))).erase (cAcell d L)).erase (cBcell d L)).erase (cCcell d L)) fun g => semVal g 0) := by
  unfold SparseCore.Cfg.ownSems0
  have hA : cAcell d L ∈ ownCells (V d (cV L) (jV L)) := mem_ownCells.mpr ⟨rfl, by
    show (SemLoc.dma cc1_scoped0.sem : SemLoc sig).isScoped .scVector = true; decide⟩
  have hB : cBcell d L ∈ ownCells (V d (cV L) (jV L)) := mem_ownCells.mpr ⟨rfl, by
    show (SemLoc.dma cc1_scoped1.sem : SemLoc sig).isScoped .scVector = true; decide⟩
  have hC : cCcell d L ∈ ownCells (V d (cV L) (jV L)) := mem_ownCells.mpr ⟨rfl, by
    show (SemLoc.dma cc1_scoped2.sem : SemLoc sig).isScoped .scVector = true; decide⟩
  have hBA : cBcell d L ≠ cAcell d L := fun e => absurd (congrArg Prod.snd e) (show (SemLoc.dma cc1_scoped1.sem : SemLoc sig) ≠ SemLoc.dma cc1_scoped0.sem by decide)
  have hCA : cCcell d L ≠ cAcell d L := fun e => absurd (congrArg Prod.snd e) (show (SemLoc.dma cc1_scoped2.sem : SemLoc sig) ≠ SemLoc.dma cc1_scoped0.sem by decide)
  have hCB : cCcell d L ≠ cBcell d L := fun e => absurd (congrArg Prod.snd e) (show (SemLoc.dma cc1_scoped2.sem : SemLoc sig) ≠ SemLoc.dma cc1_scoped1.sem by decide)
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

omit [FloatOps F] in
/-- The subcore's own buffers are its three scratches, each at some contents, and the others. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  have h0 : (Proc.scVector (cV L) (jV L)).devRef cc1_scratch0 ∈ ownRefs (τ := τ) (sig := sig) (.scVector (cV L) (jV L)) :=
    SparseCore.Cfg.mem_ownRefs_of_owner rfl
  have h1 : (Proc.scVector (cV L) (jV L)).devRef cc1_scratch1 ∈ ownRefs (τ := τ) (sig := sig) (.scVector (cV L) (jV L)) :=
    SparseCore.Cfg.mem_ownRefs_of_owner rfl
  have h2 : (Proc.scVector (cV L) (jV L)).devRef cc1_scratch2 ∈ ownRefs (τ := τ) (sig := sig) (.scVector (cV L) (jV L)) :=
    SparseCore.Cfg.mem_ownRefs_of_owner rfl
  have h10 : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  have h20 : (Proc.scVector (cV L) (jV L)).devRef cc1_scratch2 ≠ (Proc.scVector (cV L) (jV L)).devRef cc1_scratch0 :=
    fun e => absurd (Proc.devRef_injective _ e) (show (cc1_scratch2 : Ref sig .scVector) ≠ cc1_scratch0 by decide)
  have h21 : (Proc.scVector (cV L) (jV L)).devRef cc1_scratch2 ≠ (Proc.scVector (cV L) (jV L)).devRef cc1_scratch1 :=
    fun e => absurd (Proc.devRef_injective _ e) (show (cc1_scratch2 : Ref sig .scVector) ≠ cc1_scratch1 by decide)
  refine (SparseCore.bigSep_erase' h0).trans ?_
  rw [SparseCore.bigSep_erase' (Finset.mem_erase.mpr ⟨h10, h1⟩),
    SparseCore.bigSep_erase' (Finset.mem_erase.mpr ⟨h21, Finset.mem_erase.mpr ⟨h20, h2⟩⟩)]

omit [FloatOps F] in
/-- A held slice of an HBM array, as the subcore's slice memref addresses it, is the TensorCore's array on that slice's words. -/
theorem pts_x (f : Buf (Elt F) (v2Loc d)) :
    ((xBlk L).view.loc (V d (cV L) (jV L)) ↦[(xBlk L).view.set]{fullShare} f : sProp 𝕄) = v2Loc d ↦[xSet L]{fullShare} f := rfl
omit [FloatOps F] in
theorem pts_i (f : Buf (Elt F) (v1Loc d)) :
    ((iBlk L).view.loc (V d (cV L) (jV L)) ↦[(iBlk L).view.set]{fullShare} f : sProp 𝕄) = v1Loc d ↦[iSet L]{fullShare} f := rfl
omit [FloatOps F] in
theorem pts_o (f : Buf (Elt F) (v3Loc d)) :
    ((oBlk L).view.loc (V d (cV L) (jV L)) ↦[(oBlk L).view.set]{fullShare} f : sProp 𝕄) = v3Loc d ↦[oSet L]{fullShare} f := rfl

omit [FloatOps F] in
/-- A scratch held whole is the scratch memref's view held on its own words. -/
theorem pts_sI (f : Buf (Elt F) ((V d (cV L) (jV L)).loc cc1_scratch0)) :
    ((sI).view.loc (V d (cV L) (jV L)) ↦[(sI).view.set]{fullShare} f : sProp 𝕄) = (V d (cV L) (jV L)).loc cc1_scratch0 ↦{fullShare} f := by
  simp only [Memref.view_whole, View.set_whole]
omit [FloatOps F] in
theorem pts_sX (f : Buf (Elt F) ((V d (cV L) (jV L)).loc cc1_scratch1)) :
    ((sX).view.loc (V d (cV L) (jV L)) ↦[(sX).view.set]{fullShare} f : sProp 𝕄) = (V d (cV L) (jV L)).loc cc1_scratch1 ↦{fullShare} f := by
  simp only [Memref.view_whole, View.set_whole]
omit [FloatOps F] in
theorem pts_sO (f : Buf (Elt F) ((V d (cV L) (jV L)).loc cc1_scratch2)) :
    ((sO).view.loc (V d (cV L) (jV L)) ↦[(sO).view.set]{fullShare} f : sProp 𝕄) = (V d (cV L) (jV L)).loc cc1_scratch2 ↦{fullShare} f := by
  simp only [Memref.view_whole, View.set_whole]

/-- The kernel's body on the subcore at grid coordinates `L`: from its slices of the scores and of the options (and its slice of the
    result, at anything) to the same with the slice of the result holding the selected scores; its scratch and its semaphores back as
    they came. Each gather is a load of the whole scores scratch at indices that are in range because every option is below 64. -/
theorem tile_body
    (hI : ∀ j : S1024.Idx, (I d j).toNat < 64) (O : CellTallies nD τ sig (HIx 1)) (W : Waits sig (HIx 1)) (hO : ∀ g, O g none = 0) :
    iprop(levAts (K (F := F)).L (K (F := F)).lev ∗ emp ∗ goRes X I d L ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_select L xV (Memref.isWhole_whole _) iV (Memref.isWhole_whole _) oV (Memref.isWhole_whole _) (Memref.whole cc1_scratch0) (Memref.isWhole_whole _) (Memref.whole cc1_scratch1) (Memref.isWhole_whole _) (Memref.whole cc1_scratch2) (Memref.isWhole_whole _) cc1_scoped0 cc1_scoped1 cc1_scoped2)
          fun _ => iprop(tdRes X I d L ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc1__sc_select_eq_skeleton]; unfold cc1__sc_select_skel
  rw [(K (F := F)).scopedBufs_V facts d (cV L) (jV L), SparseCore.Cfg.scopedSems0_V (Val := Elt F) d (cV L) (jV L), ownSems0_V, ownBufs_V]
  unfold goRes
  iintro ⟨#Hlv, -, ⟨Hx, Hi, %fo, Ho⟩, ⟨⟨%fi0, Hs0⟩, ⟨%fx0, Hs1⟩, ⟨%fo0, Hs2⟩, Hbufs⟩, ⟨HsemA, HsemB, HsemC, Hsems⟩, HO⟩
  ihave Hmw := ((K (F := F)).mayWaits_none (thr := V d (cV L) (jV L)) hO) $$ Hlv
  ihave Hx' := (Entails.of_eq (pts_x (F := F) d L _).symm) $$ Hx
  ihave Hi' := (Entails.of_eq (pts_i (F := F) d L _).symm) $$ Hi
  ihave Ho' := (Entails.of_eq (pts_o (F := F) d L _).symm) $$ Ho
  ihave Hs0' := (Entails.of_eq (pts_sI (F := F) d L _).symm) $$ Hs0
  ihave Hs1' := (Entails.of_eq (pts_sX (F := F) d L _).symm) $$ Hs1
  ihave Hs2' := (Entails.of_eq (pts_sO (F := F) d L _).symm) $$ Hs2
  sl_exec

  have hchk1 : k1_chk1 (tile_body.sl.v10 I d L) := by
    refine chk1_of _ fun x => ?_
    unfold tile_body.sl.v9 tile_body.sl.dma0_1
    rw [readCov_whole_apply]
    exact hI _
  iapply (wp_assume _ _ _ _ hchk1)
  rw [SparseCore.vectorLoadIdx_bind (V d (cV L) (jV L))]
  sl_exec
  have hchk2 : k1_chk2 (tile_body.sl.v19 I d L) := by
    refine chk2_of _ fun x => ?_
    unfold tile_body.sl.v18 tile_body.sl.dma0_1
    rw [readCov_whole_apply]
    exact hI _
  iapply (wp_assume _ _ _ _ hchk2)
  rw [SparseCore.vectorLoadIdx_bind (V d (cV L) (jV L))]
  sl_exec
  sl_step

  have hf : ∀ z, tile_body.sl.f X d L z = X d ((xBlk L).view.emb z) := fun z => by
    unfold tile_body.sl.f tile_body.sl.dma0
    rw [readCov_whole_apply, LoadRect.idx_whole]; rfl
  have hf' : ∀ z, tile_body.sl.f_1 X d L z = X d ((xBlk L).view.emb z) := fun z => by
    unfold tile_body.sl.f_1 tile_body.sl.dma0
    rw [readCov_whole_apply, LoadRect.idx_whole]; rfl
  have hv9 : ∀ x, tile_body.sl.v9 I d L x = I d ((iBlk L).view.emb (B0.emb x)) := fun x => by
    unfold tile_body.sl.v9 tile_body.sl.dma0_1
    rw [readCov_whole_apply]; rfl
  have hv18 : ∀ x, tile_body.sl.v18 I d L x = I d ((iBlk L).view.emb (B16.emb x)) := fun x => by
    unfold tile_body.sl.v18 tile_body.sl.dma0_1
    rw [readCov_whole_apply]; rfl
  have hval := out_congr X I d L fo (tile_body.sl.dma3 X I d L fo0 hchk1 hchk2) fun y => by
    unfold tile_body.sl.dma3 tile_body.sl.Hs2'_2 tile_body.sl.v10 tile_body.sl.v19
    exact out_value X I d L fo0 _ _ _ _ _ _ hI hf hf' hv9 hv18 y
  isplitl [Hx' Hi' Ho']
  · unfold tdRes
    isplitl [Hx']; · iapply (Entails.of_eq (pts_x (F := F) d L _)); iexact Hx'
    isplitl [Hi']; · iapply (Entails.of_eq (pts_i (F := F) d L _)); iexact Hi'
    iapply (Entails.of_eq hval); iapply (Entails.of_eq (pts_o (F := F) d L _)); iexact Ho'
  isplitl [Hs0' Hs1' Hs2' Hbufs]
  · isplitl [Hs0']; · iexists _; iapply (Entails.of_eq (pts_sI (F := F) d L _)); iexact Hs0'
    isplitl [Hs1']; · iexists _; iapply (Entails.of_eq (pts_sX (F := F) d L _)); iexact Hs1'
    isplitl [Hs2']; · iexists _; iapply (Entails.of_eq (pts_sO (F := F) d L _)); iexact Hs2'
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc1_scoped2.sem, (default : HIx 1)) (insert (SemLoc.dma cc1_scoped1.sem, (default : HIx 1))
    (insert (SemLoc.dma cc1_scoped0.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

/-- The same with the kernel's coordinates under another spelling `L'` of `L`. -/
theorem tile_body' (L' : grid1.Coords) (h : L' = L)
    (hI : ∀ j : S1024.Idx, (I d j).toNat < 64) (O : CellTallies nD τ sig (HIx 1)) (W : Waits sig (HIx 1)) (hO : ∀ g, O g none = 0) :
    iprop(levAts (K (F := F)).L (K (F := F)).lev ∗ emp ∗ goRes X I d L ∗ scopedBufs (V d (cV L') (jV L')) ∗ scopedSems0 (V d (cV L') (jV L')) ∗ owes (V d (cV L') (jV L')) O W)
      ⊢ wp frame (wpE (defs₀ (F := F)) 𝒱₀ (V d (cV L') (jV L')) none) Set.univ
          (cc1__sc_select L' xV (Memref.isWhole_whole _) iV (Memref.isWhole_whole _) oV (Memref.isWhole_whole _) (Memref.whole cc1_scratch0) (Memref.isWhole_whole _) (Memref.whole cc1_scratch1) (Memref.isWhole_whole _) (Memref.whole cc1_scratch2) (Memref.isWhole_whole _) cc1_scoped0 cc1_scoped1 cc1_scoped2)
          fun _ => iprop(tdRes X I d L ∗ scopedBufs (V d (cV L') (jV L')) ∗ scopedSems0 (V d (cV L') (jV L')) ∗ ∃ W', ⌜∀ p ∈ W', p ∈ W ∨ p.2 = none⌝ ∗ owes (V d (cV L') (jV L')) O W') := by
  subst h; exact tile_body X I d L' hI O W hO

end Tile

/-! ## The launch theorem's obligation for the call's tasks -/

section Obl

variable (X : (d : Dev nD) → Buf (Elt F) (v2Loc d)) (I : (d : Dev nD) → Buf (Elt F) (v1Loc d))

/-- The grid coordinates as the program hands them to the kernel. -/
def coordsG (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_select (coordsG c s) xV (Memref.isWhole_whole _) iV (Memref.isWhole_whole _) oV (Memref.isWhole_whole _)
          (Memref.whole cc1_scratch0) (Memref.isWhole_whole _) (Memref.whole cc1_scratch1) (Memref.isWhole_whole _) (Memref.whole cc1_scratch2) (Memref.isWhole_whole _)
          cc1_scoped0 cc1_scoped1 cc1_scoped2) ⟨⟩ c s := rfl

omit [FloatOps F] in
/-- They are the coordinates of the call's SparseCore `c` and subcore `i`. -/
theorem coordsG_eq (c : Fin ((K (F := F)).nCore 0)) (i : Fin ((K (F := F)).nSub 0))
    (h1 : ((K (F := F)).core 0 c).val < grid1.bound 0) (h2 : ((K (F := F)).sub 0 i).val < grid1.bound 1) :
    coordsG ⟨((K (F := F)).core 0 c).val, h1⟩ ⟨((K (F := F)).sub 0 i).val, h2⟩ = coordsOf (F := F) c i := by
  funext a
  match a with
  | ⟨0, _⟩ => rfl
  | ⟨1, _⟩ => rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call runs the kernel's body at its own coordinates: from its slices to the selected scores. -/
theorem tileObl (hI : ∀ (d : Dev nD) (j : S1024.Idx), (I d j).toNat < 64) : (K (F := F)).TileObl (D (F := F)) 𝒱 (P X I) v₀ 0 := by
  intro d c i O W hO _ _
  simp only [show (P X I).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body' X I d (coordsOf c i) (coordsG ⟨_, hc.1⟩ ⟨_, hc.2⟩) (coordsG_eq c i hc.1 hc.2) (hI d) O W hO).trans (wp_mono frame _ _ fun _ => obl_post)

end Obl

end Cert.KernelIdeal.Hand
end
-- ==== Proof.KIReshape.lean ====
/-
  The three host reshapes of the program, read at an index.

  A reshape keeps every element's row-major position. The option column `[1024, 1]` and the flat options `[1024]` have
  entry `(b, 0)` and entry `b` at the same position `b`; the score matrix `[1024, 64]` has entry `(b, o)` at position
  `64·b + o`, which is word `64·b + o` of the flat scores; and the result column's entry `(b, 0)` is word `b` of the
  selected scores. In particular the flat options are below 64 wherever the option column is.
-/
import proofs.«205531_g87737591923446_cont_sun_m_531_28_alg».proof.Proof.KIArrays
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.Sem
open Idealize.ShloMosaic.ValueIdx

variable {F : FTy → Type} [FloatOps F]

variable (m : (ℓ : Loc nD τ sig) → Buf (Elt F) ℓ)

theorem Iarr_apply (d : Dev nD) (j : S1024.Idx) :
    Iarr m d j = m ((SparseCore.T d).loc main_arg1) (ValueIdx.ix2 (j 0) (0 : Fin 1)) := by
  unfold Iarr
  rw [StableHlo.reshape_result]
  show shapeCast S1024 (W0 m d a1') shapeCasts_S1024x1_S1024 j = _
  refine (shapeCast_apply _ _ j (ValueIdx.ix2 (j 0) (0 : Fin 1)) ?_).trans rfl
  rw [Shape.rowMajor_val_two, Shape.rowMajor_val_one]
  show (j 0).val * 1 + 0 = (j 0).val
  omega

theorem Xarr_apply (d : Dev nD) (b : Fin 1024) (o : Fin 64) :
    Xarr m d (ValueIdx.ix1 ⟨64 * b.val + o.val, by omega⟩) = scoresArr m (Otc0 (F := F)) d (ValueIdx.ix2 b o) := by
  unfold Xarr
  rw [StableHlo.reshape_result]
  show shapeCast S65536 (Function.update (W0 m d) v0' (scoresArr m (Otc0 (F := F)) d) v0') shapeCasts_S1024x64_S65536 _ = _
  rw [Function.update_self]
  refine shapeCast_apply _ _ _ (ValueIdx.ix2 b o) ?_
  rw [Shape.rowMajor_val_two, Shape.rowMajor_val_one]
  show b.val * 64 + o.val = 64 * b.val + o.val
  omega

theorem outArr_apply (d : Dev nD) (b : Fin 1024) :
    outArr m d (ValueIdx.ix2 b (0 : Fin 1)) = sel (Xarr m) (Iarr m) d (ValueIdx.ix1 b) := by
  unfold outArr
  rw [StableHlo.reshape_result]
  show shapeCast S1024x1 (Function.update (W0 m d) v3' (sel (Xarr m) (Iarr m) d) v3') shapeCasts_S1024_S1024x1 _ = _
  rw [Function.update_self]
  refine shapeCast_apply _ _ _ (ValueIdx.ix1 b) ?_
  rw [Shape.rowMajor_val_two, Shape.rowMajor_val_one]
  show b.val = b.val * 1 + 0
  omega

theorem Iarr_lt (h : ∀ (d : Dev nD) (j : S1024x1.Idx), (m ((SparseCore.T d).loc main_arg1) j).toNat < 64) :
    ∀ (d : Dev nD) (j : S1024.Idx), (Iarr m d j).toNat < 64 := fun d j => by
  rw [Iarr_apply]; exact h d _

end Cert.KernelIdeal.Hand

end
-- ==== Proof.KILaunch.lean ====
/-
  The launch of the kernel's program: the TensorCore's @main around the SparseCore call.

  @main runs the region (which leaves the scores in `main_v0`), flattens the options and the scores, starts the
  thirty-two vector subcores on their slices and waits for them, and reshapes the selected scores into the result.
  Every thread's proof is assembled by the SparseCore launch theorem; the three flat arrays are split into the
  subcores' slices before the call and joined after it.
-/
import proofs.«205531_g87737591923446_cont_sun_m_531_28_alg».proof.Proof.KICommon
import proofs.«205531_g87737591923446_cont_sun_m_531_28_alg».proof.Proof.KIRegionSeg
import proofs.«205531_g87737591923446_cont_sun_m_531_28_alg».proof.Proof.KIRegionBody
import proofs.«205531_g87737591923446_cont_sun_m_531_28_alg».proof.Proof.KIArrays
import proofs.«205531_g87737591923446_cont_sun_m_531_28_alg».proof.Proof.KISplit
import proofs.«205531_g87737591923446_cont_sun_m_531_28_alg».proof.Proof.KIFin
import proofs.«205531_g87737591923446_cont_sun_m_531_28_alg».proof.Proof.KITile
import proofs.«205531_g87737591923446_cont_sun_m_531_28_alg».proof.Proof.KIReshape

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element: the handshakes' rounds, the region's staging cells' rounds, the counters' unit -/

abbrev pin0 : Fin 1 → Pipeline.Cfg sig Λ₀ := Pipeline.pin (pcs0 (F := F)) adm0

def u₀ : UU :=
  (initOf (K (F := F)).hsCells (K (F := F)).hsToks,
    (initOf (Pipeline.cells (nD := nD) (τ := τ) (pin0 (F := F)) cellOf_inj) (Pipeline.launchToks (nD := nD) (τ := τ) (pin0 (F := F)) cellOf_inj), 1))

/-- What @main's proof starts from beside the launch's deal: the region's staging cells' ghost state and duty tokens. -/
def Gd (d : Dev nD) : sProp 𝕄 :=
  iprop(Pipeline.cellsGhost (pin0 (F := F)) ER 0 d ∗ Pipeline.toksInit (pin0 (F := F)) ER 0 d)

section Elem

variable (X : (d : Dev nD) → Buf (Elt F) (v2Loc d)) (I : (d : Dev nD) → Buf (Elt F) (v1Loc d))

omit [FloatOps F] in
theorem bigSep_emp' {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P X I).x q thr) := by
  unfold u₀
  iintro Hu
  ihave H := (ownU_pair _ _) $$ Hu
  icases H with ⟨HH, HR⟩
  ihave H2 := (own_pair_emb (embR : Emb (UR × Counters) 𝕄) _ _) $$ HR
  icases H2 with ⟨HP, -⟩
  ihave HP' := (Entails.of_eq (show (BI.own (((Emb.inl : Emb UR (UR × Counters)).trans (embR : Emb (UR × Counters) 𝕄)) _) : sProp 𝕄) = BI.own (ER _) from rfl)) $$ HP
  imod (Pipeline.fund_ghost (pin0 (F := F)) ER cellOf_inj) $$ HP' with ⟨Hg, Ht⟩
  imodintro
  isplitl [HH]; · iexact HH
  isplitl [Hg Ht]
  · unfold Gd
    rw [bigSep_sep']
    have e1 : ∀ (Φ : Fin 1 → sProp 𝕄), bigSep (Finset.univ : Finset (Fin 1)) Φ = Φ 0 := fun Φ => by
      rw [show (Finset.univ : Finset (Fin 1)) = {0} from rfl, bigSep_singleton]
    isplitl [Hg]
    · iapply (Entails.of_eq (bigSep_congr (fun d _ => e1 (fun p => Pipeline.cellsGhost (pin0 (F := F)) ER p d))))
      iexact Hg
    · iapply (Entails.of_eq (bigSep_congr (fun d _ => e1 (fun p => Pipeline.toksInit (pin0 (F := F)) ER p d))))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- The split of a SparseCore's share into its subcores' shares, and of their results back: the identity. -/
theorem vecSplit' : (K (F := F)).VecSplit' (P X I) 0 := by
  intro d c
  show (bigSep Finset.univ fun i : Fin ((K (F := F)).nSub 0) => goRes X I d (coordsOf c i))
    ⊢ |={Set.univ}=> iprop((bigSep Finset.univ fun i : Fin ((K (F := F)).nSub 0) => goRes X I d (coordsOf c i))
      ∗ ((bigSep Finset.univ fun i : Fin ((K (F := F)).nSub 0) => tdRes X I d (coordsOf c i)) -∗ bigSep Finset.univ fun i : Fin ((K (F := F)).nSub 0) => tdRes X I d (coordsOf c i)))
  iintro Hst
  imodintro
  isplitl [Hst]; · iexact Hst
  iintro Htd; iexact Htd

end Elem

/-! ## @main on the TensorCore -/

section Main

/-- The TensorCore's buffers after the region: `main_v0` at the region's array, the rest as launched. -/
def Vp (c : Dev nD) (b : Ref sig .tc) : Buf (Elt F) ((c : Thread nD τ).loc b) :=
  if h : b = main_v0 then h ▸ scoresArr m (Otc0 (F := F)) c else V0 m c b
theorem Vp_out (c : Dev nD) : Vp m c main_v0 = scoresArr m (Otc0 (F := F)) c := by unfold Vp; rw [dif_pos rfl]
theorem Vp_ne (c : Dev nD) (b : Ref sig .tc) (h : b ≠ main_v0) : Vp m c b = V0 m c b := by unfold Vp; rw [dif_neg h]

omit [FloatOps F] in
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1) ∗ (aLoc d main_arg2 ↦{fullShare} W main_arg2)
      ∗ (aLoc d main_arg3 ↦{fullShare} W main_arg3) ∗ (aLoc d main_arg4 ↦{fullShare} W main_arg4) ∗ (aLoc d main_arg5 ↦{fullShare} W main_arg5)
      ∗ (aLoc d main_v0 ↦{fullShare} W main_v0) ∗ (aLoc d main_v1 ↦{fullShare} W main_v1) ∗ (aLoc d main_v2 ↦{fullShare} W main_v2)
      ∗ (aLoc d main_v3 ↦{fullShare} W main_v3) ∗ (aLoc d main_v4 ↦{fullShare} W main_v4)) := by
  unfold unscopedBufs
  rw [show (Finset.univ.filter fun b : Ref sig .tc => ¬ b.isScoped) = {main_arg0, main_arg1, main_arg2, main_arg3, main_arg4, main_arg5, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The TensorCore's state before the call, its debts apart. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
theorem tcSt_zero (d : Dev nD) : (K (F := F)).tcSt EH d 0
    = iprop((∃ W, ⌜(K (F := F)).WBelow (SparseCore.T d) W (8 * 0)⌝ ∗ owes (SparseCore.T d) ((K (F := F)).Otc d 0) W) ∗ tcRest (F := F) d) := rfl

/-- The region's record at the launch memory. -/
abbrev regM : Pipeline.RegionSeg (pcs0 (F := F)) adm0 (dats m (Otc0 (F := F))) (none : HIx 1) (defs₀ (F := F)) 𝒱₀ (K (F := F)).L (K (F := F)).lev (0 : Fin 1) :=
  reg m (Otc0 (F := F)) (Vp m) (fun c => body_obligation m (Otc0 (F := F)) c) Otc0_none (Vp_out m) (Vp_ne m)
theorem regM_pre (d : Dev nD) : (regM m).pre d = iprop(unscopedBufs d (V0 m d) ∗ owesN (Otc0 (F := F)) d) := rfl
theorem regM_post (d : Dev nD) : (regM m).post d = iprop(unscopedBufs d (Vp m d) ∗ owesN (Otc0 (F := F)) d) := rfl

theorem unscopedBufs_Vp (d : Dev nD) :
    (unscopedBufs d (Vp m d) : sProp 𝕄) = iprop((aLoc d main_arg0 ↦{fullShare} m (aLoc d main_arg0)) ∗ (aLoc d main_arg1 ↦{fullShare} m (aLoc d main_arg1)) ∗ (aLoc d main_arg2 ↦{fullShare} m (aLoc d main_arg2))
      ∗ (aLoc d main_arg3 ↦{fullShare} m (aLoc d main_arg3)) ∗ (aLoc d main_arg4 ↦{fullShare} m (aLoc d main_arg4)) ∗ (aLoc d main_arg5 ↦{fullShare} m (aLoc d main_arg5))
      ∗ (aLoc d main_v0 ↦{fullShare} scoresArr m (Otc0 (F := F)) d) ∗ (aLoc d main_v1 ↦{fullShare} m (aLoc d main_v1)) ∗ (aLoc d main_v2 ↦{fullShare} m (aLoc d main_v2))
      ∗ (aLoc d main_v3 ↦{fullShare} m (aLoc d main_v3)) ∗ (aLoc d main_v4 ↦{fullShare} m (aLoc d main_v4))) := by
  rw [unscopedBufs_eq, Vp_out, Vp_ne m d main_arg0 (by decide), Vp_ne m d main_arg1 (by decide), Vp_ne m d main_arg2 (by decide), Vp_ne m d main_arg3 (by decide),
    Vp_ne m d main_arg4 (by decide), Vp_ne m d main_arg5 (by decide), Vp_ne m d main_v1 (by decide), Vp_ne m d main_v2 (by decide), Vp_ne m d main_v3 (by decide), Vp_ne m d main_v4 (by decide)]

omit [FloatOps F] in
theorem held_a1v1 (d : Dev nD) (V : Valuation τ sig (Elt F)) :
    (held (SparseCore.T d) {a1', v1'} V : sProp 𝕄) = iprop((aLoc d main_arg1 ↦{fullShare} V a1') ∗ (aLoc d main_v1 ↦{fullShare} V v1')) := by
  unfold held; rw [SparseCore.bigSep_insert' (by decide), bigSep_singleton]
omit [FloatOps F] in
theorem held_v0v2 (d : Dev nD) (V : Valuation τ sig (Elt F)) :
    (held (SparseCore.T d) {v0', v2'} V : sProp 𝕄) = iprop((aLoc d main_v0 ↦{fullShare} V v0') ∗ (aLoc d main_v2 ↦{fullShare} V v2')) := by
  unfold held; rw [SparseCore.bigSep_insert' (by decide), bigSep_singleton]
omit [FloatOps F] in
theorem held_v3v4 (d : Dev nD) (V : Valuation τ sig (Elt F)) :
    (held (SparseCore.T d) {v3', v4'} V : sProp 𝕄) = iprop((aLoc d main_v3 ↦{fullShare} V v3') ∗ (aLoc d main_v4 ↦{fullShare} V v4')) := by
  unfold held; rw [SparseCore.bigSep_insert' (by decide), bigSep_singleton]

omit [FloatOps F] in
theorem hsub1 : (op1 (F := F)).bufs ⊆ {a1', v1'} := show ({a1', v1'} : Finset (DevRef τ sig)) ⊆ {a1', v1'} from Finset.Subset.refl _
omit [FloatOps F] in
theorem hsub2 : (op2 (F := F)).bufs ⊆ {v0', v2'} := show ({v0', v2'} : Finset (DevRef τ sig)) ⊆ {v0', v2'} from Finset.Subset.refl _
omit [FloatOps F] in
theorem hsub3 : (op3 (F := F)).bufs ⊆ {v3', v4'} := show ({v3', v4'} : Finset (DevRef τ sig)) ⊆ {v3', v4'} from Finset.Subset.refl _

/-- After the first reshape: the option column untouched, the flat options named. -/
theorem held_op1 (d : Dev nD) : (held (SparseCore.T d) {a1', v1'} ((op1 (F := F)).result (W0 m d)) : sProp 𝕄)
    = iprop((aLoc d main_arg1 ↦{fullShare} m (aLoc d main_arg1)) ∗ (v1Loc d ↦{fullShare} Iarr m d)) := by
  rw [held_a1v1, (op1 (F := F)).result_of_not_mem (W0 m d) (b := a1') (show a1' ∉ ({v1'} : Finset (DevRef τ sig)) by decide)]; rfl
/-- After the second: the scores matrix untouched, the flat scores named. -/
theorem held_op2 (d : Dev nD) : (held (SparseCore.T d) {v0', v2'} ((op2 (F := F)).result (Function.update (W0 m d) v0' (scoresArr m (Otc0 (F := F)) d))) : sProp 𝕄)
    = iprop((aLoc d main_v0 ↦{fullShare} scoresArr m (Otc0 (F := F)) d) ∗ (v2Loc d ↦{fullShare} Xarr m d)) := by
  rw [held_v0v2, (op2 (F := F)).result_of_not_mem _ (b := v0') (show v0' ∉ ({v2'} : Finset (DevRef τ sig)) by decide), Function.update_self]; rfl
/-- After the third: the selected scores untouched, the result named. -/
theorem held_op3 (d : Dev nD) : (held (SparseCore.T d) {v3', v4'} ((op3 (F := F)).result (Function.update (W0 m d) v3' (sel (Xarr m) (Iarr m) d))) : sProp 𝕄)
    = iprop((v3Loc d ↦{fullShare} sel (Xarr m) (Iarr m) d) ∗ (v4Loc d ↦{fullShare} outArr m d)) := by
  rw [held_v3v4, (op3 (F := F)).result_of_not_mem _ (b := v3') (show v3' ∉ ({v4'} : Finset (DevRef τ sig)) by decide), Function.update_self]; rfl

theorem hmain (κ : GSem nD τ sig → ℕ) (d : Dev nD) :
    iprop((K (F := F)).ctx EH (P (Xarr m) (Iarr m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes Gd
  rw [tcSt_zero]
  simp only [main, wp_bind, wp_pure]
  iintro ⟨#Hctx, ⟨⟨%W, %hW, HO⟩, Hst'⟩, ⟨Hb, Hub, Hsems, Hprng⟩, ⟨Hg, Ht⟩⟩
  ihave Hlev := (SparseCore.Cfg.ctx_levAts κ) $$ Hctx
  -- the region: entered through the pipeline's signature, run by its segment rule
  iapply ((K (F := F)).wp_liftProg (D (F := F)) 𝒱 (SparseCore.T d) Set.univ none (Prog.lift (.customCall (Pipeline.entry 0) ())) _)
  iapply (Pipeline.RegionSeg.wp (pcs0 (F := F)) adm0 (dats m (Otc0 (F := F))) (none : HIx 1) cellOf_inj ER (defs₀ (F := F)) 𝒱₀ (K (F := F)).L (K (F := F)).lev
    (regM m) d none (fun u hu => nomatch hu) (fun x => .ret x) _)
  have hWn : ∀ p ∈ W, p.2 = none := fun p hp => by
    have h := hW p hp
    rcases hp2 : p.2 with _ | q
    · rfl
    · rw [hp2] at h; have := (K (F := F)).lev_some_pos (SparseCore.T d, p.1) q; omega
  isplitr [Hb Hub HO Hg Ht]
  swap
  · isplitl [Hb]; · iexact Hb
    isplitl [Hub HO]
    · iapply (Entails.of_eq (regM_pre m d).symm)
      isplitl [Hub]; · iexact Hub
      unfold owesN; iexists W; isplitr; · ipureintro; exact hWn
      iexact HO
    isplitr; · iexact Hlev
    isplitl [Hg] <;> iassumption
  iintro ⟨Hb, Hpost⟩
  ihave Hpost' := (Entails.of_eq (regM_post m d)) $$ Hpost
  icases Hpost' with ⟨Hub, HO⟩
  rw [wp_ret]; imodintro
  ihave Hl := (Entails.of_eq (unscopedBufs_Vp m d)) $$ Hub
  icases Hl with ⟨Ha0, Ha1, Ha2, Ha3, Ha4, Ha5, Hv0, Hv1, Hv2, Hv3, Hv4⟩
  -- the options flattened
  iapply (wp_hlo_within 𝒱 (SparseCore.T d) none Set.univ (op := op1 (F := F)) (S := {a1', v1'}) hsub1 (V := W0 m d)) $$ [Hb Ha1 Hv1]
  · isplitl [Hb]; · iexact Hb
    rw [held_a1v1]
    isplitl [Ha1]; · iexact Ha1
    iexact Hv1
  iintro ⟨Hb, Hheld⟩
  ihave Hh := (Entails.of_eq (held_op1 m d)) $$ Hheld
  icases Hh with ⟨Ha1, Hv1⟩
  rw [wp_ret]; imodintro
  -- the scores flattened
  iapply (wp_hlo_within 𝒱 (SparseCore.T d) none Set.univ (op := op2 (F := F)) (S := {v0', v2'}) hsub2
    (V := Function.update (W0 m d) v0' (scoresArr m (Otc0 (F := F)) d))) $$ [Hb Hv0 Hv2]
  · isplitl [Hb]; · iexact Hb
    rw [held_v0v2, Function.update_self, Function.update_of_ne (show v2' ≠ v0' by decide)]
    isplitl [Hv0]; · iexact Hv0
    iexact Hv2
  iintro ⟨Hb, Hheld⟩
  ihave Hh := (Entails.of_eq (held_op2 m d)) $$ Hheld
  icases Hh with ⟨Hv0, Hv2⟩
  rw [wp_ret]; imodintro
  -- the call: the three flat arrays split among the subcores, and joined after
  ihave Hgo := (split_go (Xarr m) (Iarr m) d) $$ [Hv2 Hv1 Hv3]
  · isplitl [Hv2]; · iexact Hv2
    isplitl [Hv1]; · iexact Hv1
    iexists _; iexact Hv3
  iapply ((K (F := F)).wp_run (D (F := F)) 𝒱 (EH := EH) (P := P (Xarr m) (Iarr m)) κ d 0) $$ [HO Hst' Hgo Hb Ha0 Ha1 Ha2 Ha3 Ha4 Ha5 Hv0 Hv4 Hsems Hprng]
  isplitr; · iexact Hctx
  isplitl [HO Hst']
  · iapply (Entails.of_eq (tcSt_zero (F := F) d).symm)
    isplitl [HO]
    · unfold owesN
      icases HO with ⟨%W2, %hW2, HO⟩
      iexists W2; isplitr
      · ipureintro; intro p hp; rw [hW2 p hp]; exact le_of_eq ((K (F := F)).lev_none _)
      iexact HO
    iexact Hst'
  isplitl [Hgo]; · iexact Hgo
  iintro ⟨Hst, Hdn⟩
  ihave Hdn' := (Entails.of_eq (show (bigSep Finset.univ fun c : Fin ((K (F := F)).nCore 0) => (P (Xarr m) (Iarr m)).dn 0 d c)
      = (bigSep Finset.univ fun c : Fin ((K (F := F)).nCore 0) => bigSep Finset.univ fun i : Fin ((K (F := F)).nSub 0) => tdRes (Xarr m) (Iarr m) d (coordsOf c i) : sProp 𝕄) from rfl)) $$ Hdn
  ihave Htd := (join_td (Xarr m) (Iarr m) d) $$ Hdn'
  icases Htd with ⟨Hv2, Hv1, Hv3⟩
  -- the result reshaped
  iapply (wp_hlo_within 𝒱 (SparseCore.T d) none Set.univ (op := op3 (F := F)) (S := {v3', v4'}) hsub3
    (V := Function.update (W0 m d) v3' (sel (Xarr m) (Iarr m) d))) $$ [Hb Hv3 Hv4]
  · isplitl [Hb]; · iexact Hb
    rw [held_v3v4, Function.update_self, Function.update_of_ne (show v4' ≠ v3' by decide)]
    isplitl [Hv3]; · iexact Hv3
    iexact Hv4
  iintro ⟨Hb, Hheld⟩
  ihave Hh := (Entails.of_eq (held_op3 m d)) $$ Hheld
  icases Hh with ⟨Hv3, Hv4⟩
  rw [wp_ret]; imodintro; imodintro
  isplitl [Hst]; · iexact Hst
  unfold FIN
  isplitl [Hv4]; · iexact Hv4
  isplitl [Ha0]; · iexact Ha0
  isplitl [Ha1]; · iexact Ha1
  isplitl [Ha2]; · iexact Ha2
  isplitl [Ha3]; · iexact Ha3
  isplitl [Ha4]; · iexact Ha4
  iexact Ha5

/-! ## The program's run -/

theorem run_main [∀ e, Nonempty (Elt F e)] (hopt : OptOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Xarr m) (Iarr m)) facts v₀
    (fun q hq => match q with | 0 => nomatch hq)
    (fun q _ => match q with | 0 => tileObl (Xarr m) (Iarr m) (Iarr_lt m hopt))
    (fun q _ => match q with | 0 => SparseCore.Cfg.VecSplit.of_plain (vecSplit' (Xarr m) (Iarr m)))
    m ρ main (fun d => Gd (F := F) d) (FIN m) (u₀ (F := F)) (sep_elim_left.trans (hu₀ (Xarr m) (Iarr m))) (hmain m ρ) (fq m) (hfin m) (QC m)
    (fun s' h => hQ m s' h)

end Main

end Cert.KernelIdeal.Hand

end
-- ==== Proof.KBCommon.lean ====
/-
  The kernel's program as the SparseCore launch theorem sees it, and what each vector subcore is handed.

  The device computes in two steps. A TensorCore region leaves in `main_v0` the matrix of scores
  `scores[b, o] = Σ_i state[b, i] · v[o, i]`; @main flattens it into `main_v2` (65536 words) and flattens the
  option column into `main_v1` (1024 words). Then thirty-two vector subcores, numbered `w = 2·s + c` (subcore
  `s` of SparseCore `c`), each copy words `[2048·w, 2048·w + 2048)` of the flat scores and words
  `[32·w, 32·w + 32)` of the options into their own memory, pick for each of their 32 rows `r` the word
  `64·r + option`, and copy the 32 picked words to `main_v3[32·w + r]`. So, with every option in `[0, 64)`,
  `main_v3[j] = main_v2[64·j + main_v1[j]]`: one function `sel` of the two flat arrays, of which each subcore
  writes the restriction to its own 32 words.
-/
import proofs.«205531_g87737591923446_cont_sun_m_531_28_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«205531_g87737591923446_cont_sun_m_531_28_alg».proof.Proof.Gen.Kernel
import proofs.«205531_g87737591923446_cont_sun_m_531_28_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the region's staging cells' rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The three flat arrays and a subcore's slices of them -/

abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The flat scores, the flat options and the result as a vector subcore's kernel names them. -/
abbrev xV : Memref sig .scVector .hbm S65536 .f32 := Memref.whole main_v2_scv
abbrev iV : Memref sig .scVector .hbm S1024 .i32 := Memref.whole main_v1_scv
abbrev oV : Memref sig .scVector .hbm S1024 .f32 := Memref.whole main_v3_scv

/-- The slices the task at grid coordinates `L` (SparseCore `L 0`, subcore `L 1`) copies from and to, spelt as the
    kernel slices them. -/
abbrev xBlk (L : grid1.Coords) : Memref sig .scVector .hbm S2048 .f32 :=
  (xV).slice (Rect.unit (s := S65536) (k1_off1 L) S2048.size (k1_off1_inb L)) (fun _ => rfl)
abbrev iBlk (L : grid1.Coords) : Memref sig .scVector .hbm S32 .i32 :=
  (iV).slice (Rect.unit (s := S1024) (k1_off2 L) S32.size (k1_off2_inb L)) (fun _ => rfl)
abbrev oBlk (L : grid1.Coords) : Memref sig .scVector .hbm S32 .f32 :=
  (oV).slice (Rect.unit (s := S1024) (k1_off3 L) S32.size (k1_off3_inb L)) (fun _ => rfl)

/-- The sets of words of the three arrays those slices cover. -/
abbrev xSet (L : grid1.Coords) : Finset S65536.Idx := (xBlk L).view.set
abbrev iSet (L : grid1.Coords) : Finset S1024.Idx := (iBlk L).view.set
abbrev oSet (L : grid1.Coords) : Finset S1024.Idx := (oBlk L).view.set

/-- Word `64·j + (opt j mod 64)` of the flat scores: in range for every `j < 1024`. -/
def selIdx (opt : S1024.Idx → BitVec 32) (j : S1024.Idx) : S65536.Idx :=
  ValueIdx.ix1 ⟨64 * (j 0).val + (opt j).toNat % 64, by have := (j 0).isLt; show _ < 65536; have h : (j 0).val < 1024 := this; omega⟩

/-! ## What a vector subcore is handed and what it hands back -/

section Res

variable (X : (d : Dev nD) → Buf (Elt F) (v2Loc d)) (I : (d : Dev nD) → Buf (Elt F) (v1Loc d))

/-- The selected scores: word `j` of the result is word `64·j + option j` of the flat scores. -/
def sel (d : Dev nD) : Buf (Elt F) (v3Loc d) := fun j => X d (selIdx (I d) j)

/-- The task at `L` is handed its slice of the flat scores and of the flat options, at the contents `X`, `I` the
    TensorCore left, and its slice of the result at whatever it holds; -/
def goRes (d : Dev nD) (L : grid1.Coords) : sProp 𝕄 :=
  iprop((v2Loc d ↦[xSet L]{fullShare} X d) ∗ (v1Loc d ↦[iSet L]{fullShare} I d) ∗ ∃ f : Buf (Elt F) (v3Loc d), v3Loc d ↦[oSet L]{fullShare} f)
/-- and hands them back, its slice of the result holding the selected scores. -/
def tdRes (d : Dev nD) (L : grid1.Coords) : sProp 𝕄 :=
  iprop((v2Loc d ↦[xSet L]{fullShare} X d) ∗ (v1Loc d ↦[iSet L]{fullShare} I d) ∗ (v3Loc d ↦[oSet L]{fullShare} sel X I d))

/-- Grid coordinates from a SparseCore and a subcore of the call's grid. -/
def coordsOf (c : Fin ((K (F := F)).nCore 0)) (i : Fin ((K (F := F)).nSub 0)) : grid1.Coords :=
  fun | 0 => Fin.cast nCore_zero c | 1 => Fin.cast nSub_zero i | ⟨_ + 2, h⟩ => absurd h (Nat.not_lt.2 (Nat.le_add_left _ _))

/-- The one call's payloads: a SparseCore's share is its sixteen subcores' shares, so the split is the identity. -/
def P : (K (F := F)).Pay (nD := nD) (Val := Elt F) (Name := ℕ) (U := UU) where
  st := fun q d c => match q with | 0 => bigSep Finset.univ fun i : Fin ((K (F := F)).nSub 0) => goRes X I d (coordsOf c i)
  dn := fun q d c => match q with | 0 => bigSep Finset.univ fun i : Fin ((K (F := F)).nSub 0) => tdRes X I d (coordsOf c i)
  go := fun q d c i => match q with | 0 => goRes X I d (coordsOf c i)
  td := fun q d c i => match q with | 0 => tdRes X I d (coordsOf c i)
  x := fun _ _ => iprop(emp)

instance goRes_storable (d : Dev nD) (L : grid1.Coords) : BI.Storable (upEmb : UEmb _ 𝕄) (goRes X I d L) := by unfold goRes; infer_instance
instance tdRes_storable (d : Dev nD) (L : grid1.Coords) : BI.Storable (upEmb : UEmb _ 𝕄) (tdRes X I d L) := by unfold tdRes; infer_instance

instance P_storable : (P (F := F) X I).IsStorable where
  st q d c := match q with | 0 => (inferInstance : BI.Storable (upEmb : UEmb _ 𝕄) (bigSep Finset.univ fun i : Fin ((K (F := F)).nSub 0) => goRes X I d (coordsOf c i)))
  dn q d c := match q with | 0 => (inferInstance : BI.Storable (upEmb : UEmb _ 𝕄) (bigSep Finset.univ fun i : Fin ((K (F := F)).nSub 0) => tdRes X I d (coordsOf c i)))
  go q d c i := match q with | 0 => (inferInstance : BI.Storable (upEmb : UEmb _ 𝕄) (goRes X I d (coordsOf c i)))
  td q d c i := match q with | 0 => (inferInstance : BI.Storable (upEmb : UEmb _ 𝕄) (tdRes X I d (coordsOf c i)))

end Res

end Cert.Kernel.Hand

end
-- ==== Proof.KBRegion.lean ====
/-
  The TensorCore region of the kernel: a grid of three points over one scratch matrix.

  Points 0 and 1 each read one half (32 options) of the three weight arrays and store into rows `[32·t, 32·t + 32)`
  of the scratch the rows `v[o, ·] = Σ_{h1} (Σ_{h2} l3[o, h2] · l2[o, h1, h2]) · l1[o, ·, h1]` of those options;
  point 2 reads the whole state and the whole scratch and stores `state · vᵀ` into the output block, which is the
  whole output array and is written back after that point only. So the scratch after `n` points agrees with one
  fixed matrix `Vmat` on its first `32·min n 2` rows, and the array the region leaves is the second product at `Vmat`.
-/
import proofs.«205531_g87737591923446_cont_sun_m_531_28_alg».proof.Proof.KBCommon
import proofs.«205531_g87737591923446_cont_sun_m_531_28_alg».proof.Proof.Gen.Kernel.Launch
import proofs.«205531_g87737591923446_cont_sun_m_531_28_alg».proof.Proof.Gen.Kernel.Points
import Idealize.ShloMosaic.Lib.Pipeline.FrameBody
import Idealize.ShloMosaic.Lib.Pipeline.Regions
import Idealize.ShloMosaic.Lib.Pipeline.RegionsLoop

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The TensorCore's buffers when the region is entered: as launched (the region is @main's first line). -/
abbrev V0 (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- The grid point that fills scratch row `r`: point `r / 32`. -/
def ptOf (r : Fin 64) : Fin cfg0.N := ⟨r.val / 32, by have := r.isLt; rw [show cfg0.N = 3 from N_0]; omega⟩

/-- The matrix the scratch holds once points 0 and 1 have run. -/
def Vmat (c : Dev nD) : Vec F S64x512 .f32 := fun y =>
  k0_pay1 (iblk m c 0 (ptOf (y 0))) (iblk m c 1 (ptOf (y 0))) (iblk m c 2 (ptOf (y 0)))
    (ValueIdx.ix2 (⟨(y 0).val % 32, Nat.mod_lt _ (by decide)⟩ : Fin 32) (y 1))

/-- What the region leaves in the output block (the whole of `main_v0`). -/
def scoresOut (c : Dev nD) : Vec F S1024x64 .f32 := k0_pay2 (iblk m c 3 t0_2) (Vmat m c)

/-! ## The proof data -/

/-- The scratch matrix as a location of core `c`. -/
abbrev scrLoc (c : Dev nD) : Loc nD τ sig := (c : Thread nD τ).loc cc0_scratch0

/-- After `n` points the scratch's first `32·min n 2` rows are `Vmat`'s. -/
def ScrInv (c : Dev nD) (n : ℕ) (f : Buf (Elt F) (scrLoc c)) : Prop :=
  ∀ (r : Fin 64) (k : Fin 512), r.val < 32 * min n 2 → f (ValueIdx.ix2 r k) = Vmat m c (ValueIdx.ix2 r k)

/-- The region's invariant between points: the scratch whole, at contents that agree with `Vmat` so far. -/
def ΦS (c : Dev nD) (n : Fin (cfg0.N + 1)) : sProp 𝕄 :=
  iprop(∃ f : Buf (Elt F) (scrLoc c), ⌜ScrInv m c n.val f⌝ ∗ scrLoc c ↦{fullShare} f)

/-- The proof data of the one pipeline on core `c`, the core owing `O` throughout: the arrays as launched; each input's
    buffer at its block; the output's at the scores; the scratch tracked by `ΦS`. -/
def dats (O : Dev nD → CellTallies nD τ sig (HIx 1)) (_ : Fin 1) (c : Dev nD) : Dat τ (Elt F) (HIx 1) ℕ UU ℕ cfg0 c where
  A w := V0 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scoresOut m c
  Φ n := ΦS m c n
  q _ := fullShare
  owed _ := O c
  recorded _ := {p | p.2 = none}

variable (O : Dev nD → CellTallies nD τ sig (HIx 1))

theorem A_eq (c : Dev nD) (w : Fin cfg0.W) : (dats m O 0 c).A w = V0 m c (Pipeline.arrRef spec0 w) := by dsimp only [dats]
theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = scoresOut m c := by dsimp only [dats]

/-- Each input's current staging buffer holds its block at every point, fetched there or not. -/
theorem before0_0 (c : Dev nD) (t : Fin cfg0.N) (d) : (dats m O 0 c).before 0 t d = iblk m c 0 t :=
  ((dats m O 0 c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)

theorem before0_1 (c : Dev nD) (t : Fin cfg0.N) (d) : (dats m O 0 c).before 1 t d = iblk m c 1 t :=
  ((dats m O 0 c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)
theorem before0_2 (c : Dev nD) (t : Fin cfg0.N) (d) : (dats m O 0 c).before 2 t d = iblk m c 2 t :=
  ((dats m O 0 c).before_in_eq_fetched 2 rfl (fun _ => rfl) (fun _ _ _ => rfl) (fun t => by rw [after0_2]; unfold Dat.blockOf iblk; rw [A_eq]) t d).trans
    (by unfold Dat.fetched Dat.blockOf iblk; rw [A_eq]; try rfl)
theorem before0_3 (c : Dev nD) (t : Fin cfg0.N) (d) : (dats m O 0 c).before 3 t d = iblk m c 3 t :=
  ((dats m O 0 c).before_in_eq_fetched 3 rfl (fun _ => rfl) (fun _ _ _ => rfl) (fun t => by rw [after0_3]; unfold Dat.blockOf iblk; rw [A_eq]) t d).trans
    (by unfold Dat.fetched Dat.blockOf iblk; rw [A_eq]; try rfl)

/-! ## The region as a segment of @main -/

abbrev pcs0 : Fin 1 → Pipeline.PCfg sig Λ₀ (Elt F) := fun p => (cfgs p).toPCfg
abbrev adm0 : (p : Fin 1) → (pcs0 (F := F) p).Adm := fun p => (cfgs p).toPCfg_adm

/-- What the core owes through the region, with its recorded waits all at the kernels' own index. -/
def owesN (c : Dev nD) : sProp 𝕄 := iprop(∃ W : Waits sig (HIx 1), ⌜∀ p ∈ W, p.2 = none⌝ ∗ owes (c : Thread nD τ) (O c) W)

/-- The array the region leaves in `main_v0`. -/
def scoresArr (c : Dev nD) : Buf (Elt F) ((c : Thread nD τ).loc main_v0) := (dats m O 0 c).arrAt 4 cfg0.N

end Cert.Kernel.Hand

end
-- ==== Proof.KBRegionSeg.lean ====
/-
  The TensorCore region as a segment of @main: what it is entered from and what it leaves.

  The region is entered from the TensorCore's unscoped buffers as launched and the debts the launch protocol has the
  core owe; the pipeline's own waits sit at the kernels' own index, below all of those debts. It leaves `main_v0` at
  the array the proof data computes from the three grid points, every other unscoped buffer as it was, and the same debts.
-/
import proofs.«205531_g87737591923446_cont_sun_m_531_28_alg».proof.Proof.KBRegion

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (O : Dev nD → CellTallies nD τ sig (HIx 1))

/-- The pipeline's own waits, at the kernels' index, sit below everything the core owes the launch protocol. -/
theorem hwaits0 (hO : ∀ c g, O c g none = 0) (c : Dev nD) :
    (levAts (K (F := F)).L (K (F := F)).lev : sProp 𝕄) ⊢ Pipeline.cellsWaits (Pipeline.pin (pcs0 (F := F)) adm0) (dats m O) (none : HIx 1) 0 c :=
  Pipeline.cellsWaits_of_cut (Pipeline.pin (pcs0 (F := F)) adm0) (dats m O) (none : HIx 1) 0 c (0 : ℕ) (O c) (fun _ => rfl)
    (fun _ _ => Finset.mem_univ _) (fun _ _ => le_rfl)
    (fun g i h => ⟨Finset.mem_univ _, by
      cases i with
      | none => rw [hO c g] at h; exact absurd h (Nat.lt_irrefl 0)
      | some q => exact (K (F := F)).lev_some_pos g q⟩)

variable (Vp : (c : Dev nD) → (b : Ref sig .tc) → Buf (Elt F) ((c : Thread nD τ).loc b))

set_option backward.isDefEq.respectTransparency.types false in
/-- The region's record: entered from the unscoped buffers as launched and the core's debts; left with `main_v0` at the
    array the proof data computes, every other unscoped buffer untouched (`Vp`), the same debts. -/
def reg (hbody : ∀ c, Pipeline.BodyObligation (dats m O 0 c) (defs₀ (F := F)) 𝒱₀ (none : HIx 1) Set.univ) (hO : ∀ c g, O c g none = 0) (hVp_out : ∀ c, Vp c main_v0 = scoresArr m O c)
    (hVp_ne : ∀ c (b : Ref sig .tc), b ≠ main_v0 → Vp c b = V0 m c b) :
    Pipeline.RegionSeg (pcs0 (F := F)) adm0 (dats m O) (none : HIx 1) (defs₀ (F := F)) 𝒱₀ (K (F := F)).L (K (F := F)).lev (0 : Fin 1) where
  win := launch0.win.to₀
  block_pos := launch0.block_pos
  stage_whole := launch0.stage_whole
  K := PEmpty
  osem := fun k => k.elim
  ho := Pipeline.OwnSemFacts.none _
  hbody := fun c => (hbody c).loose
  hwaits := hwaits0 m O hO
  pre := fun c => iprop(unscopedBufs c (V0 m c) ∗ owesN O c)
  post := fun c => iprop(unscopedBufs c (Vp c) ∗ owesN O c)
  X := fun _ => BI.emp
  Y := fun _ => BI.emp
  Z := fun c => Pipeline.unscopedRest (Ix := HIx 1) (Name := ℕ) (U := UU) (Lvl := ℕ) spec0 c (V0 m c)
  hentry := fun c => by
    rw [Pipeline.ownSems0_none]
    have hsplit := Pipeline.arrays_of_unscopedBufs (p := 0) (pcs0 (F := F)) adm0 (dats m O) launch0.win launch0.arr_whole c
      ((dats m O 0 c).share_full fun _ => rfl) (V0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesN
      icases HO with ⟨%W, %hW, HO⟩; iexists W; isplitr; · ipureintro; exact fun p hp => Or.inl (hW p (Finset.mem_coe.mp hp))
      iexact HO
    isplitr; · iempintro
    iexact Hrest
  hin := fun c => by
    rw [show (dats m O 0 c).Φ 0 = ΦS m c 0 from rfl, scopedRest0_eq]
    unfold ΦS
    iintro ⟨-, -, ⟨%f, Hf⟩⟩
    iexists f; isplitr
    · ipureintro; intro r k h; exact absurd h (by simp)
    · iexact Hf
  hout := fun c => by
    rw [Pipeline.ownSems0_none, show (dats m O 0 c).Φ (Fin.last _) = ΦS m c (Fin.last _) from rfl, scopedRest0_eq]
    unfold ΦS
    iintro ⟨%f, -, Hf⟩
    isplitr; · iempintro
    isplitr; · iempintro
    iexists f; iexact Hf
  hexit := fun c => by
    have hjoin := Pipeline.unscopedBufs_of_arrays (p := 0) (pcs0 (F := F)) adm0 (Ix := HIx 1) (Name := ℕ) (U := UU) (Lvl := ℕ) launch0.win launch0.arr_whole c
      (dats m O) ((dats m O 0 c).share_full fun _ => rfl) (V0 m c) (Vp c) ((dats m O 0 c).arrAt · cfg0.N)
      (fun w => by
        fin_cases w
        · exact ((dats m O 0 c).arrAt_in 0 rfl _).trans (hVp_ne c main_arg3 (by decide)).symm
        · exact ((dats m O 0 c).arrAt_in 1 rfl _).trans (hVp_ne c main_arg4 (by decide)).symm
        · exact ((dats m O 0 c).arrAt_in 2 rfl _).trans (hVp_ne c main_arg5 (by decide)).symm
        · exact ((dats m O 0 c).arrAt_in 3 rfl _).trans (hVp_ne c main_arg0 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin owesN
    icases HO with ⟨%W, %hW, HO⟩; iexists W; isplitr
    · ipureintro; intro p hp
      rcases hW (Finset.mem_coe.mpr hp) with h | ⟨w, s, rfl⟩
      · exact h
      · rfl
    iexact HO

end Cert.Kernel.Hand

end
-- ==== Proof.KBBody.lean ====
import proofs.«205531_g87737591923446_cont_sun_m_531_28_alg».proof.Proof.KBCommon
import proofs.«205531_g87737591923446_cont_sun_m_531_28_alg».proof.Proof.Gen.Kernel
import proofs.«205531_g87737591923446_cont_sun_m_531_28_alg».proof.Proof.Gen.Kernel.Skeleton
import Idealize.ShloMosaic.Lib.Exec
import Idealize.ShloMosaic.Lib.Pipeline.Value

/-!
# The dense body in its two control cases

The body at grid point `i ∈ {0, 1, 2}` does one of two things.

* At `i < 2` (first phase) it reads three blocks whole — a 32 × 512 × 128 block, a 32 × 128 × 128 block and a
  32 × 128 × 1 block of the three layers — and overwrites rows `[32·i, 32·i + 32)` of the 64 × 512 scratch with
  the first payload computed from them.  The second branch is not taken.
* At `i = 2` (second phase) the first branch is not taken; it reads the 1024 × 512 state block and the whole
  scratch, and overwrites the whole 1024 × 64 output block with the second payload computed from those two.

Each case is stated as a weakest-precondition triple over ARBITRARY whole staging buffers, for any interpretation
of the real-valued operations: the buffers are held at given contents, and the continuation receives them back,
the untouched ones unchanged and the written one at an explicit function of the inputs.

For the first phase that function is `scrA`: the old scratch with one band of 32 rows replaced.  A single store
through a rectangle, read back through any view of the buffer, is the payload inside the rectangle and the old
contents outside; the rectangle here is `32` full rows starting at row `32·i`, so membership is the condition
`32·i ≤ row < 32·i + 32` and the position inside the band is `row − 32·i`.

For the second phase the one store covers the whole block, so what is read back is the payload itself,
whatever the block held before.
-/
set_option maxRecDepth 16384

noncomputable section

namespace Cert.Kernel.Hand

open Cert.Kernel Cert.Kernel.Gen

open Idealize.ShloMosaic
open Idealize.ShloMosaic.Tactic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.ValueIdx

/-- What the scratch holds after the first-phase body at grid point `i`: rows `[32·i, 32·i + 32)` are the
first payload, every other row is as before. -/
def scrA (i : grid0.Coords) (x1 : Vec F S32x512x128 .f32) (x2 : Vec F S32x128x128 .f32) (x3 : Vec F S32x128x1 .f32)
    (s : Vec F S64x512 .f32) : Vec F S64x512 .f32 := fun y =>
  if h : 32 * (i 0).val ≤ (y 0).val ∧ (y 0).val < 32 * (i 0).val + 32 then
    k0_pay1 x1 x2 x3 (ix2 (⟨(y 0).val - 32 * (i 0).val, by omega⟩ : Fin 32) (⟨(y 1).val, idx2_lt1 y⟩ : Fin 512))
  else s y

/-- The same at explicit coordinates. -/
theorem scrA_apply (i : grid0.Coords) (hc1 : k0_cond1 i = 1#1) (x1 : Vec F S32x512x128 .f32) (x2 : Vec F S32x128x128 .f32)
    (x3 : Vec F S32x128x1 .f32) (s : Vec F S64x512 .f32) (r : Fin 64) (k : Fin 512) :
    scrA i x1 x2 x3 s (ValueIdx.ix2 r k)
      = if h : 32 * (i 0).val ≤ r.val ∧ r.val < 32 * (i 0).val + 32 then
          k0_pay1 x1 x2 x3 (ValueIdx.ix2 ⟨r.val - 32 * (i 0).val, by omega⟩ k)
        else s (ValueIdx.ix2 r k) := rfl

/-- The row offset of the rows written at grid point `i` is `32·i`, -/
theorem off1_0 (i : grid0.Coords) : k0_off1 i 0 = 32 * (i 0).val := by rw [k0_off1_eq]; rfl
/-- and the column offset is 0. -/
theorem off1_1 (i : grid0.Coords) : k0_off1 i 1 = 0 := by rw [k0_off1_eq]; rfl

/-- One store of the first payload over 32 full rows, read back through any view of the scratch: inside the
rows it is the payload (at the row's position within the block), outside it is what was there. -/
theorem read_rows {κ : Kind} {sp : Space} (v : View sig κ sp S64x512 .f32) (f : v.ty.Contents (Elt F)) (i : grid0.Coords)
    (inb : ∀ a, (k0_off1 i) a + S32x512.size a ≤ S64x512.size a)
    (x1 : Vec F S32x512x128 .f32) (x2 : Vec F S32x128x128 .f32) (x3 : Vec F S32x128x1 .f32) :
    v.read (Elt F) (v.writes (Elt F) f [⟨Rect.unit (s := S64x512) (k0_off1 i) S32x512.size inb, k0_pay1 x1 x2 x3⟩])
      = scrA i x1 x2 x3 (v.read (Elt F) f) := by
  funext y
  by_cases hy : y ∈ (Rect.unit (s := S64x512) (k0_off1 i) S32x512.size inb).set
  · obtain ⟨x, rfl⟩ : ∃ x, (Rect.unit (s := S64x512) (k0_off1 i) S32x512.size inb).emb x = y :=
      (Rect.unit (s := S64x512) (k0_off1 i) S32x512.size inb).exists_idx_of_mem hy
    rw [View.read_writes_cons_emb]
    have e0 : ((Rect.unit (s := S64x512) (k0_off1 i) S32x512.size inb).emb x 0).val = 32 * (i 0).val + (x 0).val := by
      rw [Rect.emb_apply]; simp only [Rect.off_unit, Rect.stride_unit, off1_0]; omega
    have e1 : ((Rect.unit (s := S64x512) (k0_off1 i) S32x512.size inb).emb x 1).val = (x 1).val := by
      rw [Rect.emb_apply]; simp only [Rect.off_unit, Rect.stride_unit, off1_1]; omega
    have hx0 : (x 0).val < 32 := (x 0).isLt
    have hx1 : (x 1).val < 512 := (x 1).isLt
    unfold scrA
    rw [dif_pos ⟨by omega, by omega⟩]
    refine congrArg (k0_pay1 x1 x2 x3) (funext fun a => ?_)
    match a with
    | ⟨0, _⟩ => exact Fin.ext (by
        show (x 0).val = ((Rect.unit (s := S64x512) (k0_off1 i) S32x512.size inb).emb x 0).val - 32 * (i 0).val
        omega)
    | ⟨1, _⟩ => exact Fin.ext (by
        show (x 1).val = ((Rect.unit (s := S64x512) (k0_off1 i) S32x512.size inb).emb x 1).val
        omega)
  · rw [View.read_writes_apply_of_forall_not_mem v f y _ (by intro p hp; rw [List.mem_singleton] at hp; subst hp; exact hy)]
    unfold scrA
    rw [dif_neg]
    rintro ⟨hlo, hhi⟩
    apply hy
    rw [Rect.mem_set_unit]
    intro a
    have h1 := idx2_lt1 y
    have o0 := off1_0 i
    have o1 := off1_1 i
    match a with
    | ⟨0, _⟩ => exact ⟨by show k0_off1 i 0 ≤ (y 0).val; omega, by show (y 0).val < k0_off1 i 0 + 32; omega⟩
    | ⟨1, _⟩ => exact ⟨by show k0_off1 i 1 ≤ (y 1).val; omega, by show (y 1).val < k0_off1 i 1 + 512; omega⟩

/-- The all-zero offsets, as the printed loads and stores spell them. -/
theorem zeros3 : (![0, 0, 0] : Fin 3 → ℕ) = fun _ => 0 := by funext a; fin_cases a <;> rfl
theorem zeros2 : (![0, 0] : Fin 2 → ℕ) = fun _ => 0 := by funext a; fin_cases a <;> rfl

/-- One store through the whole-shape rectangle, read back through any view, is its payload. -/
theorem read_whole_store {κ : Kind} {sp : Space} {S : Shape} {e : EltTy} {Val : EltTy → Type} (v : View sig κ sp S e)
    (f : v.ty.Contents Val) {off : Fin S.rank → Nat} (h : off = fun _ => 0) (inb : ∀ a, off a + S.size a ≤ S.size a)
    (w : S.Idx → Val e) : v.read Val (v.writes Val f [⟨Rect.unit off S.size inb, w⟩]) = w := by
  subst h
  funext y
  have e := View.read_writes_cons_emb v f (Rect.whole S) w [] y
  rw [Rect.emb_whole_apply] at e
  exact e

set_option maxHeartbeats 1000000 in
/-- THE FIRST-PHASE BODY (grid points 0 and 1): on whole staging buffers holding the three layer blocks and the
scratch, the body runs to its continuation with the three blocks unchanged and the scratch's 32 rows of this
grid point replaced by the first payload. -/
theorem bodyA (c : Dev nD) (i : grid0.Coords) (arg1 : Memref sig .tc .vmem S32x512x128 .f32) (harg1 : arg1.IsWhole) (arg2 : Memref sig .tc .vmem S32x128x128 .f32) (harg2 : arg2.IsWhole) (arg3 : Memref sig .tc .vmem S32x128x1 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S64x512 .f32) (harg6 : arg6.IsWhole)
    (hc1 : k0_cond1 i = 1#1) (hc2 : ¬ k0_cond2 i = 1#1)
    (x1 : Vec F S32x512x128 .f32) (x2 : Vec F S32x128x128 .f32) (x3 : Vec F S32x128x1 .f32) (s : Vec F S64x512 .f32)
    (E : Set ℕ) (Kt : PUnit → sProp 𝕄) :
    iprop(owns (c : Thread nD τ) arg1 fullShare x1 ∗ owns (c : Thread nD τ) arg2 fullShare x2 ∗ owns (c : Thread nD τ) arg3 fullShare x3 ∗ owns (c : Thread nD τ) arg6 fullShare s
        ∗ (iprop(owns (c : Thread nD τ) arg1 fullShare x1 ∗ owns (c : Thread nD τ) arg2 fullShare x2 ∗ owns (c : Thread nD τ) arg3 fullShare x3 ∗ owns (c : Thread nD τ) arg6 fullShare (scrA i x1 x2 x3 s)) -∗ Kt ⟨⟩))
      ⊢ wp frame (wpE (defs₀ (F := F)) 𝒱₀ c none) E (cc0__scores_body i arg1 harg1 arg2 harg2 arg3 harg3 arg4 harg4 arg5 harg5 arg6 harg6) Kt := by
  simp only [cc0__scores_body_eq_skeleton]; unfold cc0__scores_body_skel
  unfold owns
  iintro ⟨⟨%f1, %hf1, H1⟩, ⟨%f2, %hf2, H2⟩, ⟨%f3, %hf3, H3⟩, ⟨%f6, %hf6, H6⟩, Hk⟩
  obtain rfl := harg1.eq_unread hf1; obtain rfl := harg2.eq_unread hf2; obtain rfl := harg3.eq_unread hf3; obtain rfl := harg6.eq_unread hf6
  sl_exec (disch := first | exact hc1 | exact hc2)
  sl_step
  simp only [View.readAt_eq_ld, harg1.read_unread, harg2.read_unread, harg3.read_unread,
    View.ld_unit_zero (S := S32x512x128) zeros3, View.ld_unit_zero (S := S32x128x128) zeros3, View.ld_unit_zero (S := S32x128x1) zeros3]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  · ipureintro
    exact (read_rows arg6.view (harg6.unread s) i (k0_off1_inb i hc1) x1 x2 x3).trans (congrArg (scrA i x1 x2 x3) (harg6.read_unread s))
  iexact H6

set_option maxHeartbeats 1000000 in
/-- THE SECOND-PHASE BODY (grid point 2): on whole staging buffers holding the state block, the scratch and the
output block (at whatever it holds), the body runs to its continuation with the state and the scratch unchanged and
the output block holding the second payload. -/
theorem bodyB (c : Dev nD) (i : grid0.Coords) (arg1 : Memref sig .tc .vmem S32x512x128 .f32) (harg1 : arg1.IsWhole) (arg2 : Memref sig .tc .vmem S32x128x128 .f32) (harg2 : arg2.IsWhole) (arg3 : Memref sig .tc .vmem S32x128x1 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S64x512 .f32) (harg6 : arg6.IsWhole)
    (hc1 : ¬ k0_cond1 i = 1#1) (hc2 : k0_cond2 i = 1#1)
    (x4 : Vec F S1024x512 .f32) (s : Vec F S64x512 .f32)
    (E : Set ℕ) (Kt : PUnit → sProp 𝕄) :
    iprop(owns (c : Thread nD τ) arg4 fullShare x4 ∗ owns (c : Thread nD τ) arg6 fullShare s ∗ (∃ o, owns (c : Thread nD τ) arg5 fullShare o)
        ∗ (iprop(owns (c : Thread nD τ) arg4 fullShare x4 ∗ owns (c : Thread nD τ) arg6 fullShare s ∗ owns (c : Thread nD τ) arg5 fullShare (k0_pay2 x4 s)) -∗ Kt ⟨⟩))
      ⊢ wp frame (wpE (defs₀ (F := F)) 𝒱₀ c none) E (cc0__scores_body i arg1 harg1 arg2 harg2 arg3 harg3 arg4 harg4 arg5 harg5 arg6 harg6) Kt := by
  simp only [cc0__scores_body_eq_skeleton]; unfold cc0__scores_body_skel
  unfold owns
  iintro ⟨⟨%f4, %hf4, H4⟩, ⟨%f6, %hf6, H6⟩, ⟨%o, %f5, %hf5, H5⟩, Hk⟩
  obtain rfl := harg4.eq_unread hf4; obtain rfl := harg6.eq_unread hf6; obtain rfl := harg5.eq_unread hf5
  sl_exec (disch := first | exact hc1 | exact hc2)
  sl_step
  simp only [View.readAt_eq_ld, harg4.read_unread, harg6.read_unread,
    View.ld_unit_zero (S := S1024x512) zeros2, View.ld_unit_zero (S := S64x512) zeros2]
  iapply Hk
  isplitl [H4]
  · iexists _; isplitr; · ipureintro; exact harg4.read_unread _
    iexact H4
  isplitl [H6]
  · iexists _; isplitr; · ipureintro; exact harg6.read_unread _
    iexact H6
  iexists _; isplitr
  · ipureintro
    exact read_whole_store arg5.view (harg5.unread o) zeros2 inb_S1024x64_S1024x64_0_0 (k0_pay2 x4 s)
  iexact H5

end Cert.Kernel.Hand

end
-- ==== Proof.KBRegionBody.lean ====
import proofs.«205531_g87737591923446_cont_sun_m_531_28_alg».proof.Proof.KBRegion
import proofs.«205531_g87737591923446_cont_sun_m_531_28_alg».proof.Proof.KBBody

/-!
# The dense region's body, point by point

The region runs its body at three grid points over one 64 × 512 scratch matrix.  Between points the scratch is
held whole at contents that agree with a fixed target matrix on the first `32 · min n 2` rows after `n` points.

* At points 0 and 1 the body reads the point's blocks of the three layers and overwrites rows
  `[32·t, 32·t + 32)` of the scratch with the first payload of those blocks.  By definition the target matrix's
  row `r` is the first payload of the blocks at point `r / 32`, at row `r mod 32`; for `r` in the band,
  `r / 32 = t` and `r mod 32 = r − 32·t`, so the band now agrees with the target, and the rows below it still do.
  The state block is not touched, and the output block — idle at these points and not written back — is handed
  back exactly as it was handed in.
* At point 2 the scratch agrees with the target matrix on all 64 rows, so it IS the target matrix; the body
  overwrites the whole output block with the second payload of the state block and the scratch, which is by
  definition the array the region leaves.  The layer blocks are not touched; the scratch is unchanged
  (`min 3 2 = min 2 2`).

What the core owes is the same before and after every point.
-/
set_option maxRecDepth 16384

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig (HIx 1) (Elt F) ℕ UU ℕ

variable (m : (ℓ : Loc nD τ sig) → Buf (Elt F) ℓ) (O : Dev nD → CellTallies nD τ sig (HIx 1))

/-- The five staging buffers the body is called on at point `t`, and that each is a whole buffer. -/
abbrev mS0 (t : Fin cfg0.N) : Memref sig .tc .vmem S32x512x128 .f32 := win0_0.stage (cfg0.slots t 0)
abbrev hS0 (t : Fin cfg0.N) : (mS0 t).IsWhole := hstage0_0 ((cfg0.slots t 0).cast nbuf0_0)
abbrev mS1 (t : Fin cfg0.N) : Memref sig .tc .vmem S32x128x128 .f32 := win0_1.stage (cfg0.slots t 1)
abbrev hS1 (t : Fin cfg0.N) : (mS1 t).IsWhole := hstage0_1 ((cfg0.slots t 1).cast nbuf0_1)
abbrev mS2 (t : Fin cfg0.N) : Memref sig .tc .vmem S32x128x1 .f32 := win0_2.stage (cfg0.slots t 2)
abbrev hS2 (t : Fin cfg0.N) : (mS2 t).IsWhole := hstage0_2 ((cfg0.slots t 2).cast nbuf0_2)
abbrev mS3 (t : Fin cfg0.N) : Memref sig .tc .vmem S1024x512 .f32 := win0_3.stage (cfg0.slots t 3)
abbrev hS3 (t : Fin cfg0.N) : (mS3 t).IsWhole := hstage0_3 ((cfg0.slots t 3).cast nbuf0_3)
abbrev mS4 (t : Fin cfg0.N) : Memref sig .tc .vmem S1024x64 .f32 := win0_4.stage (cfg0.slots t 4)
abbrev hS4 (t : Fin cfg0.N) : (mS4 t).IsWhole := hstage0_4 ((cfg0.slots t 4).cast nbuf0_4)

/-- What the body is handed at point `t`: the invariant, what the core owes, and each window's current buffer. -/
def bodyPre (c : Dev nD) (t : Fin cfg0.N) : sProp 𝕄 :=
  iprop((dats m O 0 c).Φ t.castSucc ∗ (dats m O 0 c).owesAt (none : HIx 1) t.castSucc
    ∗ (∃ d, owns (c : Thread nD τ) (mS0 t) fullShare ((dats m O 0 c).before 0 t d))
    ∗ (∃ d, owns (c : Thread nD τ) (mS1 t) fullShare ((dats m O 0 c).before 1 t d))
    ∗ (∃ d, owns (c : Thread nD τ) (mS2 t) fullShare ((dats m O 0 c).before 2 t d))
    ∗ (∃ d, owns (c : Thread nD τ) (mS3 t) fullShare ((dats m O 0 c).before 3 t d))
    ∗ (∃ d, owns (c : Thread nD τ) (mS4 t) fullShare ((dats m O 0 c).before 4 t d)))

/-- What it hands back: the four inputs at their blocks; the output at the scores where the body wrote it, and as it
was handed where the output window is idle and not written back. -/
def bodyPost (c : Dev nD) (t : Fin cfg0.N) : sProp 𝕄 :=
  iprop((dats m O 0 c).Φ t.succ ∗ (dats m O 0 c).owesAt (none : HIx 1) t.succ
    ∗ owns (c : Thread nD τ) (mS0 t) fullShare ((dats m O 0 c).after 0 t)
    ∗ owns (c : Thread nD τ) (mS1 t) fullShare ((dats m O 0 c).after 1 t)
    ∗ owns (c : Thread nD τ) (mS2 t) fullShare ((dats m O 0 c).after 2 t)
    ∗ owns (c : Thread nD τ) (mS3 t) fullShare ((dats m O 0 c).after 3 t)
    ∗ (dats m O 0 c).leavesExact 4 t)

/-! ## The grid's three points, decided -/

/-- The first branch is taken exactly at points 0 and 1, -/
theorem hcond1 : ∀ t : Fin cfg0.N, k0_cond1 (grid0.coords t) = 1#1 ↔ t.val < 2 :=
  (by decide +kernel : ∀ t : Fin grid0.N, k0_cond1 (grid0.coords t) = 1#1 ↔ t.val < 2)
/-- the second exactly at point 2, -/
theorem hcond2 : ∀ t : Fin cfg0.N, k0_cond2 (grid0.coords t) = 1#1 ↔ t.val = 2 :=
  (by decide +kernel : ∀ t : Fin grid0.N, k0_cond2 (grid0.coords t) = 1#1 ↔ t.val = 2)
/-- the output window is idle exactly at points 0 and 1, -/
theorem idle4 : ∀ t : Fin cfg0.N, cfg0.idle 4 (cfg0.grid.coords t) = true ↔ t.val < 2 :=
  (by decide +kernel : ∀ t : Fin grid0.N, idle0 4 (grid0.coords t) = true ↔ t.val < 2)
/-- and a point's one coordinate is its number. -/
theorem coords_val : ∀ t : Fin cfg0.N, ((grid0.coords t) 0).val = t.val :=
  (by decide +kernel : ∀ t : Fin grid0.N, ((grid0.coords t) 0).val = t.val)

/-! ## The scratch invariant along the points -/

/-- Inside the band of rows that point `t` fills, the target matrix is the first payload of the blocks at `t`, at the
row's position within the band. -/
theorem Vmat_band (c : Dev nD) (t : Fin cfg0.N) (r : Fin 64) (k : Fin 512)
    (h : 32 * t.val ≤ r.val ∧ r.val < 32 * t.val + 32) :
    Vmat m c (ix2 r k)
      = k0_pay1 (iblk m c 0 t) (iblk m c 1 t) (iblk m c 2 t) (ix2 (⟨r.val - 32 * t.val, by omega⟩ : Fin 32) k) := by
  have hp : ptOf r = t := Fin.ext (by show r.val / 32 = t.val; omega)
  subst hp
  show k0_pay1 (iblk m c 0 (ptOf r)) (iblk m c 1 (ptOf r)) (iblk m c 2 (ptOf r)) (ix2 (⟨r.val % 32, _⟩ : Fin 32) k) = _
  refine congrArg (k0_pay1 (iblk m c 0 (ptOf r)) (iblk m c 1 (ptOf r)) (iblk m c 2 (ptOf r))) ?_
  refine congrArg (fun a : Fin 32 => ix2 a k) (Fin.ext ?_)
  show r.val % 32 = r.val - 32 * (r.val / 32)
  omega

/-- One first-phase point extends the invariant by its band of rows. -/
theorem scrInv_step (c : Dev nD) (t : Fin cfg0.N) (ht : t.val < 2) (f : Buf (Elt F) (scrLoc c)) (hf : ScrInv m c t.val f) :
    ScrInv m c (t.val + 1) (scrA (grid0.coords t) (iblk m c 0 t) (iblk m c 1 t) (iblk m c 2 t) f) := by
  intro r k hr
  have hc := coords_val t
  have hr' : r.val < 32 * (t.val + 1) := by rw [Nat.min_eq_left (by omega)] at hr; exact hr
  rw [scrA_apply (grid0.coords t) ((hcond1 t).mpr ht)]
  by_cases hb : 32 * ((grid0.coords t) 0).val ≤ r.val ∧ r.val < 32 * ((grid0.coords t) 0).val + 32
  · rw [dif_pos hb, Vmat_band m c t r k (by omega)]
    refine congrArg (k0_pay1 (iblk m c 0 t) (iblk m c 1 t) (iblk m c 2 t)) ?_
    refine congrArg (fun a : Fin 32 => ix2 a k) (Fin.ext ?_)
    show r.val - 32 * ((grid0.coords t) 0).val = r.val - 32 * t.val
    rw [hc]
  · rw [dif_neg hb]
    exact hf r k (by rw [Nat.min_eq_left (by omega)]; omega)

/-- After both first-phase points the scratch IS the target matrix. -/
theorem scrInv_full (c : Dev nD) (f : Buf (Elt F) (scrLoc c)) (hf : ScrInv m c 2 f) : f = Vmat m c := by
  funext y
  obtain ⟨r, k, rfl⟩ : ∃ (r : Fin 64) (k : Fin 512), y = ix2 r k := ⟨y 0, y 1, eq_ix2 y⟩
  exact hf r k (by have := r.isLt; rw [Nat.min_self]; omega)

/-! ## The body at a point -/

/-- The scratch held whole as a buffer is the scratch held as a whole memref, in both directions. -/
theorem scr_to_owns (c : Dev nD) (f : Buf (Elt F) (scrLoc c)) :
    (scrLoc c ↦{fullShare} f : sProp 𝕄) ⊢ owns (c : Thread nD τ) (Memref.whole cc0_scratch0) fullShare f := by
  rw [owns_whole]
theorem owns_to_scr (c : Dev nD) (f : Buf (Elt F) (scrLoc c)) :
    owns (c : Thread nD τ) (Memref.whole cc0_scratch0) fullShare f ⊢ (scrLoc c ↦{fullShare} f : sProp 𝕄) := by
  rw [owns_whole]

set_option maxHeartbeats 1000000 in
/-- The body at any point.  At points 0 and 1 the three layer blocks and the scratch go through the first-phase run; the
state block and the idle output block are handed back untouched; the scratch invariant gains the point's band.  At point
2 the scratch is the target matrix; the state block, the scratch and the output block go through the second-phase run,
which leaves the scores in the output block; the layer blocks are handed back untouched. -/
theorem sound_body (c : Dev nD) (t : Fin cfg0.N) :
    bodyPre m O c t ⊢ wp frame (wpE (defs₀ (F := F)) 𝒱₀ c none) Set.univ (bodyAt0 t) (fun _ => bodyPost m O c t) := by
  unfold bodyPre bodyPost bodyAt0
  simp only [before0_0, before0_1, before0_2, before0_3]
  rw [show (dats m O 0 c).Φ t.succ = ΦS m c t.succ from rfl, show (dats m O 0 c).Φ t.castSucc = ΦS m c t.castSucc from rfl,
    show (dats m O 0 c).owesAt (none : HIx 1) t.succ = (dats m O 0 c).owesAt (none : HIx 1) t.castSucc from rfl,
    after0_0, after0_1, after0_2, after0_3]
  have hN : t.val < 3 := lt_of_lt_of_eq t.isLt (show cfg0.N = 3 from N_0)
  unfold ΦS
  by_cases h2 : t.val < 2
  · have hi : cfg0.idle 4 (cfg0.grid.coords t) = true := (idle4 t).mpr h2
    have hfl : (cfg0.win 4).flush t = false := Bool.eq_false_iff.mpr fun h => by have := (flush0_4 t).mp h; omega
    rw [Dat.leavesExact_idle _ 4 t hi hfl]
    iintro ⟨⟨%f, %hf, HS⟩, Ho, ⟨%d0, H0⟩, ⟨%d1, H1⟩, ⟨%d2, H2⟩, ⟨%d3, H3⟩, H4⟩
    iapply (bodyA c (grid0.coords t) (mS0 t) (hS0 t) (mS1 t) (hS1 t) (mS2 t) (hS2 t) (mS3 t) (hS3 t) (mS4 t) (hS4 t)
      (Memref.whole cc0_scratch0) (Memref.isWhole_whole _) ((hcond1 t).mpr h2) (fun h => by have := (hcond2 t).mp h; omega)
      (iblk m c 0 t) (iblk m c 1 t) (iblk m c 2 t) f Set.univ _)
    isplitl [H0]; · iexact H0
    isplitl [H1]; · iexact H1
    isplitl [H2]; · iexact H2
    isplitl [HS]; · iapply scr_to_owns; iexact HS
    iintro ⟨H0, H1, H2, HS⟩
    isplitl [HS]
    · iexists (scrA (grid0.coords t) (iblk m c 0 t) (iblk m c 1 t) (iblk m c 2 t) f)
      isplitr
      · ipureintro; exact scrInv_step m c t h2 f hf
      · iapply owns_to_scr; iexact HS
    isplitl [Ho]; · iexact Ho
    isplitl [H0]; · iexact H0
    isplitl [H1]; · iexact H1
    isplitl [H2]; · iexact H2
    isplitl [H3]; · iexact H3
    iexact H4
  · obtain rfl : t = t0_2 := Fin.ext (by show t.val = 2; omega)
    have hi : cfg0.idle 4 (cfg0.grid.coords t0_2) = false := Bool.eq_false_iff.mpr fun h => h2 ((idle4 t0_2).mp h)
    have hl : (dats m O 0 c).leavesExact 4 t0_2
        = owns (c : Thread nD τ) ((cfg0.win 4).stage (cfg0.slots t0_2 4)) fullShare ((dats m O 0 c).after 4 t0_2) := by
      unfold Dat.leavesExact; rw [hi]
    rw [hl, after0_4]
    iintro ⟨⟨%f, %hf, HS⟩, Ho, ⟨%d0, H0⟩, ⟨%d1, H1⟩, ⟨%d2, H2⟩, ⟨%d3, H3⟩, ⟨%d4, H4⟩⟩
    obtain rfl : f = Vmat m c := scrInv_full m c f hf
    iapply (bodyB c (grid0.coords t0_2) (mS0 t0_2) (hS0 t0_2) (mS1 t0_2) (hS1 t0_2) (mS2 t0_2) (hS2 t0_2) (mS3 t0_2) (hS3 t0_2) (mS4 t0_2) (hS4 t0_2)
      (Memref.whole cc0_scratch0) (Memref.isWhole_whole _) (fun h => h2 ((hcond1 t0_2).mp h)) ((hcond2 t0_2).mpr rfl)
      (iblk m c 3 t0_2) (Vmat m c) Set.univ _)
    isplitl [H3]; · iexact H3
    isplitl [HS]; · iapply scr_to_owns; iexact HS
    isplitl [H4]; · iexists _; iexact H4
    iintro ⟨H3, HS, H4⟩
    isplitl [HS]
    · iexists (Vmat m c)
      isplitr
      · ipureintro; exact fun r k _ => rfl
      · iapply owns_to_scr; iexact HS
    isplitl [Ho]; · iexact Ho
    isplitl [H0]; · iexact H0
    isplitl [H1]; · iexact H1
    isplitl [H2]; · iexact H2
    isplitl [H3]; · iexact H3
    unfold scoresOut; iexact H4

/-- The region's body obligation, at every point. -/
theorem body_obligation (m : (ℓ : Loc nD τ sig) → Buf (Elt F) ℓ) (O : Dev nD → CellTallies nD τ sig (HIx 1)) (c : Dev nD) :
    Pipeline.BodyObligation (dats m O 0 c) (defs₀ (F := F)) 𝒱₀ (none : HIx 1) Set.univ := fun t => by
  rw [bigSep_W0, bigSep_W0]
  exact sound_body m O c t

end Cert.Kernel.Hand

end
-- ==== Proof.KBArrays.lean ====
/-
  The contents of the kernel's arrays along @main, as the host operations compute them.

  The flat options are the reshape of the option column; the flat scores the reshape of the matrix the region
  leaves; the result the reshape of the selected scores. Each is named here as its operation's result.
-/
import proofs.«205531_g87737591923446_cont_sun_m_531_28_alg».proof.Proof.KBCommon
import proofs.«205531_g87737591923446_cont_sun_m_531_28_alg».proof.Proof.KBRegion

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the TensorCore owes through the region -/

/-- The TensorCore's debts before the one call: its start signals. -/
def Otc0 (d : Dev nD) : CellTallies nD τ sig (HIx 1) := (K (F := F)).Otc d 0

theorem Otc0_none (c : Dev nD) (g : GSem nD τ sig) : Otc0 (F := F) c g none = 0 := by
  by_contra h
  have := (K (F := F)).lev_of_Otc_pos (d := c) (n := 0) (g := g) (ι := none) (Nat.pos_of_ne_zero h)
  rw [SparseCore.Cfg.lev_none] at this; omega

/-! ## The arrays' contents along @main -/

abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev op1 : HloOp τ sig (Elt F) := StableHlo.reshape main_arg1 main_v1 rfl shapeCasts_S1024x1_S1024
abbrev op2 : HloOp τ sig (Elt F) := StableHlo.reshape main_v0 main_v2 rfl shapeCasts_S1024x64_S65536
abbrev op3 : HloOp τ sig (Elt F) := StableHlo.reshape main_v3 main_v4 rfl shapeCasts_S1024_S1024x1

/-- The launch valuation. -/
def W0 (d : Dev nD) : Valuation τ sig (Elt F) := fun b => m (d, b)

/-- The flat options: the first reshape's result. -/
def Iarr (d : Dev nD) : Buf (Elt F) (v1Loc d) := (op1 (F := F)).result (W0 m d) v1'
/-- The flat scores: the second reshape's result, of the array the region left. -/
def Xarr (d : Dev nD) : Buf (Elt F) (v2Loc d) := (op2 (F := F)).result (Function.update (W0 m d) v0' (scoresArr m (Otc0 (F := F)) d)) v2'
/-- The result: the last reshape's, of the selected scores. -/
abbrev v4Loc (d : Dev nD) : Loc nD τ sig := (SparseCore.T d).loc main_v4
def outArr (d : Dev nD) : Buf (Elt F) (v4Loc d) :=
  (op3 (F := F)).result (Function.update (W0 m d) v3' (sel (Xarr m) (Iarr m) d)) v4'

end Cert.Kernel.Hand

end
-- ==== Proof.KBSplit.lean ====
/-
  Cutting three flat arrays into the thirty-two subcores' slices, and gluing them back.

  Subcore `s` of SparseCore `c` has number `w = 2·s + c`. Of the 65536 words of the flat scores it is handed the
  2048 words `[2048·w, 2048·w + 2048)`, of the 1024 words of the flat options and of the result the 32 words
  `[32·w, 32·w + 32)`. Since `(c, s) ↦ w` is a bijection of `Fin 2 × Fin 16` with `Fin 32`, the thirty-two slices
  of an array are pairwise disjoint (two different pairs give two different numbers `w`, and intervals
  `[n·w, n·w + n)` of different `w` do not meet) and cover it (word `j` lies in the slice of `w = j / n`, that is
  `s = j / (2n)`, `c = (j / n) mod 2`). A points-to assertion of a whole array at one valuation is therefore equal to
  the separating conjunction, over the pairs `(c, s)`, of the points-to assertions of the slices at that valuation.
  Read left to right this hands every subcore its slices; read right to left it gives the arrays back whole: the
  result, whose slices each hold the restriction of one function, holds that function.
-/
import proofs.«205531_g87737591923446_cont_sun_m_531_28_alg».proof.Proof.KBCommon

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A SparseCore and one of its subcores, of the call's grid. -/
abbrev CI (F : FTy → Type) : Type := Fin ((K (F := F)).nCore 0) × Fin ((K (F := F)).nSub 0)

theorem coordsOf_zero_val (c : Fin ((K (F := F)).nCore 0)) (i : Fin ((K (F := F)).nSub 0)) :
    ((coordsOf c i) 0).val = c.val := rfl
theorem coordsOf_one_val (c : Fin ((K (F := F)).nCore 0)) (i : Fin ((K (F := F)).nSub 0)) :
    ((coordsOf c i) 1).val = i.val := rfl

/-! ## Which words a slice covers: an interval of the one coordinate -/

theorem mem_xSet (L : grid1.Coords) (j : S65536.Idx) :
    j ∈ xSet L ↔ 4096 * (L 1).val + 2048 * (L 0).val ≤ (j 0).val ∧ (j 0).val < 4096 * (L 1).val + 2048 * (L 0).val + 2048 := by
  show j ∈ ((View.whole main_v2_scv).slice (Rect.unit (s := S65536) (k1_off1 L) S2048.size (k1_off1_inb L))).set ↔ _
  rw [View.set_slice_whole, Rect.mem_set_unit, k1_off1_eq]
  exact Fin.forall_fin_one

theorem mem_iSet (L : grid1.Coords) (j : S1024.Idx) :
    j ∈ iSet L ↔ 64 * (L 1).val + 32 * (L 0).val ≤ (j 0).val ∧ (j 0).val < 64 * (L 1).val + 32 * (L 0).val + 32 := by
  show j ∈ ((View.whole main_v1_scv).slice (Rect.unit (s := S1024) (k1_off2 L) S32.size (k1_off2_inb L))).set ↔ _
  rw [View.set_slice_whole, Rect.mem_set_unit, k1_off2_eq]
  exact Fin.forall_fin_one

theorem mem_oSet (L : grid1.Coords) (j : S1024.Idx) :
    j ∈ oSet L ↔ 64 * (L 1).val + 32 * (L 0).val ≤ (j 0).val ∧ (j 0).val < 64 * (L 1).val + 32 * (L 0).val + 32 := by
  show j ∈ ((View.whole main_v3_scv).slice (Rect.unit (s := S1024) (k1_off3 L) S32.size (k1_off3_inb L))).set ↔ _
  rw [View.set_slice_whole, Rect.mem_set_unit, k1_off3_eq]
  exact Fin.forall_fin_one

/-! ## The slices of different subcores do not meet, and together they are the whole array -/

theorem xSet_disjoint (p p' : CI F) (h : p ≠ p') : Disjoint (xSet (coordsOf p.1 p.2)) (xSet (coordsOf p'.1 p'.2)) := by
  refine Finset.disjoint_left.mpr fun j hj hj' => h ?_
  rw [mem_xSet, coordsOf_zero_val, coordsOf_one_val] at hj hj'
  have h1 : p.1.val < 2 := p.1.isLt
  have h2 : p'.1.val < 2 := p'.1.isLt
  exact Prod.ext (Fin.ext (by omega)) (Fin.ext (by omega))

theorem iSet_disjoint (p p' : CI F) (h : p ≠ p') : Disjoint (iSet (coordsOf p.1 p.2)) (iSet (coordsOf p'.1 p'.2)) := by
  refine Finset.disjoint_left.mpr fun j hj hj' => h ?_
  rw [mem_iSet, coordsOf_zero_val, coordsOf_one_val] at hj hj'
  have h1 : p.1.val < 2 := p.1.isLt
  have h2 : p'.1.val < 2 := p'.1.isLt
  exact Prod.ext (Fin.ext (by omega)) (Fin.ext (by omega))

theorem oSet_disjoint (p p' : CI F) (h : p ≠ p') : Disjoint (oSet (coordsOf p.1 p.2)) (oSet (coordsOf p'.1 p'.2)) := by
  refine Finset.disjoint_left.mpr fun j hj hj' => h ?_
  rw [mem_oSet, coordsOf_zero_val, coordsOf_one_val] at hj hj'
  have h1 : p.1.val < 2 := p.1.isLt
  have h2 : p'.1.val < 2 := p'.1.isLt
  exact Prod.ext (Fin.ext (by omega)) (Fin.ext (by omega))

theorem xSet_cover : (Finset.univ : Finset (CI F)).biUnion (fun p => xSet (coordsOf p.1 p.2)) = Finset.univ := by
  refine Finset.eq_univ_iff_forall.mpr fun j => Finset.mem_biUnion.mpr ?_
  have hj : (j 0).val < 65536 := (j 0).isLt
  refine ⟨(⟨(j 0).val / 2048 % 2, Nat.mod_lt _ (by decide)⟩, ⟨(j 0).val / 4096, ?_⟩), Finset.mem_univ _, ?_⟩
  · show _ < 16; omega
  · rw [mem_xSet, coordsOf_zero_val, coordsOf_one_val]
    show 4096 * ((j 0).val / 4096) + 2048 * ((j 0).val / 2048 % 2) ≤ (j 0).val
      ∧ (j 0).val < 4096 * ((j 0).val / 4096) + 2048 * ((j 0).val / 2048 % 2) + 2048
    omega

theorem iSet_cover : (Finset.univ : Finset (CI F)).biUnion (fun p => iSet (coordsOf p.1 p.2)) = Finset.univ := by
  refine Finset.eq_univ_iff_forall.mpr fun j => Finset.mem_biUnion.mpr ?_
  have hj : (j 0).val < 1024 := (j 0).isLt
  refine ⟨(⟨(j 0).val / 32 % 2, Nat.mod_lt _ (by decide)⟩, ⟨(j 0).val / 64, ?_⟩), Finset.mem_univ _, ?_⟩
  · show _ < 16; omega
  · rw [mem_iSet, coordsOf_zero_val, coordsOf_one_val]
    show 64 * ((j 0).val / 64) + 32 * ((j 0).val / 32 % 2) ≤ (j 0).val
      ∧ (j 0).val < 64 * ((j 0).val / 64) + 32 * ((j 0).val / 32 % 2) + 32
    omega

theorem oSet_cover : (Finset.univ : Finset (CI F)).biUnion (fun p => oSet (coordsOf p.1 p.2)) = Finset.univ := by
  refine Finset.eq_univ_iff_forall.mpr fun j => Finset.mem_biUnion.mpr ?_
  have hj : (j 0).val < 1024 := (j 0).isLt
  refine ⟨(⟨(j 0).val / 32 % 2, Nat.mod_lt _ (by decide)⟩, ⟨(j 0).val / 64, ?_⟩), Finset.mem_univ _, ?_⟩
  · show _ < 16; omega
  · rw [mem_oSet, coordsOf_zero_val, coordsOf_one_val]
    show 64 * ((j 0).val / 64) + 32 * ((j 0).val / 32 % 2) ≤ (j 0).val
      ∧ (j 0).val < 64 * ((j 0).val / 64) + 32 * ((j 0).val / 32 % 2) + 32
    omega

/-! ## A whole array's points-to is the thirty-two slices' points-tos -/

theorem xPts_split (d : Dev nD) (f : Buf (Elt F) (v2Loc d)) :
    (v2Loc d ↦{fullShare} f : sProp 𝕄)
      = bigSep Finset.univ fun p : CI F => v2Loc d ↦[xSet (coordsOf p.1 p.2)]{fullShare} f := by
  rw [← pointsTo_biUnion Finset.univ (ℓ := v2Loc d) (fun p : CI F => xSet (coordsOf p.1 p.2))
    (fun p _ p' _ h => xSet_disjoint p p' h), xSet_cover]

theorem iPts_split (d : Dev nD) (f : Buf (Elt F) (v1Loc d)) :
    (v1Loc d ↦{fullShare} f : sProp 𝕄)
      = bigSep Finset.univ fun p : CI F => v1Loc d ↦[iSet (coordsOf p.1 p.2)]{fullShare} f := by
  rw [← pointsTo_biUnion Finset.univ (ℓ := v1Loc d) (fun p : CI F => iSet (coordsOf p.1 p.2))
    (fun p _ p' _ h => iSet_disjoint p p' h), iSet_cover]

theorem oPts_split (d : Dev nD) (f : Buf (Elt F) (v3Loc d)) :
    (v3Loc d ↦{fullShare} f : sProp 𝕄)
      = bigSep Finset.univ fun p : CI F => v3Loc d ↦[oSet (coordsOf p.1 p.2)]{fullShare} f := by
  rw [← pointsTo_biUnion Finset.univ (ℓ := v3Loc d) (fun p : CI F => oSet (coordsOf p.1 p.2))
    (fun p _ p' _ h => oSet_disjoint p p' h), oSet_cover]

/-- The result at whatever it holds: every slice is handed the one valuation the whole array has. -/
theorem oPts_ex_split (d : Dev nD) :
    iprop(∃ f : Buf (Elt F) (v3Loc d), v3Loc d ↦{fullShare} f)
      ⊢ (bigSep Finset.univ fun p : CI F =>
          iprop(∃ f : Buf (Elt F) (v3Loc d), v3Loc d ↦[oSet (coordsOf p.1 p.2)]{fullShare} f) : sProp 𝕄) := by
  refine exists_elim fun f => ?_
  rw [oPts_split d f]
  exact bigSep_mono fun p _ =>
    exists_intro (Φ := fun f : Buf (Elt F) (v3Loc d) => (v3Loc d ↦[oSet (coordsOf p.1 p.2)]{fullShare} f : sProp 𝕄)) f

/-! ## Handing out and taking back -/

variable (X : (d : Dev nD) → Buf (Elt F) (v2Loc d)) (I : (d : Dev nD) → Buf (Elt F) (v1Loc d))

theorem split_go (d : Dev nD) :
    iprop((v2Loc d ↦{fullShare} X d) ∗ (v1Loc d ↦{fullShare} I d) ∗ ∃ f : Buf (Elt F) (v3Loc d), v3Loc d ↦{fullShare} f)
      ⊢ (bigSep Finset.univ fun c : Fin ((K (F := F)).nCore 0) =>
          bigSep Finset.univ fun i : Fin ((K (F := F)).nSub 0) => goRes X I d (coordsOf c i) : sProp 𝕄) := by
  rw [← bigSep_univ_prod (fun p : CI F => goRes X I d (coordsOf p.1 p.2))]
  unfold goRes
  rw [bigSep_sep', bigSep_sep', ← xPts_split, ← iPts_split]
  iintro ⟨HX, HI, HO⟩
  isplitl [HX]; · iexact HX
  isplitl [HI]; · iexact HI
  iapply (oPts_ex_split d); iexact HO

theorem join_td (d : Dev nD) :
    (bigSep Finset.univ fun c : Fin ((K (F := F)).nCore 0) =>
        bigSep Finset.univ fun i : Fin ((K (F := F)).nSub 0) => tdRes X I d (coordsOf c i) : sProp 𝕄)
      ⊢ iprop((v2Loc d ↦{fullShare} X d) ∗ (v1Loc d ↦{fullShare} I d) ∗ (v3Loc d ↦{fullShare} sel X I d)) := by
  rw [← bigSep_univ_prod (fun p : CI F => tdRes X I d (coordsOf p.1 p.2))]
  unfold tdRes
  rw [bigSep_sep', bigSep_sep', ← xPts_split, ← iPts_split, ← oPts_split]

end Cert.Kernel.Hand

end
-- ==== Proof.KBPost.lean ====
/-
  What the kernel's run leaves: the result array at the selected scores' reshape, the six argument arrays unchanged.
-/
import proofs.«205531_g87737591923446_cont_sun_m_531_28_alg».proof.Proof.KBArrays

noncomputable section

namespace Cert.Kernel.Hand

open Cert.Kernel Cert.Kernel.Gen
open Idealize.ShloMosaic Idealize.ShloMosaic.TcCoe
open Idealize.ShloMosaic.SparseCore (S V T)
open Idealize.SL Idealize.SL.Sem

variable {F : FTy → Type} [FloatOps F]

/-- The post of the kernel's run from the launch memory `m`: on every device the result holds `outArr m` and the
    arguments are as launched. -/
def QC (m : (ℓ : Loc nD τ sig) → Buf (Elt F) ℓ) : PUnit × MemSt nD τ sig (Elt F) → Prop := fun r => ∀ c : Dev nD,
  r.2.mem ((c.tc : Thread nD τ).loc main_v4) = outArr m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- Every option word the launch memory holds is below 64. -/
def OptOK (m : (ℓ : Loc nD τ sig) → Buf (Elt F) ℓ) : Prop :=
  ∀ (d : Dev nD) (j : S1024x1.Idx), (m ((d.tc : Thread nD τ).loc main_arg1) j).toNat < 64

end Cert.Kernel.Hand

end
-- ==== Proof.KBFin.lean ====
import proofs.«205531_g87737591923446_cont_sun_m_531_28_alg».proof.Proof.KBPost
import Idealize.ShloMosaic.Lib.SparseCore.Launch

/-!
# Reading the final state

When the program has finished, each device holds, whole, its result array at the reshaped selected scores and
its six argument arrays at their launch contents.  Holding a whole array at given contents, together with the
interpretation of the physical state, pins the physical contents of that array element by element; an array
whose every element is pinned equals the given contents.  Doing this for the seven arrays gives the seven
equations of the post-condition on each device.
-/

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- An array of the dense core of device `d`, as a location. -/
abbrev aLoc (d : Dev nD) (b : Ref sig .tc) : Loc nD τ sig := (SparseCore.T d).loc b

/-- What @main leaves the claim: the result at the reshaped selected scores, the six arguments as launched. -/
def FIN (m : (ℓ : Loc nD τ sig) → Buf (Elt F) ℓ) (d : Dev nD) : sProp 𝕄 :=
  iprop((v4Loc d ↦{fullShare} outArr m d) ∗ (aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)) ∗ (aLoc d main_arg5 ↦{fullShare} m (aLoc d main_arg5)))

/-- The same seven facts about a physical state. -/
def fq (m : (ℓ : Loc nD τ sig) → Buf (Elt F) ℓ) (d : Dev nD) (s' : Phys nD τ sig (Elt F)) : Prop :=
  s'.mem.mem (v4Loc d) = outArr m d ∧ s'.mem.mem (aLoc d main_arg0) = m (aLoc d main_arg0)
    ∧ s'.mem.mem (aLoc d main_arg1) = m (aLoc d main_arg1) ∧ s'.mem.mem (aLoc d main_arg2) = m (aLoc d main_arg2)
    ∧ s'.mem.mem (aLoc d main_arg3) = m (aLoc d main_arg3) ∧ s'.mem.mem (aLoc d main_arg4) = m (aLoc d main_arg4)
    ∧ s'.mem.mem (aLoc d main_arg5) = m (aLoc d main_arg5)

/-- Holding the seven arrays against the state's interpretation pins the seven contents. -/
theorem hfin (m : (ℓ : Loc nD τ sig) → Buf (Elt F) ℓ) (d : Dev nD) (s' : Phys nD τ sig (Elt F)) :
    iprop(FIN m d ∗ SI s') ⊢ (⌜fq m d s'⌝ : sProp 𝕄) := by
  unfold FIN
  iintro ⟨⟨Hv, H0, H1, H2, H3, H4, H5⟩, HSI⟩
  icombine HSI Hv gives %hv
  icombine HSI H0 gives %h0
  icombine HSI H1 gives %h1
  icombine HSI H2 gives %h2
  icombine HSI H3 gives %h3
  icombine HSI H4 gives %h4
  icombine HSI H5 gives %h5
  ipureintro
  exact ⟨funext fun i => hv i (Finset.mem_univ i), funext fun i => h0 i (Finset.mem_univ i),
    funext fun i => h1 i (Finset.mem_univ i), funext fun i => h2 i (Finset.mem_univ i),
    funext fun i => h3 i (Finset.mem_univ i), funext fun i => h4 i (Finset.mem_univ i),
    funext fun i => h5 i (Finset.mem_univ i)⟩

/-- The seven facts on every device are the run's post-condition. -/
theorem hQ (m : (ℓ : Loc nD τ sig) → Buf (Elt F) ℓ) (s' : Phys nD τ sig (Elt F)) (h : ∀ d, fq m d s') : QC m (⟨⟩, s'.mem) :=
  fun c => h c

end Cert.Kernel.Hand

end
-- ==== Proof.KBTile.lean ====
/-
  One vector subcore's share of the selection.

  The subcore numbered `w = 2·s + c` copies words `[2048·w, 2048·w + 2048)` of the flat scores and words
  `[32·w, 32·w + 32)` of the flat options into its own memory. For each of its 32 rows `r` (two batches of
  sixteen lanes, `r = 16·g + lane`) it forms the number `64·r + option_r` in 32-bit arithmetic, reads its copy of
  the scores at that word, and stores the word read at place `r` of a 32-word scratch, which it finally copies onto
  words `[32·w, 32·w + 32)` of the result. With every option in `[0, 64)` the number `64·r + option_r` is below
  2048 — so the read is inside the copy and no 32-bit operation wraps — and word `r` of the scratch is word
  `2048·w + 64·r + option_r = 64·(32·w + r) + option_r` of the flat scores: the selection's value at word
  `32·w + r` of the result. The three copies run one at a time, each waited for at once on a semaphore of its own.
-/
import proofs.«205531_g87737591923446_cont_sun_m_531_28_alg».proof.Proof.KBCommon

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The thread of the task at grid coordinates `L`: subcore `L 1` of SparseCore `L 0`. -/
abbrev cV (L : grid1.Coords) : Fin τ.nSC := (L 0).castLE hcore1
abbrev jV (L : grid1.Coords) : Fin τ.nSub := (L 1).castLE hsub1

/-- The subcore's three scratch buffers, whole: the options, the scores, the picked scores. -/
abbrev sI : Memref sig .scVector .vmem S32 .i32 := Memref.whole cc1_scratch0
abbrev sX : Memref sig .scVector .vmem S2048 .f32 := Memref.whole cc1_scratch1
abbrev sO : Memref sig .scVector .vmem S32 .f32 := Memref.whole cc1_scratch2

/-! ## The gather's indices -/

/-- Lane `x` of the first index vector: `(0 + x)·64 + option`, in 32-bit words. -/
theorem idxPay1_apply (v9 : Vec F S16 .i32) (x : S16.Idx) :
    k1_pay1 v9 x = (0#32 + BitVec.ofNat 32 (0 * S16.size 0 + (x 0).val)) * 64#32 + v9 x := rfl
/-- Lane `x` of the second index vector: `(16 + x)·64 + option`. -/
theorem idxPay2_apply (v18 : Vec F S16 .i32) (x : S16.Idx) :
    k1_pay2 v18 x = (16#32 + BitVec.ofNat 32 (0 * S16.size 0 + (x 0).val)) * 64#32 + v18 x := rfl

/-- With the option below 64 nothing wraps: the first index vector's lane `x` is the number `64·x + option`, -/
theorem pay1_toNat (v9 : Vec F S16 .i32) (x : S16.Idx) (h : (v9 x).toNat < 64) :
    (k1_pay1 v9 x).toNat = 64 * (x 0).val + (v9 x).toNat := by
  have hx : (x 0).val < 16 := (x 0).isLt
  rw [idxPay1_apply]
  simp only [BitVec.toNat_add, BitVec.toNat_mul, BitVec.toNat_ofNat, show S16.size 0 = 16 from rfl]
  omega
/-- and the second's is `64·(16 + x) + option`. -/
theorem pay2_toNat (v18 : Vec F S16 .i32) (x : S16.Idx) (h : (v18 x).toNat < 64) :
    (k1_pay2 v18 x).toNat = 64 * (16 + (x 0).val) + (v18 x).toNat := by
  have hx : (x 0).val < 16 := (x 0).isLt
  rw [idxPay2_apply]
  simp only [BitVec.toNat_add, BitVec.toNat_mul, BitVec.toNat_ofNat, show S16.size 0 = 16 from rfl]
  omega

/-- So both index vectors name words of the 2048-word scratch. -/
theorem chk1_of (v9 : Vec F S16 .i32) (h : ∀ x, (v9 x).toNat < 64) : k1_chk1 (k1_pay1 v9) := by
  intro a x
  obtain rfl : a = 0 := Subsingleton.elim _ _
  have hx : (x 0).val < 16 := (x 0).isLt
  show (k1_pay1 v9 x).toNat < 2048
  rw [pay1_toNat v9 x (h x)]; have := h x; omega
theorem chk2_of (v18 : Vec F S16 .i32) (h : ∀ x, (v18 x).toNat < 64) : k1_chk2 (k1_pay2 v18) := by
  intro a x
  obtain rfl : a = 0 := Subsingleton.elim _ _
  have hx : (x 0).val < 16 := (x 0).isLt
  show (k1_pay2 v18 x).toNat < 2048
  rw [pay2_toNat v18 x (h x)]; have := h x; omega

/-- A load after one write of the whole view reads that write's payload at the load's coordinates. -/
theorem readCov_whole_apply {sig' : RefSig} {κ : Kind} {sp : Space} {s : Shape} {e : EltTy} {Val : EltTy → Type} [∀ e, Nonempty (Val e)]
    (v : View sig' κ sp s e) (w : s.Idx → Val e) (B : LoadRect s) (j : B.shape.Idx) :
    v.readCov [⟨Rect.whole s, w⟩] B j = w (B.idx j) := by
  show v.read Val (v.writes Val v.junk [⟨Rect.whole s, w⟩]) (B.idx j) = _
  rw [View.read_writes_whole]

/-! ## The value: which word of the flat scores each picked word is -/

section Value

variable (X : (d : Dev nD) → Buf (Elt F) (v2Loc d)) (I : (d : Dev nD) → Buf (Elt F) (v1Loc d)) (d : Dev nD) (L : grid1.Coords)

/-- The two 16-word halves of a 32-word scratch. -/
abbrev B0 : Rect S32 := Rect.unit (s := S32) ![0] S16.size inb_S32_S16_0
abbrev B16 : Rect S32 := Rect.unit (s := S32) ![16] S16.size inb_S32_S16_16

omit [FloatOps F] in
/-- Word `y` of the subcore's slice of the options and word `y` of its slice of the result have one word number. -/
theorem emb_io (y : S32.Idx) : ((iBlk L).view.emb y : S1024.Idx) = ((oBlk L).view.emb y : S1024.Idx) := by
  refine funext fun (a : Fin 1) => ?_
  obtain rfl : a = 0 := Subsingleton.elim a 0
  apply Fin.ext
  show k1_off2 L 0 + 1 * (y 0).val = k1_off3 L 0 + 1 * (y 0).val
  rw [k1_off2_eq, k1_off3_eq]

omit [FloatOps F] in
/-- Word `64·y + option` of the subcore's slice of the scores is the word the selection names for word `y` of its
    slice of the result: `2048·w + 64·y + option = 64·(32·w + y) + option`. -/
theorem emb_sel (y : S32.Idx) (z : S2048.Idx) (hz : (z 0).val = 64 * (y 0).val + (I d ((oBlk L).view.emb y)).toNat)
    (hlt : (I d ((oBlk L).view.emb y)).toNat < 64) :
    ((xBlk L).view.emb z : S65536.Idx) = selIdx (I d) ((oBlk L).view.emb y) := by
  have h1 : k1_off1 L 0 = 4096 * (L 1).val + 2048 * (L 0).val := by rw [k1_off1_eq]; rfl
  have h3 : k1_off3 L 0 = 64 * (L 1).val + 32 * (L 0).val := by rw [k1_off3_eq]; rfl
  refine funext fun (a : Fin 1) => ?_
  obtain rfl : a = 0 := Subsingleton.elim a 0
  apply Fin.ext
  show k1_off1 L 0 + 1 * (z 0).val = 64 * (k1_off3 L 0 + 1 * (y 0).val) + (I d ((oBlk L).view.emb y)).toNat % 64
  rw [h1, h3, Nat.mod_eq_of_lt hlt, hz]
  omega

/-- Lane `x` of the first gather is the selected score of word `x` of the subcore's slice, -/
theorem piece_lo (f : Vec F S2048 .f32) (v9 : Vec F S16 .i32) (h1 : ∀ a x, ((![k1_pay1 v9] : Fin 1 → IVec S16 32) a x).toNat < S2048.size a)
    (hI : ∀ j : S1024.Idx, (I d j).toNat < 64)
    (hf : ∀ z, f z = X d ((xBlk L).view.emb z))
    (hv : ∀ x, v9 x = I d ((iBlk L).view.emb (B0.emb x))) (x : S16.Idx) :
    loadIdx f ![k1_pay1 v9] h1 x = sel X I d ((oBlk L).view.emb (B0.emb x)) := by
  show f (idxAt ![k1_pay1 v9] h1 x) = X d (selIdx (I d) ((oBlk L).view.emb (B0.emb x)))
  rw [hf]
  refine congrArg (X d) (emb_sel I d L (B0.emb x) _ ?_ (hI _))
  show (k1_pay1 v9 x).toNat = 64 * (0 + 1 * (x 0).val) + _
  rw [pay1_toNat v9 x (by rw [hv]; exact hI _), hv, emb_io]
  omega

/-- and lane `x` of the second that of word `16 + x`. -/
theorem piece_hi (f : Vec F S2048 .f32) (v18 : Vec F S16 .i32) (h2 : ∀ a x, ((![k1_pay2 v18] : Fin 1 → IVec S16 32) a x).toNat < S2048.size a)
    (hI : ∀ j : S1024.Idx, (I d j).toNat < 64)
    (hf : ∀ z, f z = X d ((xBlk L).view.emb z))
    (hv : ∀ x, v18 x = I d ((iBlk L).view.emb (B16.emb x))) (x : S16.Idx) :
    loadIdx f ![k1_pay2 v18] h2 x = sel X I d ((oBlk L).view.emb (B16.emb x)) := by
  show f (idxAt ![k1_pay2 v18] h2 x) = X d (selIdx (I d) ((oBlk L).view.emb (B16.emb x)))
  rw [hf]
  refine congrArg (X d) (emb_sel I d L (B16.emb x) _ ?_ (hI _))
  show (k1_pay2 v18 x).toNat = 64 * (16 + 1 * (x 0).val) + _
  rw [pay2_toNat v18 x (by rw [hv]; exact hI _), hv, emb_io]
  omega

/-- After the two stores the 32-word scratch holds, at every word, the selected score of that word of the subcore's slice. -/
theorem out_value (fo0 : Buf (Elt F) ((V d (cV L) (jV L)).loc cc1_scratch2)) (f f' : Vec F S2048 .f32) (v9 v18 : Vec F S16 .i32)
    (h1 : ∀ a x, ((![k1_pay1 v9] : Fin 1 → IVec S16 32) a x).toNat < S2048.size a)
    (h2 : ∀ a x, ((![k1_pay2 v18] : Fin 1 → IVec S16 32) a x).toNat < S2048.size a)
    (hI : ∀ j : S1024.Idx, (I d j).toNat < 64)
    (hf : ∀ z, f z = X d ((xBlk L).view.emb z)) (hf' : ∀ z, f' z = X d ((xBlk L).view.emb z))
    (hv9 : ∀ x, v9 x = I d ((iBlk L).view.emb (B0.emb x))) (hv18 : ∀ x, v18 x = I d ((iBlk L).view.emb (B16.emb x))) (y : S32.Idx) :
    (sO).view.read (Elt F) ((sO).view.writes (Elt F) fo0 [⟨B16, loadIdx f' ![k1_pay2 v18] h2⟩, ⟨B0, loadIdx f ![k1_pay1 v9] h1⟩]) y
      = sel X I d ((oBlk L).view.emb y) := by
  refine View.read_writes_apply_of_pieces (sO).view fo0 (fun y => sel X I d ((oBlk L).view.emb y)) _ ?_ y ?_
  · intro p hp x
    rcases List.mem_cons.mp hp with rfl | hp
    · exact piece_hi X I d L f' v18 h2 hI hf' hv18 x
    rcases List.mem_cons.mp hp with rfl | hp
    · exact piece_lo X I d L f v9 h1 hI hf hv9 x
    · exact absurd hp List.not_mem_nil
  · have hy : (y 0).val < 32 := (y 0).isLt
    by_cases h : (y 0).val < 16
    · refine ⟨⟨B0, loadIdx f ![k1_pay1 v9] h1⟩, List.mem_cons_of_mem _ List.mem_cons_self, (Rect.mem_set_unit (s := S32) (off := ![0]) (size := S16.size) (inb := inb_S32_S16_0)).mpr fun a => ?_⟩
      obtain rfl : a = 0 := Subsingleton.elim a 0
      show 0 ≤ (y 0).val ∧ (y 0).val < 0 + 16
      omega
    · refine ⟨⟨B16, loadIdx f' ![k1_pay2 v18] h2⟩, List.mem_cons_self, (Rect.mem_set_unit (s := S32) (off := ![16]) (size := S16.size) (inb := inb_S32_S16_16)).mpr fun a => ?_⟩
      obtain rfl : a = 0 := Subsingleton.elim a 0
      show 16 ≤ (y 0).val ∧ (y 0).val < 16 + 16
      omega

omit [FloatOps F] in
/-- So the subcore's slice of the result, overwritten whole by such words, holds the selected scores. -/
theorem out_congr (fo : Buf (Elt F) (v3Loc d)) (w : S32.Idx → Elt F .f32) (hw : ∀ y, w y = sel X I d ((oBlk L).view.emb y)) :
    (v3Loc d ↦[oSet L]{fullShare} (oBlk L).view.writes (Elt F) fo [⟨Rect.whole S32, w⟩] : sProp 𝕄) = v3Loc d ↦[oSet L]{fullShare} sel X I d := by
  refine pointsTo_congr fun j hj => ?_
  obtain ⟨y, -, rfl⟩ := Finset.mem_map.mp hj
  have h := congrFun (View.read_writes_whole (oBlk L).view fo w) y
  rw [View.read_apply] at h
  exact ((cast_eq _ _).symm.trans h).trans (hw y)

end Value

section Tile

variable (X : (d : Dev nD) → Buf (Elt F) (v2Loc d)) (I : (d : Dev nD) → Buf (Elt F) (v1Loc d)) (d : Dev nD) (L : grid1.Coords)

abbrev cAcell : GSem nD τ sig := (V d (cV L) (jV L), .dma cc1_scoped0.sem)
abbrev cBcell : GSem nD τ sig := (V d (cV L) (jV L), .dma cc1_scoped1.sem)
abbrev cCcell : GSem nD τ sig := (V d (cV L) (jV L), .dma cc1_scoped2.sem)

omit [FloatOps F] in
/-- The subcore's own semaphores at zero are its three scoped DMA semaphores at zero and the others. -/
theorem ownSems0_V :
    (ownSems0 (V d (cV L) (jV L)) : sProp 𝕄)
      = iprop(semVal (cAcell d L) 0 ∗ semVal (cBcell d L) 0 ∗ semVal (cCcell d L) 0
          ∗ bigSep ((((ownCells (V d (cV L) (jV L))).erase (cAcell d L)).erase (cBcell d L)).erase (cCcell d L)) fun g => semVal g 0) := by
  unfold SparseCore.Cfg.ownSems0
  have hA : cAcell d L ∈ ownCells (V d (cV L) (jV L)) := mem_ownCells.mpr ⟨rfl, by
    show (SemLoc.dma cc1_scoped0.sem : SemLoc sig).isScoped .scVector = true; decide⟩
  have hB : cBcell d L ∈ ownCells (V d (cV L) (jV L)) := mem_ownCells.mpr ⟨rfl, by
    show (SemLoc.dma cc1_scoped1.sem : SemLoc sig).isScoped .scVector = true; decide⟩
  have hC : cCcell d L ∈ ownCells (V d (cV L) (jV L)) := mem_ownCells.mpr ⟨rfl, by
    show (SemLoc.dma cc1_scoped2.sem : SemLoc sig).isScoped .scVector = true; decide⟩
  have hBA : cBcell d L ≠ cAcell d L := fun e => absurd (congrArg Prod.snd e) (show (SemLoc.dma cc1_scoped1.sem : SemLoc sig) ≠ SemLoc.dma cc1_scoped0.sem by decide)
  have hCA : cCcell d L ≠ cAcell d L := fun e => absurd (congrArg Prod.snd e) (show (SemLoc.dma cc1_scoped2.sem : SemLoc sig) ≠ SemLoc.dma cc1_scoped0.sem by decide)
  have hCB : cCcell d L ≠ cBcell d L := fun e => absurd (congrArg Prod.snd e) (show (SemLoc.dma cc1_scoped2.sem : SemLoc sig) ≠ SemLoc.dma cc1_scoped1.sem by decide)
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

omit [FloatOps F] in
/-- The subcore's own buffers are its three scratches, each at some contents, and the others. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  have h0 : (Proc.scVector (cV L) (jV L)).devRef cc1_scratch0 ∈ ownRefs (τ := τ) (sig := sig) (.scVector (cV L) (jV L)) :=
    SparseCore.Cfg.mem_ownRefs_of_owner rfl
  have h1 : (Proc.scVector (cV L) (jV L)).devRef cc1_scratch1 ∈ ownRefs (τ := τ) (sig := sig) (.scVector (cV L) (jV L)) :=
    SparseCore.Cfg.mem_ownRefs_of_owner rfl
  have h2 : (Proc.scVector (cV L) (jV L)).devRef cc1_scratch2 ∈ ownRefs (τ := τ) (sig := sig) (.scVector (cV L) (jV L)) :=
    SparseCore.Cfg.mem_ownRefs_of_owner rfl
  have h10 : (Proc.scVector (cV L) (jV L)).devRef cc1_scratch1 ≠ (Proc.scVector (cV L) (jV L)).devRef cc1_scratch0 :=
    fun e => absurd (Proc.devRef_injective _ e) (show (cc1_scratch1 : Ref sig .scVector) ≠ cc1_scratch0 by decide)
  have h20 : (Proc.scVector (cV L) (jV L)).devRef cc1_scratch2 ≠ (Proc.scVector (cV L) (jV L)).devRef cc1_scratch0 :=
    fun e => absurd (Proc.devRef_injective _ e) (show (cc1_scratch2 : Ref sig .scVector) ≠ cc1_scratch0 by decide)
  have h21 : (Proc.scVector (cV L) (jV L)).devRef cc1_scratch2 ≠ (Proc.scVector (cV L) (jV L)).devRef cc1_scratch1 :=
    fun e => absurd (Proc.devRef_injective _ e) (show (cc1_scratch2 : Ref sig .scVector) ≠ cc1_scratch1 by decide)
  refine (SparseCore.bigSep_erase' h0).trans ?_
  rw [SparseCore.bigSep_erase' (Finset.mem_erase.mpr ⟨h10, h1⟩),
    SparseCore.bigSep_erase' (Finset.mem_erase.mpr ⟨h21, Finset.mem_erase.mpr ⟨h20, h2⟩⟩)]

omit [FloatOps F] in
/-- A held slice of an HBM array, as the subcore's slice memref addresses it, is the TensorCore's array on that slice's words. -/
theorem pts_x (f : Buf (Elt F) (v2Loc d)) :
    ((xBlk L).view.loc (V d (cV L) (jV L)) ↦[(xBlk L).view.set]{fullShare} f : sProp 𝕄) = v2Loc d ↦[xSet L]{fullShare} f := rfl
omit [FloatOps F] in
theorem pts_i (f : Buf (Elt F) (v1Loc d)) :
    ((iBlk L).view.loc (V d (cV L) (jV L)) ↦[(iBlk L).view.set]{fullShare} f : sProp 𝕄) = v1Loc d ↦[iSet L]{fullShare} f := rfl
omit [FloatOps F] in
theorem pts_o (f : Buf (Elt F) (v3Loc d)) :
    ((oBlk L).view.loc (V d (cV L) (jV L)) ↦[(oBlk L).view.set]{fullShare} f : sProp 𝕄) = v3Loc d ↦[oSet L]{fullShare} f := rfl

omit [FloatOps F] in
/-- A scratch held whole is the scratch memref's view held on its own words. -/
theorem pts_sI (f : Buf (Elt F) ((V d (cV L) (jV L)).loc cc1_scratch0)) :
    ((sI).view.loc (V d (cV L) (jV L)) ↦[(sI).view.set]{fullShare} f : sProp 𝕄) = (V d (cV L) (jV L)).loc cc1_scratch0 ↦{fullShare} f := by
  simp only [Memref.view_whole, View.set_whole]
omit [FloatOps F] in
theorem pts_sX (f : Buf (Elt F) ((V d (cV L) (jV L)).loc cc1_scratch1)) :
    ((sX).view.loc (V d (cV L) (jV L)) ↦[(sX).view.set]{fullShare} f : sProp 𝕄) = (V d (cV L) (jV L)).loc cc1_scratch1 ↦{fullShare} f := by
  simp only [Memref.view_whole, View.set_whole]
omit [FloatOps F] in
theorem pts_sO (f : Buf (Elt F) ((V d (cV L) (jV L)).loc cc1_scratch2)) :
    ((sO).view.loc (V d (cV L) (jV L)) ↦[(sO).view.set]{fullShare} f : sProp 𝕄) = (V d (cV L) (jV L)).loc cc1_scratch2 ↦{fullShare} f := by
  simp only [Memref.view_whole, View.set_whole]

/-- The kernel's body on the subcore at grid coordinates `L`: from its slices of the scores and of the options (and its slice of the
    result, at anything) to the same with the slice of the result holding the selected scores; its scratch and its semaphores back as
    they came. Each gather is a load of the whole scores scratch at indices that are in range because every option is below 64. -/
theorem tile_body
    (hI : ∀ j : S1024.Idx, (I d j).toNat < 64) (O : CellTallies nD τ sig (HIx 1)) (W : Waits sig (HIx 1)) (hO : ∀ g, O g none = 0) :
    iprop(levAts (K (F := F)).L (K (F := F)).lev ∗ emp ∗ goRes X I d L ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_select L xV (Memref.isWhole_whole _) iV (Memref.isWhole_whole _) oV (Memref.isWhole_whole _) (Memref.whole cc1_scratch0) (Memref.isWhole_whole _) (Memref.whole cc1_scratch1) (Memref.isWhole_whole _) (Memref.whole cc1_scratch2) (Memref.isWhole_whole _) cc1_scoped0 cc1_scoped1 cc1_scoped2)
          fun _ => iprop(tdRes X I d L ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc1__sc_select_eq_skeleton]; unfold cc1__sc_select_skel
  rw [(K (F := F)).scopedBufs_V facts d (cV L) (jV L), SparseCore.Cfg.scopedSems0_V (Val := Elt F) d (cV L) (jV L), ownSems0_V, ownBufs_V]
  unfold goRes
  iintro ⟨#Hlv, -, ⟨Hx, Hi, %fo, Ho⟩, ⟨⟨%fi0, Hs0⟩, ⟨%fx0, Hs1⟩, ⟨%fo0, Hs2⟩, Hbufs⟩, ⟨HsemA, HsemB, HsemC, Hsems⟩, HO⟩
  ihave Hmw := ((K (F := F)).mayWaits_none (thr := V d (cV L) (jV L)) hO) $$ Hlv
  ihave Hx' := (Entails.of_eq (pts_x (F := F) d L _).symm) $$ Hx
  ihave Hi' := (Entails.of_eq (pts_i (F := F) d L _).symm) $$ Hi
  ihave Ho' := (Entails.of_eq (pts_o (F := F) d L _).symm) $$ Ho
  ihave Hs0' := (Entails.of_eq (pts_sI (F := F) d L _).symm) $$ Hs0
  ihave Hs1' := (Entails.of_eq (pts_sX (F := F) d L _).symm) $$ Hs1
  ihave Hs2' := (Entails.of_eq (pts_sO (F := F) d L _).symm) $$ Hs2
  sl_exec

  have hchk1 : k1_chk1 (tile_body.sl.v10 I d L) := by
    refine chk1_of _ fun x => ?_
    unfold tile_body.sl.v9 tile_body.sl.dma0_1
    rw [readCov_whole_apply]
    exact hI _
  iapply (wp_assume _ _ _ _ hchk1)
  rw [SparseCore.vectorLoadIdx_bind (V d (cV L) (jV L))]
  sl_exec
  have hchk2 : k1_chk2 (tile_body.sl.v19 I d L) := by
    refine chk2_of _ fun x => ?_
    unfold tile_body.sl.v18 tile_body.sl.dma0_1
    rw [readCov_whole_apply]
    exact hI _
  iapply (wp_assume _ _ _ _ hchk2)
  rw [SparseCore.vectorLoadIdx_bind (V d (cV L) (jV L))]
  sl_exec
  sl_step

  have hf : ∀ z, tile_body.sl.f X d L z = X d ((xBlk L).view.emb z) := fun z => by
    unfold tile_body.sl.f tile_body.sl.dma0
    rw [readCov_whole_apply, LoadRect.idx_whole]; rfl
  have hf' : ∀ z, tile_body.sl.f_1 X d L z = X d ((xBlk L).view.emb z) := fun z => by
    unfold tile_body.sl.f_1 tile_body.sl.dma0
    rw [readCov_whole_apply, LoadRect.idx_whole]; rfl
  have hv9 : ∀ x, tile_body.sl.v9 I d L x = I d ((iBlk L).view.emb (B0.emb x)) := fun x => by
    unfold tile_body.sl.v9 tile_body.sl.dma0_1
    rw [readCov_whole_apply]; rfl
  have hv18 : ∀ x, tile_body.sl.v18 I d L x = I d ((iBlk L).view.emb (B16.emb x)) := fun x => by
    unfold tile_body.sl.v18 tile_body.sl.dma0_1
    rw [readCov_whole_apply]; rfl
  have hval := out_congr X I d L fo (tile_body.sl.dma3 X I d L fo0 hchk1 hchk2) fun y => by
    unfold tile_body.sl.dma3 tile_body.sl.Hs2'_2 tile_body.sl.v10 tile_body.sl.v19
    exact out_value X I d L fo0 _ _ _ _ _ _ hI hf hf' hv9 hv18 y
  isplitl [Hx' Hi' Ho']
  · unfold tdRes
    isplitl [Hx']; · iapply (Entails.of_eq (pts_x (F := F) d L _)); iexact Hx'
    isplitl [Hi']; · iapply (Entails.of_eq (pts_i (F := F) d L _)); iexact Hi'
    iapply (Entails.of_eq hval); iapply (Entails.of_eq (pts_o (F := F) d L _)); iexact Ho'
  isplitl [Hs0' Hs1' Hs2' Hbufs]
  · isplitl [Hs0']; · iexists _; iapply (Entails.of_eq (pts_sI (F := F) d L _)); iexact Hs0'
    isplitl [Hs1']; · iexists _; iapply (Entails.of_eq (pts_sX (F := F) d L _)); iexact Hs1'
    isplitl [Hs2']; · iexists _; iapply (Entails.of_eq (pts_sO (F := F) d L _)); iexact Hs2'
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc1_scoped2.sem, (default : HIx 1)) (insert (SemLoc.dma cc1_scoped1.sem, (default : HIx 1))
    (insert (SemLoc.dma cc1_scoped0.sem, (default : HIx 1)) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

/-- The same with the kernel's coordinates under another spelling `L'` of `L`. -/
theorem tile_body' (L' : grid1.Coords) (h : L' = L)
    (hI : ∀ j : S1024.Idx, (I d j).toNat < 64) (O : CellTallies nD τ sig (HIx 1)) (W : Waits sig (HIx 1)) (hO : ∀ g, O g none = 0) :
    iprop(levAts (K (F := F)).L (K (F := F)).lev ∗ emp ∗ goRes X I d L ∗ scopedBufs (V d (cV L') (jV L')) ∗ scopedSems0 (V d (cV L') (jV L')) ∗ owes (V d (cV L') (jV L')) O W)
      ⊢ wp frame (wpE (defs₀ (F := F)) 𝒱₀ (V d (cV L') (jV L')) none) Set.univ
          (cc1__sc_select L' xV (Memref.isWhole_whole _) iV (Memref.isWhole_whole _) oV (Memref.isWhole_whole _) (Memref.whole cc1_scratch0) (Memref.isWhole_whole _) (Memref.whole cc1_scratch1) (Memref.isWhole_whole _) (Memref.whole cc1_scratch2) (Memref.isWhole_whole _) cc1_scoped0 cc1_scoped1 cc1_scoped2)
          fun _ => iprop(tdRes X I d L ∗ scopedBufs (V d (cV L') (jV L')) ∗ scopedSems0 (V d (cV L') (jV L')) ∗ ∃ W', ⌜∀ p ∈ W', p ∈ W ∨ p.2 = none⌝ ∗ owes (V d (cV L') (jV L')) O W') := by
  subst h; exact tile_body X I d L' hI O W hO

end Tile

/-! ## The launch theorem's obligation for the call's tasks -/

section Obl

variable (X : (d : Dev nD) → Buf (Elt F) (v2Loc d)) (I : (d : Dev nD) → Buf (Elt F) (v1Loc d))

/-- The grid coordinates as the program hands them to the kernel. -/
def coordsG (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_select (coordsG c s) xV (Memref.isWhole_whole _) iV (Memref.isWhole_whole _) oV (Memref.isWhole_whole _)
          (Memref.whole cc1_scratch0) (Memref.isWhole_whole _) (Memref.whole cc1_scratch1) (Memref.isWhole_whole _) (Memref.whole cc1_scratch2) (Memref.isWhole_whole _)
          cc1_scoped0 cc1_scoped1 cc1_scoped2) ⟨⟩ c s := rfl

omit [FloatOps F] in
/-- They are the coordinates of the call's SparseCore `c` and subcore `i`. -/
theorem coordsG_eq (c : Fin ((K (F := F)).nCore 0)) (i : Fin ((K (F := F)).nSub 0))
    (h1 : ((K (F := F)).core 0 c).val < grid1.bound 0) (h2 : ((K (F := F)).sub 0 i).val < grid1.bound 1) :
    coordsG ⟨((K (F := F)).core 0 c).val, h1⟩ ⟨((K (F := F)).sub 0 i).val, h2⟩ = coordsOf (F := F) c i := by
  funext a
  match a with
  | ⟨0, _⟩ => rfl
  | ⟨1, _⟩ => rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call runs the kernel's body at its own coordinates: from its slices to the selected scores. -/
theorem tileObl (hI : ∀ (d : Dev nD) (j : S1024.Idx), (I d j).toNat < 64) : (K (F := F)).TileObl (D (F := F)) 𝒱 (P X I) v₀ 0 := by
  intro d c i O W hO _ _
  simp only [show (P X I).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body' X I d (coordsOf c i) (coordsG ⟨_, hc.1⟩ ⟨_, hc.2⟩) (coordsG_eq c i hc.1 hc.2) (hI d) O W hO).trans (wp_mono frame _ _ fun _ => obl_post)

end Obl

end Cert.Kernel.Hand
end
-- ==== Proof.KBReshape.lean ====
/-
  The three host reshapes of the program, read at an index.

  A reshape keeps every element's row-major position. The option column `[1024, 1]` and the flat options `[1024]` have
  entry `(b, 0)` and entry `b` at the same position `b`; the score matrix `[1024, 64]` has entry `(b, o)` at position
  `64·b + o`, which is word `64·b + o` of the flat scores; and the result column's entry `(b, 0)` is word `b` of the
  selected scores. In particular the flat options are below 64 wherever the option column is.
-/
import proofs.«205531_g87737591923446_cont_sun_m_531_28_alg».proof.Proof.KBArrays
import Idealize.ShloMosaic.Lib.Pipeline.Value
import Idealize.ShloMosaic.Lib.ValueIdx
import Idealize.ShloMosaic.Lib.StableHlo.Run

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.Sem
open Idealize.ShloMosaic.ValueIdx

variable {F : FTy → Type} [FloatOps F]

variable (m : (ℓ : Loc nD τ sig) → Buf (Elt F) ℓ)

theorem Iarr_apply (d : Dev nD) (j : S1024.Idx) :
    Iarr m d j = m ((SparseCore.T d).loc main_arg1) (ValueIdx.ix2 (j 0) (0 : Fin 1)) := by
  unfold Iarr
  rw [StableHlo.reshape_result]
  show shapeCast S1024 (W0 m d a1') shapeCasts_S1024x1_S1024 j = _
  refine (shapeCast_apply _ _ j (ValueIdx.ix2 (j 0) (0 : Fin 1)) ?_).trans rfl
  rw [Shape.rowMajor_val_two, Shape.rowMajor_val_one]
  show (j 0).val * 1 + 0 = (j 0).val
  omega

theorem Xarr_apply (d : Dev nD) (b : Fin 1024) (o : Fin 64) :
    Xarr m d (ValueIdx.ix1 ⟨64 * b.val + o.val, by omega⟩) = scoresArr m (Otc0 (F := F)) d (ValueIdx.ix2 b o) := by
  unfold Xarr
  rw [StableHlo.reshape_result]
  show shapeCast S65536 (Function.update (W0 m d) v0' (scoresArr m (Otc0 (F := F)) d) v0') shapeCasts_S1024x64_S65536 _ = _
  rw [Function.update_self]
  refine shapeCast_apply _ _ _ (ValueIdx.ix2 b o) ?_
  rw [Shape.rowMajor_val_two, Shape.rowMajor_val_one]
  show b.val * 64 + o.val = 64 * b.val + o.val
  omega

theorem outArr_apply (d : Dev nD) (b : Fin 1024) :
    outArr m d (ValueIdx.ix2 b (0 : Fin 1)) = sel (Xarr m) (Iarr m) d (ValueIdx.ix1 b) := by
  unfold outArr
  rw [StableHlo.reshape_result]
  show shapeCast S1024x1 (Function.update (W0 m d) v3' (sel (Xarr m) (Iarr m) d) v3') shapeCasts_S1024_S1024x1 _ = _
  rw [Function.update_self]
  refine shapeCast_apply _ _ _ (ValueIdx.ix1 b) ?_
  rw [Shape.rowMajor_val_two, Shape.rowMajor_val_one]
  show b.val = b.val * 1 + 0
  omega

theorem Iarr_lt (h : ∀ (d : Dev nD) (j : S1024x1.Idx), (m ((SparseCore.T d).loc main_arg1) j).toNat < 64) :
    ∀ (d : Dev nD) (j : S1024.Idx), (Iarr m d j).toNat < 64 := fun d j => by
  rw [Iarr_apply]; exact h d _

end Cert.Kernel.Hand

end
-- ==== Proof.KBLaunch.lean ====
/-
  The launch of the kernel's program: the TensorCore's @main around the SparseCore call.

  @main runs the region (which leaves the scores in `main_v0`), flattens the options and the scores, starts the
  thirty-two vector subcores on their slices and waits for them, and reshapes the selected scores into the result.
  Every thread's proof is assembled by the SparseCore launch theorem; the three flat arrays are split into the
  subcores' slices before the call and joined after it.
-/
import proofs.«205531_g87737591923446_cont_sun_m_531_28_alg».proof.Proof.KBCommon
import proofs.«205531_g87737591923446_cont_sun_m_531_28_alg».proof.Proof.KBRegionSeg
import proofs.«205531_g87737591923446_cont_sun_m_531_28_alg».proof.Proof.KBRegionBody
import proofs.«205531_g87737591923446_cont_sun_m_531_28_alg».proof.Proof.KBArrays
import proofs.«205531_g87737591923446_cont_sun_m_531_28_alg».proof.Proof.KBSplit
import proofs.«205531_g87737591923446_cont_sun_m_531_28_alg».proof.Proof.KBFin
import proofs.«205531_g87737591923446_cont_sun_m_531_28_alg».proof.Proof.KBTile
import proofs.«205531_g87737591923446_cont_sun_m_531_28_alg».proof.Proof.KBReshape

noncomputable section

namespace Cert.Kernel.Hand

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element: the handshakes' rounds, the region's staging cells' rounds, the counters' unit -/

abbrev pin0 : Fin 1 → Pipeline.Cfg sig Λ₀ := Pipeline.pin (pcs0 (F := F)) adm0

def u₀ : UU :=
  (initOf (K (F := F)).hsCells (K (F := F)).hsToks,
    (initOf (Pipeline.cells (nD := nD) (τ := τ) (pin0 (F := F)) cellOf_inj) (Pipeline.launchToks (nD := nD) (τ := τ) (pin0 (F := F)) cellOf_inj), 1))

/-- What @main's proof starts from beside the launch's deal: the region's staging cells' ghost state and duty tokens. -/
def Gd (d : Dev nD) : sProp 𝕄 :=
  iprop(Pipeline.cellsGhost (pin0 (F := F)) ER 0 d ∗ Pipeline.toksInit (pin0 (F := F)) ER 0 d)

section Elem

variable (X : (d : Dev nD) → Buf (Elt F) (v2Loc d)) (I : (d : Dev nD) → Buf (Elt F) (v1Loc d))

omit [FloatOps F] in
theorem bigSep_emp' {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P X I).x q thr) := by
  unfold u₀
  iintro Hu
  ihave H := (ownU_pair _ _) $$ Hu
  icases H with ⟨HH, HR⟩
  ihave H2 := (own_pair_emb (embR : Emb (UR × Counters) 𝕄) _ _) $$ HR
  icases H2 with ⟨HP, -⟩
  ihave HP' := (Entails.of_eq (show (BI.own (((Emb.inl : Emb UR (UR × Counters)).trans (embR : Emb (UR × Counters) 𝕄)) _) : sProp 𝕄) = BI.own (ER _) from rfl)) $$ HP
  imod (Pipeline.fund_ghost (pin0 (F := F)) ER cellOf_inj) $$ HP' with ⟨Hg, Ht⟩
  imodintro
  isplitl [HH]; · iexact HH
  isplitl [Hg Ht]
  · unfold Gd
    rw [bigSep_sep']
    have e1 : ∀ (Φ : Fin 1 → sProp 𝕄), bigSep (Finset.univ : Finset (Fin 1)) Φ = Φ 0 := fun Φ => by
      rw [show (Finset.univ : Finset (Fin 1)) = {0} from rfl, bigSep_singleton]
    isplitl [Hg]
    · iapply (Entails.of_eq (bigSep_congr (fun d _ => e1 (fun p => Pipeline.cellsGhost (pin0 (F := F)) ER p d))))
      iexact Hg
    · iapply (Entails.of_eq (bigSep_congr (fun d _ => e1 (fun p => Pipeline.toksInit (pin0 (F := F)) ER p d))))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- The split of a SparseCore's share into its subcores' shares, and of their results back: the identity. -/
theorem vecSplit' : (K (F := F)).VecSplit' (P X I) 0 := by
  intro d c
  show (bigSep Finset.univ fun i : Fin ((K (F := F)).nSub 0) => goRes X I d (coordsOf c i))
    ⊢ |={Set.univ}=> iprop((bigSep Finset.univ fun i : Fin ((K (F := F)).nSub 0) => goRes X I d (coordsOf c i))
      ∗ ((bigSep Finset.univ fun i : Fin ((K (F := F)).nSub 0) => tdRes X I d (coordsOf c i)) -∗ bigSep Finset.univ fun i : Fin ((K (F := F)).nSub 0) => tdRes X I d (coordsOf c i)))
  iintro Hst
  imodintro
  isplitl [Hst]; · iexact Hst
  iintro Htd; iexact Htd

end Elem

/-! ## @main on the TensorCore -/

section Main

/-- The TensorCore's buffers after the region: `main_v0` at the region's array, the rest as launched. -/
def Vp (c : Dev nD) (b : Ref sig .tc) : Buf (Elt F) ((c : Thread nD τ).loc b) :=
  if h : b = main_v0 then h ▸ scoresArr m (Otc0 (F := F)) c else V0 m c b
theorem Vp_out (c : Dev nD) : Vp m c main_v0 = scoresArr m (Otc0 (F := F)) c := by unfold Vp; rw [dif_pos rfl]
theorem Vp_ne (c : Dev nD) (b : Ref sig .tc) (h : b ≠ main_v0) : Vp m c b = V0 m c b := by unfold Vp; rw [dif_neg h]

omit [FloatOps F] in
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1) ∗ (aLoc d main_arg2 ↦{fullShare} W main_arg2)
      ∗ (aLoc d main_arg3 ↦{fullShare} W main_arg3) ∗ (aLoc d main_arg4 ↦{fullShare} W main_arg4) ∗ (aLoc d main_arg5 ↦{fullShare} W main_arg5)
      ∗ (aLoc d main_v0 ↦{fullShare} W main_v0) ∗ (aLoc d main_v1 ↦{fullShare} W main_v1) ∗ (aLoc d main_v2 ↦{fullShare} W main_v2)
      ∗ (aLoc d main_v3 ↦{fullShare} W main_v3) ∗ (aLoc d main_v4 ↦{fullShare} W main_v4)) := by
  unfold unscopedBufs
  rw [show (Finset.univ.filter fun b : Ref sig .tc => ¬ b.isScoped) = {main_arg0, main_arg1, main_arg2, main_arg3, main_arg4, main_arg5, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The TensorCore's state before the call, its debts apart. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
theorem tcSt_zero (d : Dev nD) : (K (F := F)).tcSt EH d 0
    = iprop((∃ W, ⌜(K (F := F)).WBelow (SparseCore.T d) W (8 * 0)⌝ ∗ owes (SparseCore.T d) ((K (F := F)).Otc d 0) W) ∗ tcRest (F := F) d) := rfl

/-- The region's record at the launch memory. -/
abbrev regM : Pipeline.RegionSeg (pcs0 (F := F)) adm0 (dats m (Otc0 (F := F))) (none : HIx 1) (defs₀ (F := F)) 𝒱₀ (K (F := F)).L (K (F := F)).lev (0 : Fin 1) :=
  reg m (Otc0 (F := F)) (Vp m) (fun c => body_obligation m (Otc0 (F := F)) c) Otc0_none (Vp_out m) (Vp_ne m)
theorem regM_pre (d : Dev nD) : (regM m).pre d = iprop(unscopedBufs d (V0 m d) ∗ owesN (Otc0 (F := F)) d) := rfl
theorem regM_post (d : Dev nD) : (regM m).post d = iprop(unscopedBufs d (Vp m d) ∗ owesN (Otc0 (F := F)) d) := rfl

theorem unscopedBufs_Vp (d : Dev nD) :
    (unscopedBufs d (Vp m d) : sProp 𝕄) = iprop((aLoc d main_arg0 ↦{fullShare} m (aLoc d main_arg0)) ∗ (aLoc d main_arg1 ↦{fullShare} m (aLoc d main_arg1)) ∗ (aLoc d main_arg2 ↦{fullShare} m (aLoc d main_arg2))
      ∗ (aLoc d main_arg3 ↦{fullShare} m (aLoc d main_arg3)) ∗ (aLoc d main_arg4 ↦{fullShare} m (aLoc d main_arg4)) ∗ (aLoc d main_arg5 ↦{fullShare} m (aLoc d main_arg5))
      ∗ (aLoc d main_v0 ↦{fullShare} scoresArr m (Otc0 (F := F)) d) ∗ (aLoc d main_v1 ↦{fullShare} m (aLoc d main_v1)) ∗ (aLoc d main_v2 ↦{fullShare} m (aLoc d main_v2))
      ∗ (aLoc d main_v3 ↦{fullShare} m (aLoc d main_v3)) ∗ (aLoc d main_v4 ↦{fullShare} m (aLoc d main_v4))) := by
  rw [unscopedBufs_eq, Vp_out, Vp_ne m d main_arg0 (by decide), Vp_ne m d main_arg1 (by decide), Vp_ne m d main_arg2 (by decide), Vp_ne m d main_arg3 (by decide),
    Vp_ne m d main_arg4 (by decide), Vp_ne m d main_arg5 (by decide), Vp_ne m d main_v1 (by decide), Vp_ne m d main_v2 (by decide), Vp_ne m d main_v3 (by decide), Vp_ne m d main_v4 (by decide)]

omit [FloatOps F] in
theorem held_a1v1 (d : Dev nD) (V : Valuation τ sig (Elt F)) :
    (held (SparseCore.T d) {a1', v1'} V : sProp 𝕄) = iprop((aLoc d main_arg1 ↦{fullShare} V a1') ∗ (aLoc d main_v1 ↦{fullShare} V v1')) := by
  unfold held; rw [SparseCore.bigSep_insert' (by decide), bigSep_singleton]
omit [FloatOps F] in
theorem held_v0v2 (d : Dev nD) (V : Valuation τ sig (Elt F)) :
    (held (SparseCore.T d) {v0', v2'} V : sProp 𝕄) = iprop((aLoc d main_v0 ↦{fullShare} V v0') ∗ (aLoc d main_v2 ↦{fullShare} V v2')) := by
  unfold held; rw [SparseCore.bigSep_insert' (by decide), bigSep_singleton]
omit [FloatOps F] in
theorem held_v3v4 (d : Dev nD) (V : Valuation τ sig (Elt F)) :
    (held (SparseCore.T d) {v3', v4'} V : sProp 𝕄) = iprop((aLoc d main_v3 ↦{fullShare} V v3') ∗ (aLoc d main_v4 ↦{fullShare} V v4')) := by
  unfold held; rw [SparseCore.bigSep_insert' (by decide), bigSep_singleton]

omit [FloatOps F] in
theorem hsub1 : (op1 (F := F)).bufs ⊆ {a1', v1'} := show ({a1', v1'} : Finset (DevRef τ sig)) ⊆ {a1', v1'} from Finset.Subset.refl _
omit [FloatOps F] in
theorem hsub2 : (op2 (F := F)).bufs ⊆ {v0', v2'} := show ({v0', v2'} : Finset (DevRef τ sig)) ⊆ {v0', v2'} from Finset.Subset.refl _
omit [FloatOps F] in
theorem hsub3 : (op3 (F := F)).bufs ⊆ {v3', v4'} := show ({v3', v4'} : Finset (DevRef τ sig)) ⊆ {v3', v4'} from Finset.Subset.refl _

/-- After the first reshape: the option column untouched, the flat options named. -/
theorem held_op1 (d : Dev nD) : (held (SparseCore.T d) {a1', v1'} ((op1 (F := F)).result (W0 m d)) : sProp 𝕄)
    = iprop((aLoc d main_arg1 ↦{fullShare} m (aLoc d main_arg1)) ∗ (v1Loc d ↦{fullShare} Iarr m d)) := by
  rw [held_a1v1, (op1 (F := F)).result_of_not_mem (W0 m d) (b := a1') (show a1' ∉ ({v1'} : Finset (DevRef τ sig)) by decide)]; rfl
/-- After the second: the scores matrix untouched, the flat scores named. -/
theorem held_op2 (d : Dev nD) : (held (SparseCore.T d) {v0', v2'} ((op2 (F := F)).result (Function.update (W0 m d) v0' (scoresArr m (Otc0 (F := F)) d))) : sProp 𝕄)
    = iprop((aLoc d main_v0 ↦{fullShare} scoresArr m (Otc0 (F := F)) d) ∗ (v2Loc d ↦{fullShare} Xarr m d)) := by
  rw [held_v0v2, (op2 (F := F)).result_of_not_mem _ (b := v0') (show v0' ∉ ({v2'} : Finset (DevRef τ sig)) by decide), Function.update_self]; rfl
/-- After the third: the selected scores untouched, the result named. -/
theorem held_op3 (d : Dev nD) : (held (SparseCore.T d) {v3', v4'} ((op3 (F := F)).result (Function.update (W0 m d) v3' (sel (Xarr m) (Iarr m) d))) : sProp 𝕄)
    = iprop((v3Loc d ↦{fullShare} sel (Xarr m) (Iarr m) d) ∗ (v4Loc d ↦{fullShare} outArr m d)) := by
  rw [held_v3v4, (op3 (F := F)).result_of_not_mem _ (b := v3') (show v3' ∉ ({v4'} : Finset (DevRef τ sig)) by decide), Function.update_self]; rfl

theorem hmain (κ : GSem nD τ sig → ℕ) (d : Dev nD) :
    iprop((K (F := F)).ctx EH (P (Xarr m) (Iarr m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes Gd
  rw [tcSt_zero]
  simp only [main, wp_bind, wp_pure]
  iintro ⟨#Hctx, ⟨⟨%W, %hW, HO⟩, Hst'⟩, ⟨Hb, Hub, Hsems, Hprng⟩, ⟨Hg, Ht⟩⟩
  ihave Hlev := (SparseCore.Cfg.ctx_levAts κ) $$ Hctx
  -- the region: entered through the pipeline's signature, run by its segment rule
  iapply ((K (F := F)).wp_liftProg (D (F := F)) 𝒱 (SparseCore.T d) Set.univ none (Prog.lift (.customCall (Pipeline.entry 0) ())) _)
  iapply (Pipeline.RegionSeg.wp (pcs0 (F := F)) adm0 (dats m (Otc0 (F := F))) (none : HIx 1) cellOf_inj ER (defs₀ (F := F)) 𝒱₀ (K (F := F)).L (K (F := F)).lev
    (regM m) d none (fun u hu => nomatch hu) (fun x => .ret x) _)
  have hWn : ∀ p ∈ W, p.2 = none := fun p hp => by
    have h := hW p hp
    rcases hp2 : p.2 with _ | q
    · rfl
    · rw [hp2] at h; have := (K (F := F)).lev_some_pos (SparseCore.T d, p.1) q; omega
  isplitr [Hb Hub HO Hg Ht]
  swap
  · isplitl [Hb]; · iexact Hb
    isplitl [Hub HO]
    · iapply (Entails.of_eq (regM_pre m d).symm)
      isplitl [Hub]; · iexact Hub
      unfold owesN; iexists W; isplitr; · ipureintro; exact hWn
      iexact HO
    isplitr; · iexact Hlev
    isplitl [Hg] <;> iassumption
  iintro ⟨Hb, Hpost⟩
  ihave Hpost' := (Entails.of_eq (regM_post m d)) $$ Hpost
  icases Hpost' with ⟨Hub, HO⟩
  rw [wp_ret]; imodintro
  ihave Hl := (Entails.of_eq (unscopedBufs_Vp m d)) $$ Hub
  icases Hl with ⟨Ha0, Ha1, Ha2, Ha3, Ha4, Ha5, Hv0, Hv1, Hv2, Hv3, Hv4⟩
  -- the options flattened
  iapply (wp_hlo_within 𝒱 (SparseCore.T d) none Set.univ (op := op1 (F := F)) (S := {a1', v1'}) hsub1 (V := W0 m d)) $$ [Hb Ha1 Hv1]
  · isplitl [Hb]; · iexact Hb
    rw [held_a1v1]
    isplitl [Ha1]; · iexact Ha1
    iexact Hv1
  iintro ⟨Hb, Hheld⟩
  ihave Hh := (Entails.of_eq (held_op1 m d)) $$ Hheld
  icases Hh with ⟨Ha1, Hv1⟩
  rw [wp_ret]; imodintro
  -- the scores flattened
  iapply (wp_hlo_within 𝒱 (SparseCore.T d) none Set.univ (op := op2 (F := F)) (S := {v0', v2'}) hsub2
    (V := Function.update (W0 m d) v0' (scoresArr m (Otc0 (F := F)) d))) $$ [Hb Hv0 Hv2]
  · isplitl [Hb]; · iexact Hb
    rw [held_v0v2, Function.update_self, Function.update_of_ne (show v2' ≠ v0' by decide)]
    isplitl [Hv0]; · iexact Hv0
    iexact Hv2
  iintro ⟨Hb, Hheld⟩
  ihave Hh := (Entails.of_eq (held_op2 m d)) $$ Hheld
  icases Hh with ⟨Hv0, Hv2⟩
  rw [wp_ret]; imodintro
  -- the call: the three flat arrays split among the subcores, and joined after
  ihave Hgo := (split_go (Xarr m) (Iarr m) d) $$ [Hv2 Hv1 Hv3]
  · isplitl [Hv2]; · iexact Hv2
    isplitl [Hv1]; · iexact Hv1
    iexists _; iexact Hv3
  iapply ((K (F := F)).wp_run (D (F := F)) 𝒱 (EH := EH) (P := P (Xarr m) (Iarr m)) κ d 0) $$ [HO Hst' Hgo Hb Ha0 Ha1 Ha2 Ha3 Ha4 Ha5 Hv0 Hv4 Hsems Hprng]
  isplitr; · iexact Hctx
  isplitl [HO Hst']
  · iapply (Entails.of_eq (tcSt_zero (F := F) d).symm)
    isplitl [HO]
    · unfold owesN
      icases HO with ⟨%W2, %hW2, HO⟩
      iexists W2; isplitr
      · ipureintro; intro p hp; rw [hW2 p hp]; exact le_of_eq ((K (F := F)).lev_none _)
      iexact HO
    iexact Hst'
  isplitl [Hgo]; · iexact Hgo
  iintro ⟨Hst, Hdn⟩
  ihave Hdn' := (Entails.of_eq (show (bigSep Finset.univ fun c : Fin ((K (F := F)).nCore 0) => (P (Xarr m) (Iarr m)).dn 0 d c)
      = (bigSep Finset.univ fun c : Fin ((K (F := F)).nCore 0) => bigSep Finset.univ fun i : Fin ((K (F := F)).nSub 0) => tdRes (Xarr m) (Iarr m) d (coordsOf c i) : sProp 𝕄) from rfl)) $$ Hdn
  ihave Htd := (join_td (Xarr m) (Iarr m) d) $$ Hdn'
  icases Htd with ⟨Hv2, Hv1, Hv3⟩
  -- the result reshaped
  iapply (wp_hlo_within 𝒱 (SparseCore.T d) none Set.univ (op := op3 (F := F)) (S := {v3', v4'}) hsub3
    (V := Function.update (W0 m d) v3' (sel (Xarr m) (Iarr m) d))) $$ [Hb Hv3 Hv4]
  · isplitl [Hb]; · iexact Hb
    rw [held_v3v4, Function.update_self, Function.update_of_ne (show v4' ≠ v3' by decide)]
    isplitl [Hv3]; · iexact Hv3
    iexact Hv4
  iintro ⟨Hb, Hheld⟩
  ihave Hh := (Entails.of_eq (held_op3 m d)) $$ Hheld
  icases Hh with ⟨Hv3, Hv4⟩
  rw [wp_ret]; imodintro; imodintro
  isplitl [Hst]; · iexact Hst
  unfold FIN
  isplitl [Hv4]; · iexact Hv4
  isplitl [Ha0]; · iexact Ha0
  isplitl [Ha1]; · iexact Ha1
  isplitl [Ha2]; · iexact Ha2
  isplitl [Ha3]; · iexact Ha3
  isplitl [Ha4]; · iexact Ha4
  iexact Ha5

/-! ## The program's run -/

theorem run_main [∀ e, Nonempty (Elt F e)] (hopt : OptOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Xarr m) (Iarr m)) facts v₀
    (fun q hq => match q with | 0 => nomatch hq)
    (fun q _ => match q with | 0 => tileObl (Xarr m) (Iarr m) (Iarr_lt m hopt))
    (fun q _ => match q with | 0 => SparseCore.Cfg.VecSplit.of_plain (vecSplit' (Xarr m) (Iarr m)))
    m ρ main (fun d => Gd (F := F) d) (FIN m) (u₀ (F := F)) (sep_elim_left.trans (hu₀ (Xarr m) (Iarr m))) (hmain m ρ) (fq m) (hfin m) (QC m)
    (fun s' h => hQ m s' h)

end Main

end Cert.Kernel.Hand

end
-- ==== Proof.PreDecode.lean ====
import proofs.«205531_g87737591923446_cont_sun_m_531_28_alg».proof.Pre_input_domain
import proofs.«205531_g87737591923446_cont_sun_m_531_28_alg».proof.Proof.Gen.Pre_input_domain
import Idealize.ShloMosaic.Lib.ReduceAll
import Idealize.ShloMosaic.Lib.ValueIdx
import Idealize.ShloMosaic.PureOps.Ideal

/-!
# The precondition, decoded

The precondition is a single truth value: the conjunction of six "for all entries" tests, one per
input.  For each of the five real-valued inputs the test is `|x| < +∞` at every entry; for the
integer input it is `0 ≤ n ∧ n ≤ 63` (signed) at every entry.

Assuming that truth value is "true", this module reads the conjunction back:

* a conjunction of one-bit words equal to 1 has both of its operands equal to 1;
* an "and"-reduction over all axes equal to 1 had a 1 at every entry;
* for a 32-bit word `n`, `0 ≤ n ≤ 63` read signed gives `n < 64` read unsigned (a signed reading that
  is nonnegative is the unsigned reading);
* for an extended real `x`, `max x (-x) < +∞` excludes both `x = +∞` and `x = -∞`
  (in either case the maximum is `+∞`), so `x` is a real number; here `+∞` enters as the value of the
  32-bit pattern with all exponent bits set and zero significand.

The integer range is obtained for an arbitrary interpretation of the real-valued operations (the five
real-valued tests are split off and never inspected); finiteness is obtained in the exact
(extended-real) interpretation.
-/

noncomputable section

namespace Cert.Hand.PreDecode

open Idealize.ShloMosaic Idealize.ShloMosaic.ValueIdx Cert.Pre_input_domain

/-- The rank-0 shape has exactly one index. -/
instance : Subsingleton S_.Idx := ⟨fun a b => funext fun d => d.elim0⟩

/-- The 32-bit pattern `0x7F800000` (sign 0, exponent all ones, significand 0) denotes `+∞`. -/
theorem inf_bits : (FloatOps.ofBits (F := Ideal) .f32 0x7F800000#32 : EReal) = ⊤ := by
  show Ideal.ofBits .f32 0x7F800000#32 = ⊤
  simp [Ideal.ofBits, Ideal.ieee]

/-- An extended real whose absolute value `max x (-x)` is below `+∞` is a real number. -/
theorem finite_of_abs_lt_top (x : EReal) (hx : max x (-x) < ⊤) : ∃ r : ℝ, x = (r : EReal) := by
  induction x using EReal.rec with
  | bot => simp at hx
  | coe r => exact ⟨r, rfl⟩
  | top => simp at hx

/-- The elementwise test `|x| < +∞`, as the exact interpretation computes it, answering 1 makes `x` a real. -/
theorem finite_of_cmp (x : Ideal .f32)
    (hx : FloatOps.cmpf (F := Ideal) .olt (FloatOps.hostAbsf (F := Ideal) x)
      (FloatOps.ofBits (F := Ideal) .f32 0x7F800000#32) = 1#1) :
    ∃ r : ℝ, x = (r : EReal) := by
  rw [inf_bits] at hx
  apply finite_of_abs_lt_top
  change Ideal.cmp .olt (max x (-x)) ⊤ = 1#1 at hx
  unfold Ideal.cmp at hx
  by_contra hc
  simp [hc] at hx

/-- A 32-bit word that tests `0 ≤ w` and `w ≤ 63` signed is below 64 unsigned. -/
theorem range_of_cmp (w : BitVec 32) (h0 : IntOp.cmpi .sge w 0#32 = 1#1) (h1 : IntOp.cmpi .sle w 63#32 = 1#1) :
    w.toNat < 64 := by
  rw [IntOp.cmpi_sge] at h0
  rw [IntOp.cmpi_sle] at h1
  rw [show (0#32 : BitVec 32).toInt = 0 from by decide] at h0
  rw [show (63#32 : BitVec 32).toInt = 63 from by decide] at h1
  have := w.isLt
  unfold BitVec.toInt at h0 h1
  split at h0 <;> omega

/-- The precondition read back into its six families of elementwise facts, for any interpretation of
the real-valued operations: evaluate at the one index of the scalar result, split the five nested
conjunctions, and read each all-axes "and"-reduction at an arbitrary entry. -/
theorem decode {F : FTy → Type} [FloatOps F] (state : FVec F S1024x512 .f32) (opt : IVec S1024x1 32)
    (action : FVec F S1024x8 .f32) (l1 : FVec F S64x512x128 .f32) (l2 : FVec F S64x128x128 .f32)
    (l3 : FVec F S64x128x1 .f32)
    (h : Cert.Pre_input_domain.fn (F := F) state opt action l1 l2 l3 = fun _ => 1#1) :
    (∀ j, FloatOps.cmpf .olt (FloatOps.hostAbsf (state j)) (FloatOps.ofBits .f32 0x7F800000#32) = 1#1) ∧
    (∀ j, FloatOps.cmpf .olt (FloatOps.hostAbsf (action j)) (FloatOps.ofBits .f32 0x7F800000#32) = 1#1) ∧
    (∀ j, FloatOps.cmpf .olt (FloatOps.hostAbsf (l1 j)) (FloatOps.ofBits .f32 0x7F800000#32) = 1#1) ∧
    (∀ j, FloatOps.cmpf .olt (FloatOps.hostAbsf (l2 j)) (FloatOps.ofBits .f32 0x7F800000#32) = 1#1) ∧
    (∀ j, FloatOps.cmpf .olt (FloatOps.hostAbsf (l3 j)) (FloatOps.ofBits .f32 0x7F800000#32) = 1#1) ∧
    (∀ j, IntOp.cmpi .sge (opt j) 0#32 = 1#1 ∧ IntOp.cmpi .sle (opt j) 63#32 = 1#1) := by
  have e := congrFun h ix0
  dsimp only [fn, fn_part1] at e
  simp only [andi, IntOp.andi_eq_one] at e
  obtain ⟨⟨⟨⟨⟨e0, e2⟩, e3⟩, e4⟩, e5⟩, e1⟩ := e
  refine ⟨fun j => ?_, fun j => ?_, fun j => ?_, fun j => ?_, fun j => ?_, fun j => ?_⟩
  · exact Host.reduce_andi_all _ _ _ _ ix0 e0 j
  · exact Host.reduce_andi_all _ _ _ _ ix0 e2 j
  · exact Host.reduce_andi_all _ _ _ _ ix0 e3 j
  · exact Host.reduce_andi_all _ _ _ _ ix0 e4 j
  · exact Host.reduce_andi_all _ _ _ _ ix0 e5 j
  · exact IntOp.andi_eq_one.1 (Host.reduce_andi_all _ _ _ _ ix0 e1 j)

/-- Every entry of the integer input is below 64, read unsigned; for any interpretation of the
real-valued operations. -/
theorem opt_range {F : FTy → Type} [FloatOps F] (state : FVec F S1024x512 .f32) (opt : IVec S1024x1 32)
    (action : FVec F S1024x8 .f32) (l1 : FVec F S64x512x128 .f32) (l2 : FVec F S64x128x128 .f32)
    (l3 : FVec F S64x128x1 .f32)
    (h : Cert.Pre_input_domain.fn (F := F) state opt action l1 l2 l3 = fun _ => 1#1) :
    ∀ b : Fin 1024, (opt (ValueIdx.ix2 b (0 : Fin 1))).toNat < 64 := fun b =>
  have hb := (decode state opt action l1 l2 l3 h).2.2.2.2.2 (ValueIdx.ix2 b (0 : Fin 1))
  range_of_cmp _ hb.1 hb.2

/-- The same at an arbitrary index of the integer input. -/
theorem opt_range_idx {F : FTy → Type} [FloatOps F] (state : FVec F S1024x512 .f32) (opt : IVec S1024x1 32)
    (action : FVec F S1024x8 .f32) (l1 : FVec F S64x512x128 .f32) (l2 : FVec F S64x128x128 .f32)
    (l3 : FVec F S64x128x1 .f32)
    (h : Cert.Pre_input_domain.fn (F := F) state opt action l1 l2 l3 = fun _ => 1#1) :
    ∀ j, (opt j).toNat < 64 := fun j =>
  have hj := (decode state opt action l1 l2 l3 h).2.2.2.2.2 j
  range_of_cmp _ hj.1 hj.2

/-- Every entry of `state` is a finite real. -/
theorem finite_state (state : FVec Ideal S1024x512 .f32) (opt : IVec S1024x1 32)
    (action : FVec Ideal S1024x8 .f32) (l1 : FVec Ideal S64x512x128 .f32) (l2 : FVec Ideal S64x128x128 .f32)
    (l3 : FVec Ideal S64x128x1 .f32)
    (h : Cert.Pre_input_domain.fn (F := Ideal) state opt action l1 l2 l3 = fun _ => 1#1) :
    ∀ j, ∃ r : ℝ, state j = (r : EReal) :=
  fun j => finite_of_cmp _ ((decode state opt action l1 l2 l3 h).1 j)

/-- Every entry of `action` is a finite real. -/
theorem finite_action (state : FVec Ideal S1024x512 .f32) (opt : IVec S1024x1 32)
    (action : FVec Ideal S1024x8 .f32) (l1 : FVec Ideal S64x512x128 .f32) (l2 : FVec Ideal S64x128x128 .f32)
    (l3 : FVec Ideal S64x128x1 .f32)
    (h : Cert.Pre_input_domain.fn (F := Ideal) state opt action l1 l2 l3 = fun _ => 1#1) :
    ∀ j, ∃ r : ℝ, action j = (r : EReal) :=
  fun j => finite_of_cmp _ ((decode state opt action l1 l2 l3 h).2.1 j)

/-- Every entry of `l1` is a finite real. -/
theorem finite_l1 (state : FVec Ideal S1024x512 .f32) (opt : IVec S1024x1 32)
    (action : FVec Ideal S1024x8 .f32) (l1 : FVec Ideal S64x512x128 .f32) (l2 : FVec Ideal S64x128x128 .f32)
    (l3 : FVec Ideal S64x128x1 .f32)
    (h : Cert.Pre_input_domain.fn (F := Ideal) state opt action l1 l2 l3 = fun _ => 1#1) :
    ∀ j, ∃ r : ℝ, l1 j = (r : EReal) :=
  fun j => finite_of_cmp _ ((decode state opt action l1 l2 l3 h).2.2.1 j)

/-- Every entry of `l2` is a finite real. -/
theorem finite_l2 (state : FVec Ideal S1024x512 .f32) (opt : IVec S1024x1 32)
    (action : FVec Ideal S1024x8 .f32) (l1 : FVec Ideal S64x512x128 .f32) (l2 : FVec Ideal S64x128x128 .f32)
    (l3 : FVec Ideal S64x128x1 .f32)
    (h : Cert.Pre_input_domain.fn (F := Ideal) state opt action l1 l2 l3 = fun _ => 1#1) :
    ∀ j, ∃ r : ℝ, l2 j = (r : EReal) :=
  fun j => finite_of_cmp _ ((decode state opt action l1 l2 l3 h).2.2.2.1 j)

/-- Every entry of `l3` is a finite real. -/
theorem finite_l3 (state : FVec Ideal S1024x512 .f32) (opt : IVec S1024x1 32)
    (action : FVec Ideal S1024x8 .f32) (l1 : FVec Ideal S64x512x128 .f32) (l2 : FVec Ideal S64x128x128 .f32)
    (l3 : FVec Ideal S64x128x1 .f32)
    (h : Cert.Pre_input_domain.fn (F := Ideal) state opt action l1 l2 l3 = fun _ => 1#1) :
    ∀ j, ∃ r : ℝ, l3 j = (r : EReal) :=
  fun j => finite_of_cmp _ ((decode state opt action l1 l2 l3 h).2.2.2.2.1 j)

end Cert.Hand.PreDecode

end
-- ==== Proof.KIFrame.lean ====
/-
  The frame claim of the kernel, from its run.

  The kernel's run leaves, on every device, the result array at a named function of the launch memory and the six
  arguments as launched, provided every option word is below 64. The precondition is the input-domain test of the six
  arguments, true on every device; read back, its integer part says every option word is at least 0 and at most 63 as a
  signed word, hence below 64 as an unsigned one — whatever the real operations mean. So the frame claim is the run
  with the result forgotten.
-/
import proofs.«205531_g87737591923446_cont_sun_m_531_28_alg».proof.Proof.KIPost
import proofs.«205531_g87737591923446_cont_sun_m_531_28_alg».proof.Proof.PreDecode
import proofs.«205531_g87737591923446_cont_sun_m_531_28_alg».proof.Proof.Gen.KernelIdeal
import proofs.«205531_g87737591923446_cont_sun_m_531_28_alg».proof.Proof.Gen.Pre_input_domain

noncomputable section

namespace Cert.Proof.KIFrame

open Cert.KernelIdeal Cert.KernelIdeal.Hand
open Idealize.ShloMosaic Idealize.ShloMosaic.TcCoe Idealize.SL.Sem

/-! ## The six arguments as arrays -/

section Args

variable {F : FTy → Type} (m : (ℓ : Loc nD τ sig) → Buf (Elt F) ℓ) (d : Dev nD)

abbrev A0 : FVec F S1024x512 .f32 := m ((d.tc : Thread nD τ).loc main_arg0)
abbrev A1 : IVec S1024x1 32 := m ((d.tc : Thread nD τ).loc main_arg1)
abbrev A2 : FVec F S1024x8 .f32 := m ((d.tc : Thread nD τ).loc main_arg2)
abbrev A3 : FVec F S64x512x128 .f32 := m ((d.tc : Thread nD τ).loc main_arg3)
abbrev A4 : FVec F S64x128x128 .f32 := m ((d.tc : Thread nD τ).loc main_arg4)
abbrev A5 : FVec F S64x128x1 .f32 := m ((d.tc : Thread nD τ).loc main_arg5)

end Args

/-! ## The options are in range -/

/-- If the input-domain test of the six arguments is true on every device, every option word is below 64: for any
    interpretation of the real operations. -/
theorem optOK_of_fn {F : FTy → Type} [FloatOps F] (m : (ℓ : Loc nD τ sig) → Buf (Elt F) ℓ)
    (h : ∀ c : Dev nD, Cert.Pre_input_domain.fn (F := F) (A0 m c) (A1 m c) (A2 m c) (A3 m c) (A4 m c) (A5 m c) = fun _ => 1#1) :
    OptOK m :=
  fun d j => Cert.Hand.PreDecode.opt_range_idx (F := F) (A0 m d) (A1 m d) (A2 m d) (A3 m d) (A4 m d) (A5 m d) (h d) j

/-- The precondition puts every option word below 64. -/
theorem optOK_of_pre (m : (ℓ : Loc nD τ sig) → Buf (Elt Ideal) ℓ) (h : Cert.Pre_KernelIdeal m) : OptOK m :=
  optOK_of_fn m h

/-! ## The frame -/

/-- The kernel runs and leaves its arguments unchanged: its run, the result forgotten. -/
theorem frame_of_run
    (hrun : ∀ {F : FTy → Type} [FloatOps F] [∀ e, Nonempty (Elt F e)] (m : (ℓ : Loc nD τ sig) → Buf (Elt F) ℓ) (ρ : Dev nD → PrngReg),
      OptOK m → θ_run (Cert.KernelIdeal.defs (F := F)) (Cert.KernelIdeal.threads (F := F)) ⟨m, fun _ => 0, ρ⟩ (QC m)) :
    Cert.frame_KernelIdeal := fun m ρ hpre =>
  (θ_run _ _ _).mono (fun r h c => (h c).2) (hrun (F := Ideal) m ρ (optOK_of_pre m hpre))

end Cert.Proof.KIFrame

end
-- ==== Proof.KBFrame.lean ====
/-
  The frame claim of the kernel, from its run.

  The kernel's run leaves, on every device, the result array at a named function of the launch memory and the six
  arguments as launched, provided every option word is below 64. The precondition is the input-domain test of the six
  arguments, true on every device; read back, its integer part says every option word is at least 0 and at most 63 as a
  signed word, hence below 64 as an unsigned one — whatever the real operations mean. So the frame claim is the run
  with the result forgotten.
-/
import proofs.«205531_g87737591923446_cont_sun_m_531_28_alg».proof.Proof.KBPost
import proofs.«205531_g87737591923446_cont_sun_m_531_28_alg».proof.Proof.PreDecode
import proofs.«205531_g87737591923446_cont_sun_m_531_28_alg».proof.Proof.Gen.Kernel
import proofs.«205531_g87737591923446_cont_sun_m_531_28_alg».proof.Proof.Gen.Pre_input_domain

noncomputable section

namespace Cert.Proof.KBFrame

open Cert.Kernel Cert.Kernel.Hand
open Idealize.ShloMosaic Idealize.ShloMosaic.TcCoe Idealize.SL.Sem

/-! ## The six arguments as arrays -/

section Args

variable {F : FTy → Type} (m : (ℓ : Loc nD τ sig) → Buf (Elt F) ℓ) (d : Dev nD)

abbrev A0 : FVec F S1024x512 .f32 := m ((d.tc : Thread nD τ).loc main_arg0)
abbrev A1 : IVec S1024x1 32 := m ((d.tc : Thread nD τ).loc main_arg1)
abbrev A2 : FVec F S1024x8 .f32 := m ((d.tc : Thread nD τ).loc main_arg2)
abbrev A3 : FVec F S64x512x128 .f32 := m ((d.tc : Thread nD τ).loc main_arg3)
abbrev A4 : FVec F S64x128x128 .f32 := m ((d.tc : Thread nD τ).loc main_arg4)
abbrev A5 : FVec F S64x128x1 .f32 := m ((d.tc : Thread nD τ).loc main_arg5)

end Args

/-! ## The options are in range -/

/-- If the input-domain test of the six arguments is true on every device, every option word is below 64: for any
    interpretation of the real operations. -/
theorem optOK_of_fn {F : FTy → Type} [FloatOps F] (m : (ℓ : Loc nD τ sig) → Buf (Elt F) ℓ)
    (h : ∀ c : Dev nD, Cert.Pre_input_domain.fn (F := F) (A0 m c) (A1 m c) (A2 m c) (A3 m c) (A4 m c) (A5 m c) = fun _ => 1#1) :
    OptOK m :=
  fun d j => Cert.Hand.PreDecode.opt_range_idx (F := F) (A0 m d) (A1 m d) (A2 m d) (A3 m d) (A4 m d) (A5 m d) (h d) j

/-- The precondition puts every option word below 64. -/
theorem optOK_of_pre (m : (ℓ : Loc nD τ sig) → Buf (Elt Bits) ℓ) (h : Cert.Pre_Kernel m) : OptOK m :=
  optOK_of_fn m h

/-! ## The frame -/

/-- The kernel runs and leaves its arguments unchanged: its run, the result forgotten. -/
theorem frame_of_run
    (hrun : ∀ {F : FTy → Type} [FloatOps F] [∀ e, Nonempty (Elt F e)] (m : (ℓ : Loc nD τ sig) → Buf (Elt F) ℓ) (ρ : Dev nD → PrngReg),
      OptOK m → θ_run (Cert.Kernel.defs (F := F)) (Cert.Kernel.threads (F := F)) ⟨m, fun _ => 0, ρ⟩ (QC m)) :
    Cert.frame_Kernel := fun m ρ hpre =>
  (θ_run _ _ _).mono (fun r h c => (h c).2) (hrun (F := Bits) m ρ (optOK_of_pre m hpre))

end Cert.Proof.KBFrame

end
-- ==== Proof.KIPayVal.lean ====
import proofs.«205531_g87737591923446_cont_sun_m_531_28_alg».proof.Proof.Gen.KernelIdeal
import proofs.«205531_g87737591923446_cont_sun_m_531_28_alg».proof.Proof.Gen.KernelIdeal.Skeleton
import Idealize.ShloMosaic.PureOps.Ideal.Laws
import Idealize.ShloMosaic.Lib.ValueIdx
import Idealize.ShloMosaic.Lib.Pipeline.Value

/-!
# The two matrix payloads, entry by entry, over the extended reals

The first payload is a product of three batched factors, `o` ranging over the 32 batches: the
column `x3[o, ·, 0]` (length 128) is contracted with the matrix `x2[o, ·, ·]` (128 × 128) along the
matrix's second axis, giving a row of length 128; that row is contracted with `x1[o, ·, ·]`
(512 × 128) along its second axis, giving a row of length 512.  So

  `pay1[o, i] = Σ_{h1} (Σ_{h2} x3[o, h2, 0] · x2[o, h1, h2]) · x1[o, i, h1]`.

Both products accumulate into zero, so no accumulator term remains; the unit middle axis of the
intermediate results is dropped by a reshape that keeps the row-major position, and a second reshape is
the identity.

The second payload is one unbatched product, rows against rows:

  `pay2[b, o] = Σ_i x4[b, i] · s[o, i]`.

Each product is read at an output index as the sum over its one contraction coordinate; the only work is
to name the operand indices that the dimension numbers select (a batch or free coordinate is copied from
the output index, the contracted coordinate is the summation variable).
-/

noncomputable section

namespace Cert.KernelIdeal.Hand

open Cert.KernelIdeal Cert.KernelIdeal.Gen

open Idealize.ShloMosaic
open Idealize.ShloMosaic.ValueIdx

/-- The dimension numbers of the inner product (the last layer against the middle one, batched over the first axis). -/
abbrev dotA : DotDims S32x128x1 S32x128x128 S32x1x128 := dot_S32x128x1_S32x128x128_S32x1x128_1_2_2_1_0_0
/-- The dimension numbers of the outer product (that result against the first layer, batched over the first axis). -/
abbrev dotB : DotDims S32x1x128 S32x512x128 S32x1x512 := dot_S32x1x128_S32x512x128_S32x1x512_2_2_1_1_0_0

/-- Inner product, left operand: batch `o` copied, contracted axis 1 is the summation variable, free unit axis 2. -/
theorem dotA_lhs (o : Fin 32) (h1 h2 : Fin 128) :
    dotA.lhsIdx (ix3 o (0 : Fin 1) h1) ((contrEquiv1 dotA 128 rfl rfl).symm h2) = ix3 o h2 (0 : Fin 1) := by
  funext a
  match a with
  | ⟨0, _⟩ => exact Fin.ext rfl
  | ⟨1, _⟩ => exact Fin.ext ((dotA.lhsIdx_val_of_single (cl := (1 : Fin 3)) rfl _ _).trans (contrEquiv1_symm_val dotA 128 rfl rfl h2))
  | ⟨2, _⟩ => exact Fin.ext rfl

/-- Inner product, right operand: batch `o` copied, free axis 1 is the output's last coordinate, contracted axis 2. -/
theorem dotA_rhs (o : Fin 32) (h1 h2 : Fin 128) :
    dotA.rhsIdx (ix3 o (0 : Fin 1) h1) ((contrEquiv1 dotA 128 rfl rfl).symm h2) = ix3 o h1 h2 := by
  funext a
  match a with
  | ⟨0, _⟩ => exact Fin.ext rfl
  | ⟨1, _⟩ => exact Fin.ext rfl
  | ⟨2, _⟩ => exact Fin.ext ((dotA.rhsIdx_val_of_single (cr := (2 : Fin 3)) rfl _ _).trans (contrEquiv1_symm_val dotA 128 rfl rfl h2))

/-- Outer product, left operand: batch, the unit free axis, contracted axis 2. -/
theorem dotB_lhs (o : Fin 32) (i : Fin 512) (h1 : Fin 128) :
    dotB.lhsIdx (ix3 o (0 : Fin 1) i) ((contrEquiv1 dotB 128 rfl rfl).symm h1) = ix3 o (0 : Fin 1) h1 := by
  funext a
  match a with
  | ⟨0, _⟩ => exact Fin.ext rfl
  | ⟨1, _⟩ => exact Fin.ext rfl
  | ⟨2, _⟩ => exact Fin.ext ((dotB.lhsIdx_val_of_single (cl := (2 : Fin 3)) rfl _ _).trans (contrEquiv1_symm_val dotB 128 rfl rfl h1))

/-- Outer product, right operand: batch, free axis 1 is the output's last coordinate, contracted axis 2. -/
theorem dotB_rhs (o : Fin 32) (i : Fin 512) (h1 : Fin 128) :
    dotB.rhsIdx (ix3 o (0 : Fin 1) i) ((contrEquiv1 dotB 128 rfl rfl).symm h1) = ix3 o i h1 := by
  funext a
  match a with
  | ⟨0, _⟩ => exact Fin.ext rfl
  | ⟨1, _⟩ => exact Fin.ext rfl
  | ⟨2, _⟩ => exact Fin.ext ((dotB.rhsIdx_val_of_single (cr := (2 : Fin 3)) rfl _ _).trans (contrEquiv1_symm_val dotB 128 rfl rfl h1))

/-- The inner product at `(o, 0, h1)`. -/
theorem inner_apply (x2 : Vec Ideal S32x128x128 .f32) (x3 : Vec Ideal S32x128x1 .f32) (o : Fin 32) (h1 : Fin 128) :
    matmul (F := Ideal) (φ₁ := .f32) (φ₂ := .f32) dotA none x3 x2 (constant (F := Ideal) S32x1x128 .f32 0x00000000#32) (ix3 o (0 : Fin 1) h1)
      = ∑ h2 : Fin 128, x3 (ix3 o h2 (0 : Fin 1)) * x2 (ix3 o h1 h2) := by
  refine (Ideal.matmul_constant_zero_apply dotA none x3 x2 (ix3 o (0 : Fin 1) h1)).trans ?_
  rw [← Equiv.sum_comp (contrEquiv1 dotA 128 rfl rfl).symm]
  refine Finset.sum_congr rfl fun h2 _ => ?_
  rw [dotA_lhs, dotA_rhs]

/-- The first payload at `(o, i)`. -/
theorem pay1_apply (x1 : Vec Ideal S32x512x128 .f32) (x2 : Vec Ideal S32x128x128 .f32) (x3 : Vec Ideal S32x128x1 .f32)
    (o : Fin 32) (i : Fin 512) :
    k0_pay1 (F := Ideal) x1 x2 x3 (ValueIdx.ix2 o i)
      = ∑ h1 : Fin 128, (∑ h2 : Fin 128, x3 (ValueIdx.ix3 o h2 (0 : Fin 1)) * x2 (ValueIdx.ix3 o h1 h2)) * x1 (ValueIdx.ix3 o i h1) := by
  unfold k0_pay1
  rw [shapeCast_self]
  refine (shapeCast_apply _ _ (ix2 o i) (ix3 o (0 : Fin 1) i) ?_).trans ?_
  · rw [Shape.rowMajor_val_three, Shape.rowMajor_val_two]
    show (o.val * 1 + 0) * 512 + i.val = o.val * 512 + i.val
    omega
  refine (Ideal.matmul_constant_zero_apply dotB none _ x1 (ix3 o (0 : Fin 1) i)).trans ?_
  rw [← Equiv.sum_comp (contrEquiv1 dotB 128 rfl rfl).symm]
  refine Finset.sum_congr rfl fun h1 _ => ?_
  rw [dotB_lhs, dotB_rhs, inner_apply]

/-- The dimension numbers of the final product: rows of the left operand against rows of the right one. -/
abbrev dotS : DotDims S1024x512 S64x512 S1024x64 := dot_S1024x512_S64x512_S1024x64_1_1_0_0_n_n

/-- At output position `(b, o)` and contraction coordinate `i` the left operand is read at `(b, i)`. -/
theorem dotS_lhs (b : Fin 1024) (o : Fin 64) (i : Fin 512) :
    dotS.lhsIdx (ix2 b o) ((contrEquiv1 dotS 512 rfl rfl).symm i) = ix2 b i := by
  funext a
  match a with
  | ⟨0, _⟩ => exact Fin.ext rfl
  | ⟨1, _⟩ => exact Fin.ext ((dotS.lhsIdx_val_of_single (cl := (1 : Fin 2)) rfl _ _).trans (contrEquiv1_symm_val dotS 512 rfl rfl i))

/-- … and the right operand at `(o, i)`. -/
theorem dotS_rhs (b : Fin 1024) (o : Fin 64) (i : Fin 512) :
    dotS.rhsIdx (ix2 b o) ((contrEquiv1 dotS 512 rfl rfl).symm i) = ix2 o i := by
  funext a
  match a with
  | ⟨0, _⟩ => exact Fin.ext rfl
  | ⟨1, _⟩ => exact Fin.ext ((dotS.rhsIdx_val_of_single (cr := (1 : Fin 2)) rfl _ _).trans (contrEquiv1_symm_val dotS 512 rfl rfl i))

/-- The second payload at `(b, o)`: the pairing of row `b` of the first operand with row `o` of the second. -/
theorem pay2_apply (x4 : Vec Ideal S1024x512 .f32) (s : Vec Ideal S64x512 .f32) (b : Fin 1024) (o : Fin 64) :
    k0_pay2 (F := Ideal) x4 s (ValueIdx.ix2 b o) = ∑ i : Fin 512, x4 (ValueIdx.ix2 b i) * s (ValueIdx.ix2 o i) := by
  unfold k0_pay2
  refine (Ideal.matmul_constant_zero_apply dotS none x4 s (ix2 b o)).trans ?_
  rw [← Equiv.sum_comp (contrEquiv1 dotS 512 rfl rfl).symm]
  refine Finset.sum_congr rfl fun i _ => ?_
  rw [dotS_lhs, dotS_rhs]

end Cert.KernelIdeal.Hand

end
-- ==== Proof.KIValue.lean ====
/-
  The kernel's result, entry by entry, as a sum over the arguments.

  The region leaves in the score matrix the product `scores[b, o] = Σ_i state[b, i] · v[o, i]`, where row `o` of `v`
  is computed at grid point `o / 32` from option `o`'s three weight arrays:
  `v[o, i] = Σ_{h1} (Σ_{h2} l3[o, h2] · l2[o, h1, h2]) · l1[o, i, h1]`. The host flattens the matrix row by row
  (word `64·b + o` is `scores[b, o]`) and flattens the option column; the subcores pick word `64·b + option b`; the
  host makes the picked words a column again. So with every option below 64 the result's entry `b` is
  `scores[b, option b]`, a triple sum of the arguments' entries.

  The steps: the output window's one block is the whole matrix, written back once, so the matrix is what the last
  grid point stored; a window's block at a grid point is the array read at block index × block size + the coordinate
  inside the block, and the block index of the weight windows at point `t` is `min t 1`, so row `o mod 32` of the block
  at point `o / 32` is row `o` of the array; the two products are read at an index as sums over their contracted
  coordinate; the reshapes keep the row-major position.
-/
import proofs.«205531_g87737591923446_cont_sun_m_531_28_alg».proof.Proof.KIRegion
import proofs.«205531_g87737591923446_cont_sun_m_531_28_alg».proof.Proof.KIArrays
import proofs.«205531_g87737591923446_cont_sun_m_531_28_alg».proof.Proof.KIPayVal
import proofs.«205531_g87737591923446_cont_sun_m_531_28_alg».proof.Proof.KIReshape
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.Sem
open Idealize.ShloMosaic.Pipeline (Dat Cfg Window)
open Idealize.ShloMosaic.ValueIdx

section AnyInstance

variable {F : FTy → Type} [FloatOps F]

variable (m : (ℓ : Loc nD τ sig) → Buf (Elt F) ℓ)

/-! ## The array the region leaves

The output window has one block, the whole array, and it is written back after the last grid point only; what is
written is the second product. So the array ends holding the second product. -/

theorem scoresArr_eq (O : Dev nD → CellTallies nD τ sig (HIx 1)) (c : Dev nD) : scoresArr m O c = scoresOut m c := by
  unfold scoresArr
  have hN : cfg0.N = 3 := N_0
  refine (dats m O 0 c).arrAt_eq_of_cover 4 (scoresOut m c) (fun t hf => ?_) (fun i => ?_)
  · have h1 : t.val = 2 := by have := (flush0_4 t).mp hf; have := t.isLt; omega
    obtain rfl : t = t0_2 := Fin.ext h1
    show (cfg0.win 4).cut (grid0.coords t0_2) ((dats m O 0 c).after 4 t0_2) = _
    rw [after0_4]
    have hz' : (fun a => win0_4.index t0_2 a * main_v0.ty.shape.size a) = fun _ => 0 :=
      funext fun a => by fin_cases a <;> decide
    exact (Memref.read_access_unit_zero (Elt F) main_v0 hz' (fun a => by rw [congrFun hz' a]; simp) (scoresOut m c)).symm
  · refine ⟨t0_2, (flush0_4 t0_2).mpr rfl, ?_⟩
    show i ∈ ((View.whole main_v0).slice (win0_4.rect t0_2)).set
    rw [View.set_slice_whole, Rect.mem_set_unit]
    intro a
    have h0 : (i 0 : Nat) < 1024 := (i 0).isLt
    have h1 : (i 1 : Nat) < 64 := (i 1).isLt
    match a with
    | ⟨0, _⟩ =>
      show win0_4.index t0_2 0 * win0_4.size 0 ≤ (i 0 : Nat)
        ∧ (i 0 : Nat) < win0_4.index t0_2 0 * win0_4.size 0 + win0_4.xsize (grid0.coords t0_2) 0
      rw [show win0_4.index t0_2 0 * win0_4.size 0 = 0 from by decide +kernel,
        show win0_4.xsize (grid0.coords t0_2) 0 = 1024 from by decide +kernel]
      omega
    | ⟨1, _⟩ =>
      show win0_4.index t0_2 1 * win0_4.size 1 ≤ (i 1 : Nat)
        ∧ (i 1 : Nat) < win0_4.index t0_2 1 * win0_4.size 1 + win0_4.xsize (grid0.coords t0_2) 1
      rw [show win0_4.index t0_2 1 * win0_4.size 1 = 0 from by decide +kernel,
        show win0_4.xsize (grid0.coords t0_2) 1 = 64 from by decide +kernel]
      omega

/-! ## The windows' blocks as entries of the arguments

An element of a window's block at a grid point sits in the array, on each axis, at the block index times the block
size plus its coordinate inside the block. The state's window has one block, the whole array. The three weight windows
have blocks of 32 options and block index `min t 1` at point `t`, so row `r mod 32` of the block at point `r / 32` is
row `r` of the array, for every `r < 64`. -/

/-- The block indices of the four input windows at each of the three grid points. -/
theorem idx_facts : ∀ t : Fin cfg0.N,
    (win0_0.index t 0 = min t.val 1 ∧ win0_0.index t 1 = 0 ∧ win0_0.index t 2 = 0)
    ∧ (win0_1.index t 0 = min t.val 1 ∧ win0_1.index t 1 = 0 ∧ win0_1.index t 2 = 0)
    ∧ (win0_2.index t 0 = min t.val 1 ∧ win0_2.index t 1 = 0 ∧ win0_2.index t 2 = 0)
    ∧ (win0_3.index t 0 = 0 ∧ win0_3.index t 1 = 0) :=
  (by decide +kernel : ∀ t : Fin grid0.N, _)

/-- The first weight window's block at point `t`: options `[32·min t 1, +32)` of the first layer. -/
theorem iblk0_apply (c : Dev nD) (t : Fin cfg0.N) (x : S32x512x128.Idx) (k : S64x512x128.Idx)
    (hk0 : (k 0).val = 32 * min t.val 1 + (x 0).val) (hk1 : (k 1).val = (x 1).val) (hk2 : (k 2).val = (x 2).val) :
    (iblk m c 0 t : Vec F S32x512x128 .f32) x = (m ((c : Thread nD τ).loc main_arg3) : S64x512x128.Idx → Elt F .f32) k := by
  obtain ⟨⟨h0, h1, h2⟩, -⟩ := idx_facts t
  unfold iblk
  rw [View.read_apply]
  show V0 m c main_arg3 _ = m ((c : Thread nD τ).loc main_arg3) _
  congr 1
  funext a
  apply Fin.ext
  match a with
  | ⟨0, _⟩ => show win0_0.index t 0 * 32 + 1 * (x 0).val = (k 0).val; rw [h0, hk0]; omega
  | ⟨1, _⟩ => show win0_0.index t 1 * 512 + 1 * (x 1).val = (k 1).val; rw [h1, hk1]; omega
  | ⟨2, _⟩ => show win0_0.index t 2 * 128 + 1 * (x 2).val = (k 2).val; rw [h2, hk2]; omega

/-- The second weight window's block at point `t`: options `[32·min t 1, +32)` of the middle layer. -/
theorem iblk1_apply (c : Dev nD) (t : Fin cfg0.N) (x : S32x128x128.Idx) (k : S64x128x128.Idx)
    (hk0 : (k 0).val = 32 * min t.val 1 + (x 0).val) (hk1 : (k 1).val = (x 1).val) (hk2 : (k 2).val = (x 2).val) :
    (iblk m c 1 t : Vec F S32x128x128 .f32) x = (m ((c : Thread nD τ).loc main_arg4) : S64x128x128.Idx → Elt F .f32) k := by
  obtain ⟨-, ⟨h0, h1, h2⟩, -⟩ := idx_facts t
  unfold iblk
  rw [View.read_apply]
  show V0 m c main_arg4 _ = m ((c : Thread nD τ).loc main_arg4) _
  congr 1
  funext a
  apply Fin.ext
  match a with
  | ⟨0, _⟩ => show win0_1.index t 0 * 32 + 1 * (x 0).val = (k 0).val; rw [h0, hk0]; omega
  | ⟨1, _⟩ => show win0_1.index t 1 * 128 + 1 * (x 1).val = (k 1).val; rw [h1, hk1]; omega
  | ⟨2, _⟩ => show win0_1.index t 2 * 128 + 1 * (x 2).val = (k 2).val; rw [h2, hk2]; omega

/-- The third weight window's block at point `t`: options `[32·min t 1, +32)` of the last layer. -/
theorem iblk2_apply (c : Dev nD) (t : Fin cfg0.N) (x : S32x128x1.Idx) (k : S64x128x1.Idx)
    (hk0 : (k 0).val = 32 * min t.val 1 + (x 0).val) (hk1 : (k 1).val = (x 1).val) (hk2 : (k 2).val = (x 2).val) :
    (iblk m c 2 t : Vec F S32x128x1 .f32) x = (m ((c : Thread nD τ).loc main_arg5) : S64x128x1.Idx → Elt F .f32) k := by
  obtain ⟨-, -, ⟨h0, h1, h2⟩, -⟩ := idx_facts t
  unfold iblk
  rw [View.read_apply]
  show V0 m c main_arg5 _ = m ((c : Thread nD τ).loc main_arg5) _
  congr 1
  funext a
  apply Fin.ext
  match a with
  | ⟨0, _⟩ => show win0_2.index t 0 * 32 + 1 * (x 0).val = (k 0).val; rw [h0, hk0]; omega
  | ⟨1, _⟩ => show win0_2.index t 1 * 128 + 1 * (x 1).val = (k 1).val; rw [h1, hk1]; omega
  | ⟨2, _⟩ => show win0_2.index t 2 * 1 + 1 * (x 2).val = (k 2).val; rw [h2, hk2]; omega

/-- The state's window has one block at every point: the whole array. -/
theorem iblk3_apply (c : Dev nD) (t : Fin cfg0.N) (x : S1024x512.Idx) :
    (iblk m c 3 t : Vec F S1024x512 .f32) x = (m ((c : Thread nD τ).loc main_arg0) : S1024x512.Idx → Elt F .f32) x := by
  obtain ⟨-, -, -, h0, h1⟩ := idx_facts t
  unfold iblk
  rw [View.read_apply]
  show V0 m c main_arg0 _ = m ((c : Thread nD τ).loc main_arg0) _
  congr 1
  funext a
  apply Fin.ext
  match a with
  | ⟨0, _⟩ => show win0_3.index t 0 * 1024 + 1 * (x 0).val = (x 0).val; rw [h0]; omega
  | ⟨1, _⟩ => show win0_3.index t 1 * 512 + 1 * (x 1).val = (x 1).val; rw [h1]; omega

/-! The same at explicit coordinates: the state at the last point, and row `r` of each weight array read off the block
of point `r / 32` at row `r mod 32`. -/

theorem iblk3_state (c : Dev nD) (b : Fin 1024) (i : Fin 512) :
    iblk m c 3 t0_2 (ValueIdx.ix2 b i) = m ((c : Thread nD τ).loc main_arg0) (ValueIdx.ix2 b i) :=
  iblk3_apply m c t0_2 (ValueIdx.ix2 b i)

theorem iblk0_row (c : Dev nD) (r : Fin 64) (i : Fin 512) (h : Fin 128) :
    iblk m c 0 (ptOf r) (ValueIdx.ix3 (⟨r.val % 32, Nat.mod_lt _ (by decide)⟩ : Fin 32) i h)
      = m ((c : Thread nD τ).loc main_arg3) (ValueIdx.ix3 r i h) :=
  iblk0_apply m c (ptOf r) _ (ValueIdx.ix3 r i h)
    (by show r.val = 32 * min (r.val / 32) 1 + r.val % 32; have := r.isLt; omega) rfl rfl

theorem iblk1_row (c : Dev nD) (r : Fin 64) (h1 h2 : Fin 128) :
    iblk m c 1 (ptOf r) (ValueIdx.ix3 (⟨r.val % 32, Nat.mod_lt _ (by decide)⟩ : Fin 32) h1 h2)
      = m ((c : Thread nD τ).loc main_arg4) (ValueIdx.ix3 r h1 h2) :=
  iblk1_apply m c (ptOf r) _ (ValueIdx.ix3 r h1 h2)
    (by show r.val = 32 * min (r.val / 32) 1 + r.val % 32; have := r.isLt; omega) rfl rfl

theorem iblk2_row (c : Dev nD) (r : Fin 64) (h2 : Fin 128) :
    iblk m c 2 (ptOf r) (ValueIdx.ix3 (⟨r.val % 32, Nat.mod_lt _ (by decide)⟩ : Fin 32) h2 (0 : Fin 1))
      = m ((c : Thread nD τ).loc main_arg5) (ValueIdx.ix3 r h2 (0 : Fin 1)) :=
  iblk2_apply m c (ptOf r) _ (ValueIdx.ix3 r h2 (0 : Fin 1))
    (by show r.val = 32 * min (r.val / 32) 1 + r.val % 32; have := r.isLt; omega) rfl rfl

end AnyInstance

/-! ## The result as a triple sum of the arguments, over the extended reals -/

section AtIdeal

variable (m : (ℓ : Loc nD τ sig) → Buf (Elt Ideal) ℓ) (d : Dev nD)

/-- The arguments as device `d`'s TensorCore holds them at launch: the state, the option column, the three weight arrays. -/
abbrev stateOf : Vec Ideal S1024x512 .f32 := m ((SparseCore.T d).loc main_arg0)
abbrev optOf : IVec S1024x1 32 := m ((SparseCore.T d).loc main_arg1)
abbrev l1Of : Vec Ideal S64x512x128 .f32 := m ((SparseCore.T d).loc main_arg3)
abbrev l2Of : Vec Ideal S64x128x128 .f32 := m ((SparseCore.T d).loc main_arg4)
abbrev l3Of : Vec Ideal S64x128x1 .f32 := m ((SparseCore.T d).loc main_arg5)

/-- Row `b`'s option as a row of the weight arrays, every option being below 64. -/
abbrev optIdx (hopt : ∀ j : S1024x1.Idx, (optOf m d j).toNat < 64) (b : Fin 1024) : Fin 64 :=
  ⟨(optOf m d (ValueIdx.ix2 b (0 : Fin 1))).toNat, hopt _⟩

/-- Row `o` of the scratch matrix is the double contraction of option `o`'s weights. -/
theorem Vmat_apply (o : Fin 64) (i : Fin 512) :
    Vmat m d (ValueIdx.ix2 o i)
      = ∑ h1 : Fin 128, (∑ h2 : Fin 128, l3Of m d (ValueIdx.ix3 o h2 (0 : Fin 1)) * l2Of m d (ValueIdx.ix3 o h1 h2))
          * l1Of m d (ValueIdx.ix3 o i h1) := by
  show k0_pay1 (F := Ideal) (iblk m d 0 (ptOf o)) (iblk m d 1 (ptOf o)) (iblk m d 2 (ptOf o))
      (ValueIdx.ix2 (⟨o.val % 32, Nat.mod_lt _ (by decide)⟩ : Fin 32) i) = _
  refine (pay1_apply (iblk m d 0 (ptOf o)) (iblk m d 1 (ptOf o)) (iblk m d 2 (ptOf o))
    (⟨o.val % 32, Nat.mod_lt _ (by decide)⟩ : Fin 32) i).trans ?_
  refine Finset.sum_congr rfl fun h1 _ => ?_
  rw [iblk0_row m d o i h1]
  refine congrArg (· * _) ?_
  refine Finset.sum_congr rfl fun h2 _ => ?_
  rw [iblk2_row m d o h2, iblk1_row m d o h1 h2]

/-- The flat scores at word `64·b + o`: row `b` of the state against row `o` of the scratch matrix. -/
theorem Xarr_value (b : Fin 1024) (o : Fin 64) :
    Xarr m d (ValueIdx.ix1 ⟨64 * b.val + o.val, by omega⟩)
      = ∑ i : Fin 512, stateOf m d (ValueIdx.ix2 b i) * Vmat m d (ValueIdx.ix2 o i) := by
  rw [Xarr_apply m d b o, scoresArr_eq]
  unfold scoresOut
  refine (pay2_apply (iblk m d 3 t0_2) (Vmat m d) b o).trans ?_
  refine Finset.sum_congr rfl fun i _ => ?_
  rw [iblk3_state m d b i]

/-- The kernel's result at row `b`, every option being below 64: the state's row `b` against the double contraction of
    the weights of row `b`'s option. -/
theorem kernel_value (hopt : ∀ j : S1024x1.Idx, (optOf m d j).toNat < 64) (b : Fin 1024) :
    outArr m d (ValueIdx.ix2 b (0 : Fin 1))
      = ∑ i : Fin 512, stateOf m d (ValueIdx.ix2 b i)
          * (∑ h1 : Fin 128, (∑ h2 : Fin 128, l3Of m d (ValueIdx.ix3 (optIdx m d hopt b) h2 (0 : Fin 1))
                * l2Of m d (ValueIdx.ix3 (optIdx m d hopt b) h1 h2))
              * l1Of m d (ValueIdx.ix3 (optIdx m d hopt b) i h1)) := by
  have hI : Iarr m d (ValueIdx.ix1 b) = optOf m d (ValueIdx.ix2 b (0 : Fin 1)) := Iarr_apply m d (ValueIdx.ix1 b)
  have hidx : selIdx (Iarr m d) (ValueIdx.ix1 b)
      = ValueIdx.ix1 (⟨64 * b.val + (optIdx m d hopt b).val, by omega⟩ : Fin 65536) := by
    unfold selIdx
    refine congrArg ValueIdx.ix1 (Fin.ext ?_)
    show 64 * b.val + (Iarr m d (ValueIdx.ix1 b)).toNat % 64 = 64 * b.val + (optOf m d (ValueIdx.ix2 b (0 : Fin 1))).toNat
    rw [hI, Nat.mod_eq_of_lt (hopt _)]
  rw [outArr_apply]
  show Xarr m d (selIdx (Iarr m d) (ValueIdx.ix1 b)) = _
  rw [hidx, Xarr_value m d b (optIdx m d hopt b)]
  show @Eq (Elt Ideal .f32) _ _
  refine Finset.sum_congr rfl fun i _ => ?_
  rw [Vmat_apply m d (optIdx m d hopt b) i]

end AtIdeal

end Cert.KernelIdeal.Hand

end
-- ==== Proof.SumLaw.lean ====
import Idealize.ShloMosaic.PureOps.Ideal

/-!
# A triple contraction may be bracketed from either end

Let `s` be a vector indexed by `I`, `a` an `I × H1` matrix, `b` an `H1 × H2` matrix and `c` a
vector indexed by `H2`, all with entries in the extended reals `[-∞, +∞]`.  The scalar
`s · a · b · c` can be computed right-to-left (first `b · c`, then `a · (b · c)`, then the
pairing with `s`) or left-to-right (first `s · a`, then `(s · a) · b`, then the pairing with `c`).

In the extended reals multiplication does not distribute over addition in general
(`+∞ + -∞` is involved), so the two bracketings need not agree.  When every entry is a
*finite* real they do: every partial sum and product is then the coercion of the corresponding
real expression, and in the reals the identity is distributivity plus an exchange of the order
of three finite summations.
-/

namespace Cert.Hand.SumLaw

open Finset

/-- The coercion `ℝ → EReal` commutes with finite sums (induction on the index set, using that
it commutes with binary addition). -/
theorem coe_finset_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The identity in the reals: expand both sides into a triple sum of fourfold products and
exchange the order of summation. -/
theorem contract_assoc_real {I H1 H2 : Type} [Fintype I] [Fintype H1] [Fintype H2]
    (s : I → ℝ) (a : I → H1 → ℝ) (b : H1 → H2 → ℝ) (c : H2 → ℝ) :
    ∑ i, s i * (∑ h1, (∑ h2, c h2 * b h1 h2) * a i h1)
      = ∑ h2, (∑ h1, (∑ i, s i * a i h1) * b h1 h2) * c h2 := by
  simp only [Finset.sum_mul, Finset.mul_sum]
  calc ∑ i, ∑ h1, ∑ h2, s i * (c h2 * b h1 h2 * a i h1)
      = ∑ h1, ∑ i, ∑ h2, s i * (c h2 * b h1 h2 * a i h1) := Finset.sum_comm
    _ = ∑ h1, ∑ h2, ∑ i, s i * (c h2 * b h1 h2 * a i h1) :=
        Finset.sum_congr rfl (fun _ _ => Finset.sum_comm)
    _ = ∑ h2, ∑ h1, ∑ i, s i * (c h2 * b h1 h2 * a i h1) := Finset.sum_comm
    _ = ∑ h2, ∑ h1, ∑ i, s i * a i h1 * b h1 h2 * c h2 := by
        refine Finset.sum_congr rfl (fun h2 _ => Finset.sum_congr rfl (fun h1 _ =>
          Finset.sum_congr rfl (fun i _ => ?_)))
        ring

/-- The identity in the extended reals, for finite entries: replace every entry by the coercion
of a real, pull the coercion outside all products and sums, and conclude by the real identity. -/
theorem contract_assoc {I H1 H2 : Type} [Fintype I] [Fintype H1] [Fintype H2]
    (s : I → EReal) (a : I → H1 → EReal) (b : H1 → H2 → EReal) (c : H2 → EReal)
    (hs : ∀ i, ∃ r : ℝ, s i = (r : EReal)) (ha : ∀ i h, ∃ r : ℝ, a i h = (r : EReal))
    (hb : ∀ h h', ∃ r : ℝ, b h h' = (r : EReal)) (hc : ∀ h, ∃ r : ℝ, c h = (r : EReal)) :
    ∑ i, s i * (∑ h1, (∑ h2, c h2 * b h1 h2) * a i h1)
      = ∑ h2, (∑ h1, (∑ i, s i * a i h1) * b h1 h2) * c h2 := by
  choose s' hs' using hs
  choose a' ha' using ha
  choose b' hb' using hb
  choose c' hc' using hc
  simp only [hs', ha', hb', hc', ← EReal.coe_mul, ← coe_finset_sum]
  rw [contract_assoc_real s' a' b' c']

/-- The instance used downstream: 512 inputs, two hidden layers of width 128. -/
theorem contract_assoc_512_128_128
    (s : Fin 512 → EReal) (a : Fin 512 → Fin 128 → EReal) (b : Fin 128 → Fin 128 → EReal)
    (c : Fin 128 → EReal)
    (hs : ∀ i, ∃ r : ℝ, s i = (r : EReal)) (ha : ∀ i h, ∃ r : ℝ, a i h = (r : EReal))
    (hb : ∀ h h', ∃ r : ℝ, b h h' = (r : EReal)) (hc : ∀ h, ∃ r : ℝ, c h = (r : EReal)) :
    ∑ i, s i * (∑ h1, (∑ h2, c h2 * b h1 h2) * a i h1)
      = ∑ h2, (∑ h1, (∑ i, s i * a i h1) * b h1 h2) * c h2 :=
  contract_assoc s a b c hs ha hb hc

end Cert.Hand.SumLaw
-- ==== Proof.RefRun.lean ====
import proofs.«205531_g87737591923446_cont_sun_m_531_28_alg».proof.Proof.Gen.ReferenceIdeal
import Idealize.ShloMosaic.Lib.StableHlo.Run
import Idealize.ShloMosaic.PureOps.Ideal

/-
  The reference computes, for each of 1024 rows b, a chain of three small matrix products whose
  matrices are chosen by the row's option word opt[b]: three tables of 64 matrices each are read
  at opt[b] by a "take" in fill mode, and the state row is multiplied through the three matrices
  so chosen.  One take of a table T at the option vector o is, in order: the wrap
  where(o < 0, o + 64, o) of a negative option to the end of the table; the wrapped options as a
  column of start indices; a row-by-row test 0 ≤ start ≤ 63 (two comparisons, their conjunction,
  and an 'and'-reduction along the column axis); a gather of whole matrices T[start] with the start
  index clamped into the table; and a select that keeps the gathered matrix where the test holds and
  puts the not-a-number constant elsewhere.  The products are batched over the rows: the state row
  [1,512] times the first chosen matrix [512,128], that times the second [128,128], that times the
  third [128,1]; the [1024,1,1] result is read as [1024,1].

  This module lists the program's seventy-five tensor operations in execution order (the three
  takes inlined at their call sites, each with the nested wrap), shows that the program is exactly
  that straight line, and reads off what every execution leaves in the result buffer: the value
  `refOut` below, a composition of the named stages, of the launch contents of the five arguments
  it reads; the six argument buffers are left as they were.  All floats are extended reals.
-/

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-! ## The stages of the value -/

/-- The option column [1024,1] read as a vector of 1024 words. -/
def optVec (opt : IVec S1024x1 32) : IVec S1024 32 := shapeCast S1024 opt shapeCasts_S1024x1_S1024

/-- where(o < 0, o + 64, o): a negative option counts from the end of a table of 64. -/
def wrapOpt (o : IVec S1024 32) : IVec S1024 32 :=
  select (cmpi .slt o (broadcastInDim S1024 ![] bcast_S_S1024 (constantI S_ 32 0#32)))
    (addi o (broadcastInDim S1024 ![] bcast_S_S1024 (constantI S_ 32 64#32))) o

/-- The wrapped options as a column of start indices. -/
def startIdx (o : IVec S1024 32) : IVec S1024x1 32 :=
  broadcastInDim S1024x1 ![0] bcast_S1024_S1024x1_0 (wrapOpt o)

/-- Row by row: 0 ≤ start index ≤ 63, the two comparisons' conjunction reduced by 'and' along the column axis. -/
def inRange (i : IVec S1024x1 32) : IVec S1024 1 :=
  Host.reduce IntOp.andi
    (andi (cmpi .sge i (broadcastInDim S1024x1 ![] bcast_S_S1024x1 (constantI S_ 32 0#32)))
      (cmpi .sle i (broadcastInDim S1024x1 ![0, 1] bcast_S1x1_S1024x1_0_1
        (broadcastInDim S1x1 ![1] bcast_S1_S1x1_1 (constantI S1 32 63#32)))))
    (constantI S_ 1 1#1) reducesTo_S1024x1_S1024_d1 h_S_

/-- The take of the table [64,512,128] at the options `o`, in fill mode: the matrix at the clamped start
    index where the start index is in range, the not-a-number constant elsewhere. -/
def take1 (l : FVec Ideal S64x512x128 .f32) (o : IVec S1024 32) : FVec Ideal S1024x512x128 .f32 :=
  select (broadcastInDim S1024x512x128 ![0] bcast_S1024_S1024x512x128_0 (inRange (startIdx o)))
    (Host.gather gather_S64x512x128_S1024x1_S1024x512x128_12_0_n_n_0_1_1512128 l (startIdx o))
    (broadcastInDim S1024x512x128 ![] bcast_S_S1024x512x128 (constant (F := Ideal) S_ .f32 0x7FC00000#32))

/-- The take of the table [64,128,128] at the options `o`, in fill mode: the matrix at the clamped start
    index where the start index is in range, the not-a-number constant elsewhere. -/
def take2 (l : FVec Ideal S64x128x128 .f32) (o : IVec S1024 32) : FVec Ideal S1024x128x128 .f32 :=
  select (broadcastInDim S1024x128x128 ![0] bcast_S1024_S1024x128x128_0 (inRange (startIdx o)))
    (Host.gather gather_S64x128x128_S1024x1_S1024x128x128_12_0_n_n_0_1_1128128 l (startIdx o))
    (broadcastInDim S1024x128x128 ![] bcast_S_S1024x128x128 (constant (F := Ideal) S_ .f32 0x7FC00000#32))

/-- The take of the table [64,128,1] at the options `o`, in fill mode: the matrix at the clamped start
    index where the start index is in range, the not-a-number constant elsewhere. -/
def take3 (l : FVec Ideal S64x128x1 .f32) (o : IVec S1024 32) : FVec Ideal S1024x128x1 .f32 :=
  select (broadcastInDim S1024x128x1 ![0] bcast_S1024_S1024x128x1_0 (inRange (startIdx o)))
    (Host.gather gather_S64x128x1_S1024x1_S1024x128x1_12_0_n_n_0_1_11281 l (startIdx o))
    (broadcastInDim S1024x128x1 ![] bcast_S_S1024x128x1 (constant (F := Ideal) S_ .f32 0x7FC00000#32))

/-- The state rows as a batch of [1,512] matrices. -/
def stateRows (state : FVec Ideal S1024x512 .f32) : FVec Ideal S1024x1x512 .f32 :=
  broadcastInDim S1024x1x512 ![0, 2] bcast_S1024x512_S1024x1x512_0_2 state

/-- Row b of the state times the first matrix chosen for b. -/
def x1 (state : FVec Ideal S1024x512 .f32) (l1 : FVec Ideal S64x512x128 .f32) (o : IVec S1024 32) : FVec Ideal S1024x1x128 .f32 :=
  Host.dotGeneral (F := Ideal) (φ₁ := .f32) (φ₂ := .f32) dot_S1024x1x512_S1024x512x128_S1024x1x128_2_1_1_2_0_0 none (stateRows state) (take1 l1 o)

/-- That times the second matrix chosen for b. -/
def x2 (state : FVec Ideal S1024x512 .f32) (l1 : FVec Ideal S64x512x128 .f32) (l2 : FVec Ideal S64x128x128 .f32) (o : IVec S1024 32) :
    FVec Ideal S1024x1x128 .f32 :=
  Host.dotGeneral (F := Ideal) (φ₁ := .f32) (φ₂ := .f32) dot_S1024x1x128_S1024x128x128_S1024x1x128_2_1_1_2_0_0 none (x1 state l1 o) (take2 l2 o)

/-- That times the third. -/
def x3 (state : FVec Ideal S1024x512 .f32) (l1 : FVec Ideal S64x512x128 .f32) (l2 : FVec Ideal S64x128x128 .f32)
    (l3 : FVec Ideal S64x128x1 .f32) (o : IVec S1024 32) : FVec Ideal S1024x1x1 .f32 :=
  Host.dotGeneral (F := Ideal) (φ₁ := .f32) (φ₂ := .f32) dot_S1024x1x128_S1024x128x1_S1024x1x1_2_1_1_2_0_0 none (x2 state l1 l2 o) (take3 l3 o)

/-- What the reference leaves in its result buffer, of the launch contents of the state, the option column and the three tables. -/
def refOut (state : FVec Ideal S1024x512 .f32) (opt : IVec S1024x1 32) (l1 : FVec Ideal S64x512x128 .f32)
    (l2 : FVec Ideal S64x128x128 .f32) (l3 : FVec Ideal S64x128x1 .f32) : FVec Ideal S1024x1 .f32 :=
  shapeCast S1024x1 (x3 state l1 l2 l3 (optVec opt)) shapeCasts_S1024x1x1_S1024x1

/-! ## The program as a straight line -/

/-- @main's seventy-five operations in order, the three takes (and the wrap inside each) written out at their call sites
    over the buffers each call names. -/
abbrev ops : List (HloOp τ sig (Elt Ideal)) :=
  [ reshape main_arg1 main_v0 rfl shapeCasts_S1024x1_S1024,
    TRef.nullary main_call0.c (constantI S_ 32 0#32),
    TRef.unary main_call0.c main_call0.v0 (broadcastInDim S1024 ![] bcast_S_S1024),
    TRef.binary (.of main_v0) main_call0.v0 main_call0.v1 (cmpi .slt),
    TRef.nullary main_call0.c_0 (constantI S_ 32 64#32),
    TRef.unary main_call0.c_0 main_call0.v2 (broadcastInDim S1024 ![] bcast_S_S1024),
    TRef.binary (.of main_v0) main_call0.v2 main_call0.v3 addi,
    TRef.ternary main_call0.v1 main_call0.v3 (.of main_v0) main_call0.call0.v0 select,
    TRef.unary main_call0.call0.v0 main_call0.v5 (broadcastInDim S1024x1 ![0] bcast_S1024_S1024x1_0),
    TRef.nullary main_call0.c_1 (constantI S1 32 63#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg3) main_call0.v5 main_call0.v13 (fun x i => Host.gather gather_S64x512x128_S1024x1_S1024x512x128_12_0_n_n_0_1_1512128 x i),
    TRef.unary main_call0.v12 main_call0.v14 (broadcastInDim S1024x512x128 ![0] bcast_S1024_S1024x512x128_0),
    TRef.nullary main_call0.cst (constant (F := Ideal) S_ .f32 0x7FC00000#32),
    TRef.unary main_call0.cst main_call0.v15 (broadcastInDim S1024x512x128 ![] bcast_S_S1024x512x128),
    TRef.ternary main_call0.v14 main_call0.v13 main_call0.v15 main_call0.v16 select,
    unary main_arg0 main_v2 (broadcastInDim S1024x1x512 ![0, 2] bcast_S1024x512_S1024x1x512_0_2 : (⟨S1024x512, .f32⟩ : BufTy).Contents (Elt Ideal) → (⟨S1024x1x512, .f32⟩ : BufTy).Contents (Elt Ideal)),
    binary main_v2 main_v1 main_v3 ((fun l r => Host.dotGeneral (F := Ideal) (φ₁ := .f32) (φ₂ := .f32) dot_S1024x1x512_S1024x512x128_S1024x1x128_2_1_1_2_0_0 none l r) : (⟨S1024x1x512, .f32⟩ : BufTy).Contents (Elt Ideal) → (⟨S1024x512x128, .f32⟩ : BufTy).Contents (Elt Ideal) → (⟨S1024x1x128, .f32⟩ : BufTy).Contents (Elt Ideal)),
    TRef.nullary main_call1.c (constantI S_ 32 0#32),
    TRef.unary main_call1.c main_call1.v0 (broadcastInDim S1024 ![] bcast_S_S1024),
    TRef.binary (.of main_v0) main_call1.v0 main_call1.v1 (cmpi .slt),
    TRef.nullary main_call1.c_0 (constantI S_ 32 64#32),
    TRef.unary main_call1.c_0 main_call1.v2 (broadcastInDim S1024 ![] bcast_S_S1024),
    TRef.binary (.of main_v0) main_call1.v2 main_call1.v3 addi,
    TRef.ternary main_call1.v1 main_call1.v3 (.of main_v0) main_call1.call0.v0 select,
    TRef.unary main_call1.call0.v0 main_call1.v5 (broadcastInDim S1024x1 ![0] bcast_S1024_S1024x1_0),
    TRef.nullary main_call1.c_1 (constantI S1 32 63#32),
    TRef.nullary main_call1.c_2 (constantI S_ 32 0#32),
    TRef.unary main_call1.c_2 main_call1.v6 (broadcastInDim S1024x1 ![] bcast_S_S1024x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1024x1 ![0, 1] bcast_S1x1_S1024x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x1_S1024_d1 h_S_),
    TRef.binary (.of main_arg4) main_call1.v5 main_call1.v13 (fun x i => Host.gather gather_S64x128x128_S1024x1_S1024x128x128_12_0_n_n_0_1_1128128 x i),
    TRef.unary main_call1.v12 main_call1.v14 (broadcastInDim S1024x128x128 ![0] bcast_S1024_S1024x128x128_0),
    TRef.nullary main_call1.cst (constant (F := Ideal) S_ .f32 0x7FC00000#32),
    TRef.unary main_call1.cst main_call1.v15 (broadcastInDim S1024x128x128 ![] bcast_S_S1024x128x128),
    TRef.ternary main_call1.v14 main_call1.v13 main_call1.v15 main_call1.v16 select,
    binary main_v3 main_v4 main_v5 ((fun l r => Host.dotGeneral (F := Ideal) (φ₁ := .f32) (φ₂ := .f32) dot_S1024x1x128_S1024x128x128_S1024x1x128_2_1_1_2_0_0 none l r) : (⟨S1024x1x128, .f32⟩ : BufTy).Contents (Elt Ideal) → (⟨S1024x128x128, .f32⟩ : BufTy).Contents (Elt Ideal) → (⟨S1024x1x128, .f32⟩ : BufTy).Contents (Elt Ideal)),
    TRef.nullary main_call2.c (constantI S_ 32 0#32),
    TRef.unary main_call2.c main_call2.v0 (broadcastInDim S1024 ![] bcast_S_S1024),
    TRef.binary (.of main_v0) main_call2.v0 main_call2.v1 (cmpi .slt),
    TRef.nullary main_call2.c_0 (constantI S_ 32 64#32),
    TRef.unary main_call2.c_0 main_call2.v2 (broadcastInDim S1024 ![] bcast_S_S1024),
    TRef.binary (.of main_v0) main_call2.v2 main_call2.v3 addi,
    TRef.ternary main_call2.v1 main_call2.v3 (.of main_v0) main_call2.call0.v0 select,
    TRef.unary main_call2.call0.v0 main_call2.v5 (broadcastInDim S1024x1 ![0] bcast_S1024_S1024x1_0),
    TRef.nullary main_call2.c_1 (constantI S1 32 63#32),
    TRef.nullary main_call2.c_2 (constantI S_ 32 0#32),
    TRef.unary main_call2.c_2 main_call2.v6 (broadcastInDim S1024x1 ![] bcast_S_S1024x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S1024x1 ![0, 1] bcast_S1x1_S1024x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1024x1_S1024_d1 h_S_),
    TRef.binary (.of main_arg5) main_call2.v5 main_call2.v13 (fun x i => Host.gather gather_S64x128x1_S1024x1_S1024x128x1_12_0_n_n_0_1_11281 x i),
    TRef.unary main_call2.v12 main_call2.v14 (broadcastInDim S1024x128x1 ![0] bcast_S1024_S1024x128x1_0),
    TRef.nullary main_call2.cst (constant (F := Ideal) S_ .f32 0x7FC00000#32),
    TRef.unary main_call2.cst main_call2.v15 (broadcastInDim S1024x128x1 ![] bcast_S_S1024x128x1),
    TRef.ternary main_call2.v14 main_call2.v13 main_call2.v15 main_call2.v16 select,
    binary main_v5 main_v6 main_v7 ((fun l r => Host.dotGeneral (F := Ideal) (φ₁ := .f32) (φ₂ := .f32) dot_S1024x1x128_S1024x128x1_S1024x1x1_2_1_1_2_0_0 none l r) : (⟨S1024x1x128, .f32⟩ : BufTy).Contents (Elt Ideal) → (⟨S1024x128x1, .f32⟩ : BufTy).Contents (Elt Ideal) → (⟨S1024x1x1, .f32⟩ : BufTy).Contents (Elt Ideal)),
    reshape main_v7 main_v8 rfl shapeCasts_S1024x1x1_S1024x1 ]

set_option maxRecDepth 8192 in
/-- @main is that straight line: the functions' bodies unfold at their calls and sequencing reassociates, all by computation. -/
theorem main_eq (c : Dev nD) : main (F := Ideal) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., reshape_bufs_sub ..⟩

/-! ## What the line leaves in the buffers -/

attribute [local irreducible] Host.reduce Host.gather in
set_option maxRecDepth 8192 in
/-- The fold of the seventy-five operations at the result buffer is `refOut` of the contents of the five arguments read:
    each operation's result is rewritten at its own buffer to its function's value and elsewhere to what was there; the
    identity transports around the inlined operations cancel; what remains is the composition of the stages, unfolded. -/
theorem out_eq (V : Valuation τ sig (Elt Ideal)) :
    after ops V (main_v8 : DevRef τ sig)
      = refOut (V (main_arg0 : DevRef τ sig)) (V (main_arg1 : DevRef τ sig)) (V (main_arg3 : DevRef τ sig))
          (V (main_arg4 : DevRef τ sig)) (V (main_arg5 : DevRef τ sig)) := by
  after_results_simp
  simp only [TRef.toBuf, TRef.ofBuf, cast_cast, cast_eq]
  delta refOut x3 x2 x1 take3 take2 take1 stateRows inRange startIdx wrapOpt optVec
  rfl

/-- No operation writes argument 0. -/
theorem arg0_eq (V : Valuation τ sig (Elt Ideal)) : after ops V (main_arg0 : DevRef τ sig) = V (main_arg0 : DevRef τ sig) := by
  after_results_simp

/-- No operation writes argument 1. -/
theorem arg1_eq (V : Valuation τ sig (Elt Ideal)) : after ops V (main_arg1 : DevRef τ sig) = V (main_arg1 : DevRef τ sig) := by
  after_results_simp

/-- No operation writes argument 2. -/
theorem arg2_eq (V : Valuation τ sig (Elt Ideal)) : after ops V (main_arg2 : DevRef τ sig) = V (main_arg2 : DevRef τ sig) := by
  after_results_simp

/-- No operation writes argument 3. -/
theorem arg3_eq (V : Valuation τ sig (Elt Ideal)) : after ops V (main_arg3 : DevRef τ sig) = V (main_arg3 : DevRef τ sig) := by
  after_results_simp

/-- No operation writes argument 4. -/
theorem arg4_eq (V : Valuation τ sig (Elt Ideal)) : after ops V (main_arg4 : DevRef τ sig) = V (main_arg4 : DevRef τ sig) := by
  after_results_simp

/-- No operation writes argument 5. -/
theorem arg5_eq (V : Valuation τ sig (Elt Ideal)) : after ops V (main_arg5 : DevRef τ sig) = V (main_arg5 : DevRef τ sig) := by
  after_results_simp

/-- On every device, from any memory with zero counters: every weakly fair execution of @main terminates with the result
    buffer at `refOut` of the launch contents of the state, the options and the three tables, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = refOut (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v8).trans (out_eq _), (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefRun

end
-- ==== Proof.KIClaims.lean ====
/-
  The exact-arithmetic kernel against the reference.

  At row `b`, with `o` the option of `b`, the kernel's result is
      Σ_i state[b,i] · ( Σ_h1 ( Σ_h2 T3[o,h2,0] · T2[o,h1,h2] ) · T1[o,i,h1] )
  (the three tables multiplied together first, the state row last) and the reference's is
      Σ_h2 ( Σ_h1 ( Σ_i state[b,i] · T1[o,i,h1] ) · T2[o,h1,h2] ) · T3[o,h2,0]
  (the state row first). Over finite reals the two nestings are one number, by associativity and distributivity of
  finite sums; the inputs are finite, and the options below 64, by the precondition. Hence the two result arrays are
  equal entry by entry, and from memories that agree on the arguments the two runs end with equal results and
  unchanged arguments.
-/
import proofs.«205531_g87737591923446_cont_sun_m_531_28_alg».proof.Proof.KIFrame
import proofs.«205531_g87737591923446_cont_sun_m_531_28_alg».proof.Proof.SumLaw
import proofs.«205531_g87737591923446_cont_sun_m_531_28_alg».proof.Proof.RefRun
import proofs.«205531_g87737591923446_cont_sun_m_531_28_alg».proof.Proof.Gen.ReferenceIdeal

noncomputable section

open scoped BigOperators

namespace Cert.Proof.KIClaims

open Cert.KernelIdeal Cert.KernelIdeal.Hand Cert.Proof.KIFrame
open Idealize.ShloMosaic Idealize.ShloMosaic.TcCoe Idealize.ShloMosaic.ValueIdx Idealize.SL.Sem

/-- The option of row `b`, as a table index. -/
abbrev oK (m : (ℓ : Loc nD τ sig) → Buf (Elt Ideal) ℓ) (d : Dev nD)
    (hopt : ∀ j : S1024x1.Idx, (m ((d.tc : Thread nD τ).loc main_arg1) j).toNat < 64) (b : Fin 1024) : Fin 64 :=
  ⟨(m ((d.tc : Thread nD τ).loc main_arg1) (ix2 b (0 : Fin 1))).toNat, hopt _⟩

variable
  (hkv : ∀ (m : (ℓ : Loc nD τ sig) → Buf (Elt Ideal) ℓ) (d : Dev nD)
    (hopt : ∀ j : S1024x1.Idx, (m ((d.tc : Thread nD τ).loc main_arg1) j).toNat < 64) (b : Fin 1024),
    (outArr m d : FVec Ideal S1024x1 .f32) (ix2 b (0 : Fin 1))
      = ∑ i : Fin 512, A0 m d (ix2 b i) * (∑ h1 : Fin 128, (∑ h2 : Fin 128, A5 m d (ix3 (oK m d hopt b) h2 (0 : Fin 1))
          * A4 m d (ix3 (oK m d hopt b) h1 h2)) * A3 m d (ix3 (oK m d hopt b) i h1)))
  (hrv : ∀ (state : FVec Ideal Cert.ReferenceIdeal.S1024x512 .f32) (opt : IVec Cert.ReferenceIdeal.S1024x1 32)
    (l1 : FVec Ideal Cert.ReferenceIdeal.S64x512x128 .f32) (l2 : FVec Ideal Cert.ReferenceIdeal.S64x128x128 .f32)
    (l3 : FVec Ideal Cert.ReferenceIdeal.S64x128x1 .f32)
    (hopt : ∀ b : Fin 1024, (opt (ix2 b (0 : Fin 1))).toNat < 64) (b : Fin 1024),
    Cert.ReferenceIdeal.RefRun.refOut state opt l1 l2 l3 (ix2 b (0 : Fin 1))
      = ∑ h2 : Fin 128, (∑ h1 : Fin 128, (∑ i : Fin 512, state (ix2 b i) * l1 (ix3 (⟨(opt (ix2 b (0 : Fin 1))).toNat, hopt b⟩ : Fin 64) i h1))
          * l2 (ix3 (⟨(opt (ix2 b (0 : Fin 1))).toNat, hopt b⟩ : Fin 64) h1 h2)) * l3 (ix3 (⟨(opt (ix2 b (0 : Fin 1))).toNat, hopt b⟩ : Fin 64) h2 (0 : Fin 1)))
  (hrun : ∀ {F : FTy → Type} [FloatOps F] [∀ e, Nonempty (Elt F e)] (m : (ℓ : Loc nD τ sig) → Buf (Elt F) ℓ) (ρ : Dev nD → PrngReg),
    OptOK m → θ_run (Cert.KernelIdeal.defs (F := F)) (Cert.KernelIdeal.threads (F := F)) ⟨m, fun _ => 0, ρ⟩ (QC m))

include hkv hrv in
/-- The kernel's result array is the reference's result of the same arguments: the two nestings of the triple sum agree
    over finite reals. -/
theorem result_eq (m : (ℓ : Loc nD τ sig) → Buf (Elt Ideal) ℓ) (hpre : Cert.Pre_KernelIdeal m) (c : Dev nD) :
    (outArr m c : FVec Ideal S1024x1 .f32)
      = Cert.ReferenceIdeal.RefRun.refOut (A0 m c) (A1 m c) (A3 m c) (A4 m c) (A5 m c) := by
  have hopt := optOK_of_pre m hpre c
  refine funext fun (j : S1024x1.Idx) => ?_
  have h1 : @Eq (Fin 1) (j 1) 0 := Subsingleton.elim (α := Fin 1) _ _
  obtain ⟨b, rfl⟩ : ∃ b : Fin 1024, j = ix2 b (0 : Fin 1) :=
    ⟨j 0, (eq_ix2 (n0 := 1024) (n1 := 1) j).trans (congrArg (ix2 (n0 := 1024) (n1 := 1) (j 0)) h1)⟩
  rw [hkv m c hopt b, hrv (A0 m c) (A1 m c) (A3 m c) (A4 m c) (A5 m c) (fun b => hopt _) b]
  exact Cert.Hand.SumLaw.contract_assoc_512_128_128
    (fun i => A0 m c (ix2 b i)) (fun i h1 => A3 m c (ix3 (oK m c hopt b) i h1))
    (fun h1 h2 => A4 m c (ix3 (oK m c hopt b) h1 h2)) (fun h2 => A5 m c (ix3 (oK m c hopt b) h2 (0 : Fin 1)))
    (fun i => Cert.Hand.PreDecode.finite_state (A0 m c) (A1 m c) (A2 m c) (A3 m c) (A4 m c) (A5 m c) (hpre c) _)
    (fun i h1 => Cert.Hand.PreDecode.finite_l1 (A0 m c) (A1 m c) (A2 m c) (A3 m c) (A4 m c) (A5 m c) (hpre c) _)
    (fun h1 h2 => Cert.Hand.PreDecode.finite_l2 (A0 m c) (A1 m c) (A2 m c) (A3 m c) (A4 m c) (A5 m c) (hpre c) _)
    (fun h2 => Cert.Hand.PreDecode.finite_l3 (A0 m c) (A1 m c) (A2 m c) (A3 m c) (A4 m c) (A5 m c) (hpre c) _)

include hkv hrv hrun in
/-- From memories that agree on the arguments both programs run, leave their arguments unchanged and end with equal
    results. -/
theorem algebraic_of : Cert.algebraic_KernelIdeal_ReferenceIdeal := by
  intro m ρ m' ρ' hpre hagree
  refine ⟨fun c => outArr m c, (θ_run _ _ _).mono (fun r h c => h c) (hrun (F := Ideal) m ρ (optOK_of_pre m hpre)), ?_⟩
  refine (θ_run Cert.ReferenceIdeal.defs _ _).mono (fun r h c => ⟨(h c).1.trans ?_, (h c).2⟩) (Cert.ReferenceIdeal.RefRun.run m' ρ')
  rw [(hagree c).1, (hagree c).2.1, (hagree c).2.2.2.1, (hagree c).2.2.2.2.1, (hagree c).2.2.2.2.2]
  exact (result_eq hkv hrv m hpre c).symm

end Cert.Proof.KIClaims

end
-- ==== Proof.RefValue.lean ====
import proofs.«205531_g87737591923446_cont_sun_m_531_28_alg».proof.Proof.RefRun
import Idealize.ShloMosaic.Lib.ValueIdx
import Idealize.ShloMosaic.Lib.Pipeline.Value
import Idealize.ShloMosaic.PureOps.Ideal.Laws

/-
  The reference's value at one index, for option words that are in range.  Each of the 1024 batch rows b carries
  an option word; when every option is below 64 the three takes of the reference read, for row b, the matrices
  at index opt[b] of the three tables: the wrap of negative options keeps a non-negative word, the range mask is
  true everywhere, the gather's clamp of the start index is the identity, and the select returns the gathered
  matrix.  The three batched products then multiply the state row b through those three matrices, so the result
  at (b, 0) is the triple sum
      Σ_{h2} ( Σ_{h1} ( Σ_i state[b,i] · T1[opt b, i, h1] ) · T2[opt b, h1, h2] ) · T3[opt b, h2, 0]
  over the extended reals, the factors and the nesting in the order the contractions take them.
  The module first reads three array operations at an index in general (a batched row-times-matrix product, a
  gather of whole matrices, an 'and'-fold of true words), then the words (an option below 64 compared signed with 0
  and 63), then one take, then the products and the result.
-/

noncomputable section

open scoped BigOperators

namespace Cert.ReferenceIdeal.RefValue

open Cert.ReferenceIdeal Cert.ReferenceIdeal.Facts₀ Cert.ReferenceIdeal.RefRun Idealize.ShloMosaic Idealize.ShloMosaic.ValueIdx

/-! ## Three array operations read at an index

A batched row-times-matrix product [B,1,K] x [B,K,N] read at (b, 0, n) is the sum over k of l (b,0,k) * r (b,k,n); a
gather of whole matrices of a [N,C,D] table at a column of R start indices, read at (r, c, e), is the table at (the
r-th start index read signed and clamped into [0, N-1], c, e); a conjunction folded from the true word over words
that are all true is the true word. -/

section Lib

/-- The dimension numbers of a batched product: batch axis 0 of both operands, the left operand's axis 2 contracted
    with the right operand's axis 1. -/
abbrev bdot (B K N : Nat) (wf : DotDims.WF ⟨3, ![B, 1, K]⟩ ⟨3, ![B, K, N]⟩ ⟨3, ![B, 1, N]⟩ [2] [1] [1] [2] [0] [0]) :
    DotDims ⟨3, ![B, 1, K]⟩ ⟨3, ![B, K, N]⟩ ⟨3, ![B, 1, N]⟩ where
  lhsContracting := [2]
  rhsContracting := [1]
  lhsNonContracting := [1]
  rhsNonContracting := [2]
  lhsBatch := [0]
  rhsBatch := [0]
  wf := wf

/-- The batched product read at (b, 0, n): the sum over the contracted axis. -/
theorem bdot_apply {φ₁ φ₂ : FTy} (B K N : Nat)
    (wf : DotDims.WF ⟨3, ![B, 1, K]⟩ ⟨3, ![B, K, N]⟩ ⟨3, ![B, 1, N]⟩ [2] [1] [1] [2] [0] [0])
    (prec : Option ContractPrecision) (sched : HostSchedule)
    (l : FVec Ideal ⟨3, ![B, 1, K]⟩ φ₁) (r : FVec Ideal ⟨3, ![B, K, N]⟩ φ₂) (b : Fin B) (n : Fin N) :
    FloatOps.dotGeneral (bdot B K N wf) prec sched l r (ix3 b (0 : Fin 1) n)
      = ∑ k : Fin K, l (ix3 b (0 : Fin 1) k) * r (ix3 b k n) := by
  rw [Ideal.dotGeneral_apply]
  rw [← Equiv.sum_comp (contrEquiv1 (bdot B K N wf) K rfl rfl).symm]
  refine Finset.sum_congr rfl fun k _ => ?_
  have hl : (bdot B K N wf).lhsIdx (ix3 b (0 : Fin 1) n) ((contrEquiv1 (bdot B K N wf) K rfl rfl).symm k)
      = ix3 b (0 : Fin 1) k := by
    funext x; refine Fin.ext ?_
    match x with
    | ⟨0, _⟩ => rfl
    | ⟨1, _⟩ => rfl
    | ⟨2, _⟩ => rfl
  have hr : (bdot B K N wf).rhsIdx (ix3 b (0 : Fin 1) n) ((contrEquiv1 (bdot B K N wf) K rfl rfl).symm k)
      = ix3 b k n := by
    funext x; refine Fin.ext ?_
    match x with
    | ⟨0, _⟩ => rfl
    | ⟨1, _⟩ => rfl
    | ⟨2, _⟩ => rfl
  rw [hl, hr]

variable {α : Type}

/-- The dimension numbers of a look-up of whole matrices: operand [N,C,D], start indices [R,1] (one index component per
    row, naming operand axis 0, which is collapsed), result [R,C,D], slices of one matrix. -/
abbrev matsDims (N R C D : Nat)
    (wf : GatherDims.WF ⟨3, ![N, C, D]⟩ ⟨2, ![R, 1]⟩ ⟨3, ![R, C, D]⟩ [1, 2] [0] [] [0] [] 1 ![1, C, D]) :
    GatherDims ⟨3, ![N, C, D]⟩ ⟨2, ![R, 1]⟩ ⟨3, ![R, C, D]⟩ where
  offsetDims := [1, 2]
  collapsedSliceDims := [0]
  operandBatchingDims := []
  startIndicesBatchingDims := []
  startIndexMap := [0]
  indexVectorDim := 1
  sliceSizes := ![1, C, D]
  wf := wf

/-- An index word read signed and clamped into [0, N-1]: the matrix a look-up reads. -/
def clampRow (N : Nat) (hN : 0 < N) {w : Nat} (v : BitVec w) : Fin N := ⟨min v.toInt.toNat (N - 1), by omega⟩

/-- A word that is, read unsigned, below N ≤ 2^31 names the matrix of its unsigned value: the clamp is the identity. -/
theorem clampRow_of_lt {N : Nat} (hN : 0 < N) (v : BitVec 32) (h : v.toNat < N) (hN' : N ≤ 2 ^ 31) :
    clampRow N hN v = ⟨v.toNat, h⟩ := by
  refine Fin.ext ?_
  have h' := BitVec.toInt_eq_toNat_cond v
  show min v.toInt.toNat (N - 1) = v.toNat
  split at h' <;> omega

/-- The gather read at (r, c, e): the table at matrix (the r-th start index, read signed and clamped into [0, N-1]),
    row c, column e. -/
theorem gather_mats_apply {N R C D w : Nat} (hN : 0 < N)
    (wf : GatherDims.WF ⟨3, ![N, C, D]⟩ ⟨2, ![R, 1]⟩ ⟨3, ![R, C, D]⟩ [1, 2] [0] [] [0] [] 1 ![1, C, D])
    (x : (⟨3, ![N, C, D]⟩ : Shape).Idx → α) (idx : IVec ⟨2, ![R, 1]⟩ w) (r : Fin R) (c : Fin C) (e : Fin D) :
    Host.gather (matsDims N R C D wf) x idx (ix3 r c e)
      = x (ix3 (clampRow N hN (idx (ix2 r (0 : Fin 1)))) c e) := by
  unfold Host.gather
  congr 1
  funext a
  refine Fin.ext ?_
  show (matsDims N R C D wf).start (ix3 r c e) idx a + (matsDims N R C D wf).batchCoord (ix3 r c e) a
    + (matsDims N R C D wf).offCoord (ix3 r c e) a = _
  rw [GatherDims.batchCoord_eq_zero _ _ _ List.not_mem_nil]
  -- every start-index component of result row r is read at (r, 0): there is one component
  have hsi : ∀ p, (matsDims N R C D wf).siIdx (ix3 r c e) p = ix2 r (0 : Fin 1) := by
    intro p
    funext b; refine Fin.ext ?_
    match b with
    | ⟨0, _⟩ => rfl
    | ⟨1, _⟩ => exact Nat.lt_one_iff.mp p.isLt
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    split
    · rw [hsi]; rfl
    · rename_i ha; exact absurd (List.mem_singleton.mpr rfl) ha
  | ⟨1, h1⟩ =>
    have hs : (matsDims N R C D wf).start (ix3 r c e) idx ⟨1, h1⟩ = 0 := by
      unfold GatherDims.start
      split
      · rename_i ha; exact absurd (congrArg Fin.val (List.mem_singleton.mp ha)) Nat.one_ne_zero
      · rfl
    rw [hs]
    unfold GatherDims.offCoord
    split
    · rw [Nat.zero_add]
      rfl
    · rename_i ha
      exact absurd ((GatherDims.mem_sKept _ _).mpr ⟨fun h => absurd (congrArg Fin.val (List.mem_singleton.mp h)) Nat.one_ne_zero,
        List.not_mem_nil⟩) ha
  | ⟨2, h2⟩ =>
    have hs : (matsDims N R C D wf).start (ix3 r c e) idx ⟨2, h2⟩ = 0 := by
      unfold GatherDims.start
      split
      · rename_i ha; exact absurd (congrArg Fin.val (List.mem_singleton.mp ha)) (show (2 : ℕ) ≠ 0 by decide)
      · rfl
    rw [hs]
    unfold GatherDims.offCoord
    split
    · rw [Nat.zero_add]
      rfl
    · rename_i ha
      exact absurd ((GatherDims.mem_sKept _ _).mpr ⟨fun h => absurd (congrArg Fin.val (List.mem_singleton.mp h)) (show (2 : ℕ) ≠ 0 by decide),
        List.not_mem_nil⟩) ha

/-- Folding "and" from the true word over words that are all true gives the true word, whichever words are folded. -/
theorem foldl_andi_ones {ι : Type} (x : ι → BitVec 1) (l : List ι) (h : ∀ n ∈ l, x n = 1#1) :
    l.foldl (fun r n => IntOp.andi r (x n)) 1#1 = 1#1 := by
  induction l with
  | nil => rfl
  | cons a l ih =>
    rw [List.foldl_cons, h a (List.mem_cons_self ..)]
    exact ih fun n hn => h n (List.mem_cons_of_mem _ hn)

end Lib

/-! ## Words: an option below 64 -/

section Words

/-- A 32-bit word whose unsigned value is below 64 reads the same signed. -/
theorem toInt_of_lt64 (v : BitVec 32) (h : v.toNat < 64) : v.toInt = (v.toNat : ℤ) := by
  rw [BitVec.toInt_eq_toNat_cond]
  split <;> omega

/-- Such a word is not negative: the signed comparison "v < 0" is false. -/
theorem cmpi_slt_zero (v : BitVec 32) (h : v.toNat < 64) : IntOp.cmpi .slt v 0#32 = 0#1 := by
  show BitVec.ofBool (v.slt 0#32) = 0#1
  have : v.slt 0#32 = false := by
    rw [BitVec.slt, toInt_of_lt64 v h]
    simp
  rw [this]; rfl

/-- "v ≥ 0" (signed) is true. -/
theorem cmpi_sge_zero (v : BitVec 32) (h : v.toNat < 64) : IntOp.cmpi .sge v 0#32 = 1#1 := by
  show BitVec.ofBool ((0#32).sle v) = 1#1
  have : (0#32).sle v = true := by
    rw [BitVec.sle, toInt_of_lt64 v h]
    simp
  rw [this]; rfl

/-- "v ≤ 63" (signed) is true. -/
theorem cmpi_sle_63 (v : BitVec 32) (h : v.toNat < 64) : IntOp.cmpi .sle v 63#32 = 1#1 := by
  show BitVec.ofBool (v.sle 63#32) = 1#1
  have : v.sle 63#32 = true := by
    rw [BitVec.sle, toInt_of_lt64 v h]
    have h63 : (63#32 : BitVec 32).toInt = 63 := by decide
    rw [h63]
    simp only [decide_eq_true_eq]
    omega
  rw [this]; rfl

end Words

/-! ## One take at in-range options -/

section Take

variable (opt : IVec S1024x1 32) (hopt : ∀ b : Fin 1024, (opt (ix2 b (0 : Fin 1))).toNat < 64)

/-- The row of the tables that batch row `b` reads: its option word, which is below 64. -/
abbrev optRow (b : Fin 1024) : Fin 64 := ⟨(opt (ix2 b (0 : Fin 1))).toNat, hopt b⟩

/-- The option vector at `b` is the option column at (b, 0). -/
theorem optVec_apply (b : Fin 1024) : optVec opt (ix1 b) = opt (ix2 b (0 : Fin 1)) := by
  unfold optVec
  refine shapeCast_apply opt _ (ix1 b) (ix2 b (0 : Fin 1)) ?_
  rw [Shape.rowMajor_val_two, Shape.rowMajor_val_one]
  show b.val * 1 + 0 = b.val
  omega

include hopt in
/-- The wrap keeps an option that is not negative. -/
theorem wrapOpt_apply (b : Fin 1024) : wrapOpt (optVec opt) (ix1 b) = opt (ix2 b (0 : Fin 1)) := by
  show Scalar.select (IntOp.cmpi .slt (optVec opt (ix1 b)) 0#32) _ (optVec opt (ix1 b)) = _
  rw [optVec_apply, cmpi_slt_zero _ (hopt b), select_zero]

include hopt in
/-- The start index of batch row `b` is its option word. -/
theorem startIdx_apply (b : Fin 1024) : startIdx (optVec opt) (ix2 b (0 : Fin 1)) = opt (ix2 b (0 : Fin 1)) := by
  unfold startIdx
  refine (broadcastInDim_apply _ _ (wrapOpt (optVec opt)) (ix2 b (0 : Fin 1)) (ix1 b) fun a => ?_).trans (wrapOpt_apply opt hopt b)
  match a with
  | ⟨0, _⟩ => rfl

include hopt in
/-- Every start index is in range: the mask is all true. -/
theorem inRange_apply (j : S1024.Idx) : inRange (startIdx (optVec opt)) j = 1#1 := by
  unfold inRange Host.reduce
  refine foldl_andi_ones _ _ fun n _ => ?_
  generalize (S1024x1.rowMajor.symm n) = idx
  obtain ⟨a, c, rfl⟩ : ∃ a c, idx = ix2 a c := ⟨idx 0, idx 1, eq_ix2 idx⟩
  obtain rfl : c = 0 := Subsingleton.elim _ _
  show IntOp.andi (IntOp.cmpi .sge (startIdx (optVec opt) (ix2 a (0 : Fin 1))) 0#32)
    (IntOp.cmpi .sle (startIdx (optVec opt) (ix2 a (0 : Fin 1))) 63#32) = 1#1
  rw [startIdx_apply opt hopt a, cmpi_sge_zero _ (hopt a), cmpi_sle_63 _ (hopt a)]
  rfl

end Take

/-! ## The three takes, the three products and the result at an index -/

section Value

variable (opt : IVec S1024x1 32) (hopt : ∀ b : Fin 1024, (opt (ix2 b (0 : Fin 1))).toNat < 64)

include hopt in
/-- The first take at (b, c, e): the table's matrix at `b`'s option, read at (c, e). -/
theorem take1_apply (l : FVec Ideal S64x512x128 .f32) (b : Fin 1024) (c : Fin 512) (e : Fin 128) :
    take1 l (optVec opt) (ix3 b c e) = l (ix3 (optRow opt hopt b) c e) := by
  show Scalar.select (broadcastInDim S1024x512x128 ![0] bcast_S1024_S1024x512x128_0 (inRange (startIdx (optVec opt))) (ix3 b c e))
    (Host.gather (matsDims 64 1024 512 128 gather_S64x512x128_S1024x1_S1024x512x128_12_0_n_n_0_1_1512128_wf) l (startIdx (optVec opt)) (ix3 b c e)) _ = _
  have hm : broadcastInDim S1024x512x128 ![0] bcast_S1024_S1024x512x128_0 (inRange (startIdx (optVec opt))) (ix3 b c e) = 1#1 := by
    refine (broadcastInDim_apply _ _ (inRange (startIdx (optVec opt))) (ix3 b c e) (ix1 b) fun a => ?_).trans
      (inRange_apply opt hopt _)
    match a with
    | ⟨0, _⟩ => rfl
  rw [hm, select_one, gather_mats_apply (by decide), startIdx_apply opt hopt b,
    clampRow_of_lt (by decide) _ (hopt b) (by decide)]

include hopt in
/-- The second take at (b, c, e): the table's matrix at `b`'s option, read at (c, e). -/
theorem take2_apply (l : FVec Ideal S64x128x128 .f32) (b : Fin 1024) (c : Fin 128) (e : Fin 128) :
    take2 l (optVec opt) (ix3 b c e) = l (ix3 (optRow opt hopt b) c e) := by
  show Scalar.select (broadcastInDim S1024x128x128 ![0] bcast_S1024_S1024x128x128_0 (inRange (startIdx (optVec opt))) (ix3 b c e))
    (Host.gather (matsDims 64 1024 128 128 gather_S64x128x128_S1024x1_S1024x128x128_12_0_n_n_0_1_1128128_wf) l (startIdx (optVec opt)) (ix3 b c e)) _ = _
  have hm : broadcastInDim S1024x128x128 ![0] bcast_S1024_S1024x128x128_0 (inRange (startIdx (optVec opt))) (ix3 b c e) = 1#1 := by
    refine (broadcastInDim_apply _ _ (inRange (startIdx (optVec opt))) (ix3 b c e) (ix1 b) fun a => ?_).trans
      (inRange_apply opt hopt _)
    match a with
    | ⟨0, _⟩ => rfl
  rw [hm, select_one, gather_mats_apply (by decide), startIdx_apply opt hopt b,
    clampRow_of_lt (by decide) _ (hopt b) (by decide)]

include hopt in
/-- The third take at (b, c, e): the table's matrix at `b`'s option, read at (c, e). -/
theorem take3_apply (l : FVec Ideal S64x128x1 .f32) (b : Fin 1024) (c : Fin 128) (e : Fin 1) :
    take3 l (optVec opt) (ix3 b c e) = l (ix3 (optRow opt hopt b) c e) := by
  show Scalar.select (broadcastInDim S1024x128x1 ![0] bcast_S1024_S1024x128x1_0 (inRange (startIdx (optVec opt))) (ix3 b c e))
    (Host.gather (matsDims 64 1024 128 1 gather_S64x128x1_S1024x1_S1024x128x1_12_0_n_n_0_1_11281_wf) l (startIdx (optVec opt)) (ix3 b c e)) _ = _
  have hm : broadcastInDim S1024x128x1 ![0] bcast_S1024_S1024x128x1_0 (inRange (startIdx (optVec opt))) (ix3 b c e) = 1#1 := by
    refine (broadcastInDim_apply _ _ (inRange (startIdx (optVec opt))) (ix3 b c e) (ix1 b) fun a => ?_).trans
      (inRange_apply opt hopt _)
    match a with
    | ⟨0, _⟩ => rfl
  rw [hm, select_one, gather_mats_apply (by decide), startIdx_apply opt hopt b,
    clampRow_of_lt (by decide) _ (hopt b) (by decide)]

/-- The state rows as [1,512] matrices, read at (b, 0, i). -/
theorem stateRows_apply (state : FVec Ideal S1024x512 .f32) (b : Fin 1024) (i : Fin 512) :
    stateRows state (ix3 b (0 : Fin 1) i) = state (ix2 b i) := by
  unfold stateRows
  refine broadcastInDim_apply _ _ state (ix3 b (0 : Fin 1) i) (ix2 b i) fun a => ?_
  match a with
  | ⟨0, _⟩ => rfl
  | ⟨1, _⟩ => rfl

include hopt in
/-- The first product at (b, 0, h1). -/
theorem x1_apply (state : FVec Ideal S1024x512 .f32) (l1 : FVec Ideal S64x512x128 .f32) (b : Fin 1024) (h1 : Fin 128) :
    x1 state l1 (optVec opt) (ix3 b (0 : Fin 1) h1)
      = ∑ i : Fin 512, state (ix2 b i) * l1 (ix3 (optRow opt hopt b) i h1) := by
  show FloatOps.dotGeneral (bdot 1024 512 128 dot_S1024x1x512_S1024x512x128_S1024x1x128_2_1_1_2_0_0_wf) none .single
    (stateRows state) (take1 l1 (optVec opt)) (ix3 b (0 : Fin 1) h1) = _
  rw [bdot_apply]
  refine Finset.sum_congr rfl fun i _ => ?_
  rw [stateRows_apply, take1_apply opt hopt]

include hopt in
/-- The second product at (b, 0, h2). -/
theorem x2_apply (state : FVec Ideal S1024x512 .f32) (l1 : FVec Ideal S64x512x128 .f32) (l2 : FVec Ideal S64x128x128 .f32)
    (b : Fin 1024) (h2 : Fin 128) :
    x2 state l1 l2 (optVec opt) (ix3 b (0 : Fin 1) h2)
      = ∑ h1 : Fin 128, (∑ i : Fin 512, state (ix2 b i) * l1 (ix3 (optRow opt hopt b) i h1))
          * l2 (ix3 (optRow opt hopt b) h1 h2) := by
  show FloatOps.dotGeneral (bdot 1024 128 128 dot_S1024x1x128_S1024x128x128_S1024x1x128_2_1_1_2_0_0_wf) none .single
    (x1 state l1 (optVec opt)) (take2 l2 (optVec opt)) (ix3 b (0 : Fin 1) h2) = _
  rw [bdot_apply]
  refine Finset.sum_congr rfl fun h1 _ => ?_
  rw [x1_apply opt hopt, take2_apply opt hopt]

include hopt in
/-- The third product at (b, 0, 0). -/
theorem x3_apply (state : FVec Ideal S1024x512 .f32) (l1 : FVec Ideal S64x512x128 .f32) (l2 : FVec Ideal S64x128x128 .f32)
    (l3 : FVec Ideal S64x128x1 .f32) (b : Fin 1024) :
    x3 state l1 l2 l3 (optVec opt) (ix3 b (0 : Fin 1) (0 : Fin 1))
      = ∑ h2 : Fin 128, (∑ h1 : Fin 128, (∑ i : Fin 512, state (ix2 b i) * l1 (ix3 (optRow opt hopt b) i h1))
          * l2 (ix3 (optRow opt hopt b) h1 h2)) * l3 (ix3 (optRow opt hopt b) h2 (0 : Fin 1)) := by
  show FloatOps.dotGeneral (bdot 1024 128 1 dot_S1024x1x128_S1024x128x1_S1024x1x1_2_1_1_2_0_0_wf) none .single
    (x2 state l1 l2 (optVec opt)) (take3 l3 (optVec opt)) (ix3 b (0 : Fin 1) (0 : Fin 1)) = _
  rw [bdot_apply]
  refine Finset.sum_congr rfl fun h2 _ => ?_
  rw [x2_apply opt hopt, take3_apply opt hopt]

omit opt hopt in
/-- THE REFERENCE'S VALUE AT (b, 0), for options in range: the state row `b` multiplied through the three matrices the
    option of `b` names, the products and sums in the order the three contractions take them. -/
theorem refOut_apply (state : FVec Ideal S1024x512 .f32) (opt : IVec S1024x1 32) (l1 : FVec Ideal S64x512x128 .f32)
    (l2 : FVec Ideal S64x128x128 .f32) (l3 : FVec Ideal S64x128x1 .f32)
    (hopt : ∀ b : Fin 1024, (opt (ix2 b (0 : Fin 1))).toNat < 64) (b : Fin 1024) :
    refOut state opt l1 l2 l3 (ix2 b (0 : Fin 1))
      = ∑ h2 : Fin 128, (∑ h1 : Fin 128, (∑ i : Fin 512, state (ix2 b i) * l1 (ix3 (optRow opt hopt b) i h1))
          * l2 (ix3 (optRow opt hopt b) h1 h2)) * l3 (ix3 (optRow opt hopt b) h2 (0 : Fin 1)) := by
  unfold refOut
  refine (shapeCast_apply _ _ (ix2 b (0 : Fin 1)) (ix3 b (0 : Fin 1) (0 : Fin 1)) ?_).trans (x3_apply opt hopt state l1 l2 l3 b)
  rw [Shape.rowMajor_val_three, Shape.rowMajor_val_two]
  show (b.val * 1 + 0) * 1 + 0 = b.val * 1 + 0
  omega

end Value

end Cert.ReferenceIdeal.RefValue

end
-- ==== Proof.RefFrame.lean ====
import proofs.«205531_g87737591923446_cont_sun_m_531_28_alg».proof.Defs
import proofs.«205531_g87737591923446_cont_sun_m_531_28_alg».proof.Proof.Gen.Pre_input_domain
import proofs.«205531_g87737591923446_cont_sun_m_531_28_alg».proof.Proof.RefRun

/-
  The reference's frame claim: from any memory, every execution of the reference terminates with its six argument
  buffers as they were.  It is the run of the reference with the conjunct about the result buffer dropped: the run
  already says each argument ends at its launch contents.
-/

noncomputable section

namespace Cert.ReferenceIdeal.RefRun

open Idealize.ShloMosaic Idealize.SL.Sem

/-- The reference terminates and leaves its arguments unchanged. -/
theorem frame : Cert.frame_ReferenceIdeal := fun m ρ _ =>
  (θ_run (Cert.ReferenceIdeal.defs (F := Ideal)) _ _).mono (fun _ h c => (h c).2) (run m ρ)

end Cert.ReferenceIdeal.RefRun

end
-- ==== Proof.lean ====
/-
  The certificate's claim for the option-selected three-layer scorer.

  Both programs compute, for each of 1024 rows `b` with option `o = option[b]` in `[0, 64)`,
  `Σ_i Σ_{h1} Σ_{h2} state[b, i] · l1[o, i, h1] · l2[o, h1, h2] · l3[o, h2]`.
  The reference brackets it from the left: it gathers the three weight matrices of row `b`'s option and multiplies
  `state[b, ·]` through them. The kernel brackets it from the right: a TensorCore region first contracts the three
  weight arrays into one vector `v[o, ·]` per option and multiplies the whole state by all sixty-four of them, and
  thirty-two vector subcores then pick, for each row, the score of its own option. Over the extended reals the two
  bracketings agree because every input is finite (the precondition), so sums and products are those of real numbers;
  the precondition's range of the options is what makes the subcores' indexed loads and the reference's gathers read
  inside their tables.

  The three frames are the programs' runs with their values dropped: the kernel's run (at the word-level instance
  and at the ideal one) is assembled by the SparseCore launch theorem from the subcores' task, the TensorCore's @main
  and the region's three grid points; the reference's run is its host operations composed. The ideal pass rewrote
  nothing, so the kernel's idealization is the program's own text read at the ideal instance.
-/
import proofs.«205531_g87737591923446_cont_sun_m_531_28_alg».proof.Defs
import proofs.«205531_g87737591923446_cont_sun_m_531_28_alg».proof.Proof.Gen.Kernel
import proofs.«205531_g87737591923446_cont_sun_m_531_28_alg».proof.Proof.Gen.KernelIdeal
import proofs.«205531_g87737591923446_cont_sun_m_531_28_alg».proof.Proof.Gen.ReferenceIdeal
import proofs.«205531_g87737591923446_cont_sun_m_531_28_alg».proof.Proof.Gen.Pre_input_domain
import proofs.«205531_g87737591923446_cont_sun_m_531_28_alg».proof.Proof.KILaunch
import proofs.«205531_g87737591923446_cont_sun_m_531_28_alg».proof.Proof.KBLaunch
import proofs.«205531_g87737591923446_cont_sun_m_531_28_alg».proof.Proof.KIFrame
import proofs.«205531_g87737591923446_cont_sun_m_531_28_alg».proof.Proof.KBFrame
import proofs.«205531_g87737591923446_cont_sun_m_531_28_alg».proof.Proof.KIValue
import proofs.«205531_g87737591923446_cont_sun_m_531_28_alg».proof.Proof.KIClaims
import proofs.«205531_g87737591923446_cont_sun_m_531_28_alg».proof.Proof.RefValue
import proofs.«205531_g87737591923446_cont_sun_m_531_28_alg».proof.Proof.RefFrame
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_input_domain := Cert.Pre_input_domain.Gen.facts) :=
  Cert.Proof.KBFrame.frame_of_run (fun m ρ h => Cert.Kernel.Hand.run_main m ρ h)

/-- The idealized kernel runs and leaves its arguments unchanged. -/
theorem frame_kernelIdeal : Cert.frame_KernelIdeal (hKernelIdeal := Cert.KernelIdeal.Gen.facts) (hPre_input_domain := Cert.Pre_input_domain.Gen.facts) :=
  Cert.Proof.KIFrame.frame_of_run (fun m ρ h => Cert.KernelIdeal.Hand.run_main m ρ h)

/-- At the ideal instance the kernel's result and the reference's are one array: the two bracketings of the triple sum. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  Cert.Proof.KIClaims.algebraic_of (fun m d hopt b => Cert.KernelIdeal.Hand.kernel_value m d hopt b)
    Cert.ReferenceIdeal.RefValue.refOut_apply (fun m ρ h => Cert.KernelIdeal.Hand.run_main m ρ h)

theorem claim : Cert.Claim :=
  ⟨Cert.Kernel.Gen.facts, Cert.KernelIdeal.Gen.facts, Cert.ReferenceIdeal.Gen.facts, Cert.Pre_input_domain.Gen.facts,
    frame_kernel, frame_kernelIdeal, Cert.ReferenceIdeal.RefRun.frame, trivial, algebraic⟩

end Cert.Proof

end
